-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S50000x128 : Shape := ⟨2, ![50000, 128]⟩
abbrev S500x128 : Shape := ⟨2, ![500, 128]⟩
abbrev S366x128 : Shape := ⟨2, ![366, 128]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S366x128 : S_.BroadcastsInDim S366x128 (![] : Fin 0 → Fin S366x128.rank)
  reducesTo_S366x128_S_d0_1 : S366x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg16
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg17
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128x128 .f32 := Host.absf main_arg12
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg13
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg14
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg15
  let main_cst_18 : FVec F S_ .f32 := constant S_ .f32 0x7F800000#32
  let main_v50 : FVec F S128 .f32 := broadcastInDim S128 ![] bcast_S_S128 main_cst_18
  fn_part3 (F := F) main_arg16 main_arg17 main_v48 main_v49 main_v50

def fn_part1 {F : FTy → Type} [FloatOps F] (main_arg9 : FVec F S128 .f32) (main_arg10 : FVec F S384x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg10
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg12 main_arg13 main_arg14 main_arg15 main_arg16 main_arg17 main_v33

def fn {F : FTy → Type} [FloatOps F] (main_arg0 : IVec S500000 32) (main_arg1 : IVec S500000 32) (main_arg2 : IVec S500000 32) (main_arg3 : IVec S500000 32) (main_arg4 : IVec S500000 32) (main_arg5 : FVec F S50000x128 .f32) (main_arg6 : FVec F S500x128 .f32) (main_arg7 : FVec F S366x128 .f32) (main_arg8 : FVec F S384x128 .f32) (main_arg9 : FVec F S128 .f32) (main_arg10 : FVec F S384x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S50000x128 .f32 := Host.absf main_arg5
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500x128 .f32 := Host.absf main_arg6
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S366x128 .f32 := Host.absf main_arg7
  let main_cst_2 : FVec F S_ .f32 := constant S_ .f32 0x7F800000#32
  let main_v10 : FVec F S366x128 .f32 := broadcastInDim S366x128 ![] bcast_S_S366x128 main_cst_2
  let main_v11 : IVec S366x128 1 := cmpf .olt main_v9 main_v10
  let main_c_3 : IVec S_ 1 := constantI S_ 1 1#1
  let main_v12 : IVec S_ 1 := (fun x v => Host.reduce IntOp.andi x v reducesTo_S366x128_S_d0_1 h_S_) main_v11 main_c_3
  let main_v13 : IVec S_ 1 := andi main_v8 main_v12
  let main_v14 : FVec F S384x128 .f32 := Host.absf main_arg8
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg9 main_arg10 main_arg11 main_arg12 main_arg13 main_arg14 main_arg15 main_arg16 main_arg17 main_v13 main_v16
-- ==== Kernel.lean ====
abbrev S500000 : Shape := ⟨1, ![500000]⟩
abbrev S50000x128 : Shape := ⟨2, ![50000, 128]⟩
abbrev S500x128 : Shape := ⟨2, ![500, 128]⟩
abbrev S366x128 : Shape := ⟨2, ![366, 128]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S500000x128 : Shape := ⟨2, ![500000, 128]⟩
abbrev S500000x384 : Shape := ⟨2, ![500000, 384]⟩
abbrev S1x128 : Shape := ⟨2, ![1, 128]⟩
abbrev S4000x384 : Shape := ⟨2, ![4000, 384]⟩
abbrev S4000x1 : Shape := ⟨2, ![4000, 1]⟩
abbrev S4000x128 : Shape := ⟨2, ![4000, 128]⟩
abbrev S50000 : Shape := ⟨1, ![50000]⟩
abbrev S50000x1 : Shape := ⟨2, ![50000, 1]⟩
abbrev S5000x128 : Shape := ⟨2, ![5000, 128]⟩

abbrev nBuf : Space → Nat
  | .hbm => 80
  | .vmem => 28
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S50000x128, .f32⟩
  | .hbm, ⟨6, _⟩ => ⟨S500x128, .f32⟩
  | .hbm, ⟨7, _⟩ => ⟨S366x128, .f32⟩
  | .hbm, ⟨8, _⟩ => ⟨S384x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .f32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x128, .f32⟩
  | .hbm, ⟨45, _⟩ => ⟨S500000x384, .f32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S500000, .f32⟩
  | .hbm, ⟨50, _⟩ => ⟨S500000x1, .f32⟩
  | .hbm, ⟨51, _⟩ => ⟨S1x128, .f32⟩
  | .hbm, ⟨52, _⟩ => ⟨S1x128, .f32⟩
  | .hbm, ⟨53, _⟩ => ⟨S500000x128, .f32⟩
  | .hbm, ⟨54, _⟩ => ⟨S_, .f32⟩
  | .hbm, ⟨55, _⟩ => ⟨S50000x128, .f32⟩
  | .hbm, ⟨56, _⟩ => ⟨S500000x1, .i32⟩
  | .hbm, ⟨57, _⟩ => ⟨S50000x128, .f32⟩
  | .hbm, ⟨58, _⟩ => ⟨S_, .f32⟩
  | .hbm, ⟨59, _⟩ => ⟨S500000, .f32⟩
  | .hbm, ⟨60, _⟩ => ⟨S_, .f32⟩
  | .hbm, ⟨61, _⟩ => ⟨S50000, .f32⟩
  | .hbm, ⟨62, _⟩ => ⟨S500000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S_, .f32⟩
  | .hbm, ⟨73, _⟩ => ⟨S500x128, .f32⟩
  | .hbm, ⟨74, _⟩ => ⟨S1x128, .f32⟩
  | .hbm, ⟨75, _⟩ => ⟨S500x128, .f32⟩
  | .hbm, ⟨76, _⟩ => ⟨S_, .f32⟩
  | .hbm, ⟨77, _⟩ => ⟨S366x128, .f32⟩
  | .hbm, ⟨78, _⟩ => ⟨S1x128, .f32⟩
  | .hbm, ⟨79, _⟩ => ⟨S366x128, .f32⟩
  | .local _ .vmem, ⟨0, _⟩ => ⟨S4000x384, .f32⟩
  | .local _ .vmem, ⟨1, _⟩ => ⟨S4000x384, .f32⟩
  | .local _ .vmem, ⟨2, _⟩ => ⟨S4000x1, .f32⟩
  | .local _ .vmem, ⟨3, _⟩ => ⟨S4000x1, .f32⟩
  | .local _ .vmem, ⟨4, _⟩ => ⟨S384x128, .f32⟩
  | .local _ .vmem, ⟨5, _⟩ => ⟨S384x128, .f32⟩
  | .local _ .vmem, ⟨6, _⟩ => ⟨S1x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S500x128, .f32⟩
  | .local _ .vmem, ⟨19, _⟩ => ⟨S128x128, .f32⟩
  | .local _ .vmem, ⟨20, _⟩ => ⟨S1x128, .f32⟩
  | .local _ .vmem, ⟨21, _⟩ => ⟨S500x128, .f32⟩
  | .local _ .vmem, ⟨22, _⟩ => ⟨S500x128, .f32⟩
  | .local _ .vmem, ⟨23, _⟩ => ⟨S366x128, .f32⟩
  | .local _ .vmem, ⟨24, _⟩ => ⟨S128x128, .f32⟩
  | .local _ .vmem, ⟨25, _⟩ => ⟨S1x128, .f32⟩
  | .local _ .vmem, ⟨26, _⟩ => ⟨S366x128, .f32⟩
  | .local _ .vmem, ⟨27, _⟩ => ⟨S366x128, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S500x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S500x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S366x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S366x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S366x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  shapeCasts_S128_S1x128 : S128.ShapeCasts S1x128
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  broadcasts_S1x128_S5000x128 : S1x128.Broadcasts S5000x128
  shapeCasts_S5000x128_S5000x128 : S5000x128.ShapeCasts S5000x128
  bcast_S_S500x128 : S_.BroadcastsInDim S500x128 (![] : Fin 0 → Fin S500x128.rank)
  inb_S500x128_S500x128_0_0 : ∀ a, (![0, 0] : Fin 2 → Nat) a + S500x128.size a ≤ S500x128.size a
  h_S500x128 : 0 < S500x128.numel
  broadcasts_S1x128_S500x128 : S1x128.Broadcasts S500x128
  shapeCasts_S500x128_S500x128 : S500x128.ShapeCasts S500x128
  bcast_S_S366x128 : S_.BroadcastsInDim S366x128 (![] : Fin 0 → Fin S366x128.rank)
  inb_S366x128_S366x128_0_0 : ∀ a, (![0, 0] : Fin 2 → Nat) a + S366x128.size a ≤ S366x128.size a
  h_S366x128 : 0 < S366x128.numel
  broadcasts_S1x128_S366x128 : S1x128.Broadcasts S366x128
  shapeCasts_S366x128_S366x128 : S366x128.ShapeCasts S366x128
  gather_S500x128_S500000x1_S500000x128_1_0_n_n_0_1_1128_wf : GatherDims.WF S500x128 S500000x1 S500000x128 [1] [0] [] [0] [] 1 ![1, 128]
  gather_S366x128_S500000x1_S500000x128_1_0_n_n_0_1_1128_wf : GatherDims.WF S366x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S4000x384_S384x128_S4000x128_1_0_0_1_n_n_wf : DotDims.WF S4000x384 S384x128 S4000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S5000x128_S128x128_S5000x128_1_0_0_1_n_n_wf : DotDims.WF S5000x128 S128x128 S5000x128 [1] [0] [0] [1] [] []
  dot_S500x128_S128x128_S500x128_1_0_0_1_n_n_wf : DotDims.WF S500x128 S128x128 S500x128 [1] [0] [0] [1] [] []
  dot_S366x128_S128x128_S366x128_1_0_0_1_n_n_wf : DotDims.WF S366x128 S128x128 S366x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x384.size a ≤ S500000x384.size a
  hwx0_0 : ∀ i : grid0.Coords, EltTy.bits .f32 = 32 ∨ (Rect.block (s := S500000x384) S4000x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S500000x1.size a
  hwx0_1 : ∀ i : grid0.Coords, EltTy.bits .f32 = 32 ∨ (Rect.block (s := S500000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x128.size a ≤ S384x128.size a
  hwx0_2 : ∀ i : grid0.Coords, EltTy.bits .f32 = 32 ∨ (Rect.block (s := S384x128) S384x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S500000x128.size a
  hwx0_6 : ∀ i : grid0.Coords, EltTy.bits .f32 = 32 ∨ (Rect.block (s := S500000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S500x128.size a ≤ S500x128.size a
  hwx2_0 : ∀ i : grid2.Coords, EltTy.bits .f32 = 32 ∨ (Rect.block (s := S500x128) S500x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S500x128.size a ≤ S500x128.size a
  hwx2_3 : ∀ i : grid2.Coords, EltTy.bits .f32 = 32 ∨ (Rect.block (s := S500x128) S500x128.size (cc2_transform_3 i) (hinb2_3 i)).WholeWords (EltTy.packing .f32)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S500x128.size a ≤ S500x128.size a
  hwx2_4 : ∀ i : grid2.Coords, EltTy.bits .f32 = 32 ∨ (Rect.block (s := S500x128) S500x128.size (cc2_transform_4 i) (hinb2_4 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S366x128.size a ≤ S366x128.size a
  hwx3_0 : ∀ i : grid3.Coords, EltTy.bits .f32 = 32 ∨ (Rect.block (s := S366x128) S366x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S366x128.size a ≤ S366x128.size a
  hwx3_3 : ∀ i : grid3.Coords, EltTy.bits .f32 = 32 ∨ (Rect.block (s := S366x128) S366x128.size (cc3_transform_3 i) (hinb3_3 i)).WholeWords (EltTy.packing .f32)
  hstage3_4 : ∀ j, (stage3_4 j).IsWhole
  nbuf3_4 : grid3.bufCount reads3_4 false = 1
  hreads3_4 : ∀ i i' : grid3.Coords, (∀ a, reads3_4 a = true → i a = i' a) → cc3_transform_4 i = cc3_transform_4 i'
  hinb3_4 : ∀ (i : grid3.Coords) a, (cc3_transform_4 i a + 1) * S366x128.size a ≤ S366x128.size a
  hwx3_4 : ∀ i : grid3.Coords, EltTy.bits .f32 = 32 ∨ (Rect.block (s := S366x128) S366x128.size (cc3_transform_4 i) (hinb3_4 i)).WholeWords (EltTy.packing .f32)

variable [Facts₀]

def gather_S500x128_S500000x1_S500000x128_1_0_n_n_0_1_1128 : GatherDims S500x128 S500000x1 S500000x128 where
  offsetDims := [1]
  collapsedSliceDims := [0]
  operandBatchingDims := []
  startIndicesBatchingDims := []
  startIndexMap := [0]
  indexVectorDim := 1
  sliceSizes := ![1, 128]
  wf := gather_S500x128_S500000x1_S500000x128_1_0_n_n_0_1_1128_wf
def gather_S366x128_S500000x1_S500000x128_1_0_n_n_0_1_1128 : GatherDims S366x128 S500000x1 S500000x128 where
  offsetDims := [1]
  collapsedSliceDims := [0]
  operandBatchingDims := []
  startIndicesBatchingDims := []
  startIndexMap := [0]
  indexVectorDim := 1
  sliceSizes := ![1, 128]
  wf := gather_S366x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S366x128_S128x128_S366x128_1_0_0_1_n_n : DotDims S366x128 S128x128 S366x128 where
  lhsContracting := [1]
  rhsContracting := [0]
  lhsNonContracting := [0]
  rhsNonContracting := [1]
  lhsBatch := []
  rhsBatch := []
  wf := dot_S366x128_S128x128_S366x128_1_0_0_1_n_n_wf

abbrev win0_0 : Pipeline.Window sig grid0 :=
  Pipeline.Window.ofSpec (Memref.whole main_v21) S4000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg6) S500x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S500x128.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S500x128.size cc2_transform_4 reads2_4 true false 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg7) S366x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S366x128.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S366x128.size cc3_transform_4 reads3_4 true false 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S500000 : Shape := ⟨1, ![500000]⟩
abbrev S50000x128 : Shape := ⟨2, ![50000, 128]⟩
abbrev S500x128 : Shape := ⟨2, ![500, 128]⟩
abbrev S366x128 : Shape := ⟨2, ![366, 128]⟩
abbrev S384x128 : Shape := ⟨2, ![384, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S500000x128 : Shape := ⟨2, ![500000, 128]⟩
abbrev S500000x384 : Shape := ⟨2, ![500000, 384]⟩
abbrev S1x128 : Shape := ⟨2, ![1, 128]⟩
abbrev S50000 : Shape := ⟨1, ![50000]⟩
abbrev S50000x1 : Shape := ⟨2, ![50000, 1]⟩

abbrev nBuf : Space → Nat
  | .hbm => 89
  | .vmem => 0
  | .smem => 0
  | _ => 0

abbrev bufTy : (tb : Table) → Fin (tcTables nBuf tb) → BufTy
  | .hbm, ⟨0, _⟩ => ⟨S500000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S50000x128, .f32⟩
  | .hbm, ⟨6, _⟩ => ⟨S500x128, .f32⟩
  | .hbm, ⟨7, _⟩ => ⟨S366x128, .f32⟩
  | .hbm, ⟨8, _⟩ => ⟨S384x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .f32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x128, .f32⟩
  | .hbm, ⟨45, _⟩ => ⟨S500000x384, .f32⟩
  | .hbm, ⟨46, _⟩ => ⟨S500000x128, .f32⟩
  | .hbm, ⟨47, _⟩ => ⟨S1x128, .f32⟩
  | .hbm, ⟨48, _⟩ => ⟨S500000x128, .f32⟩
  | .hbm, ⟨49, _⟩ => ⟨S500000x128, .f32⟩
  | .hbm, ⟨50, _⟩ => ⟨S500000x128, .f32⟩
  | .hbm, ⟨51, _⟩ => ⟨S1x128, .f32⟩
  | .hbm, ⟨52, _⟩ => ⟨S500000x128, .f32⟩
  | .hbm, ⟨53, _⟩ => ⟨S500000x128, .f32⟩
  | .hbm, ⟨54, _⟩ => ⟨S_, .i32⟩
  | .hbm, ⟨55, _⟩ => ⟨S500000, .i32⟩
  | .hbm, ⟨56, _⟩ => ⟨S500000, .i1⟩
  | .hbm, ⟨57, _⟩ => ⟨S500000x1, .i1⟩
  | .hbm, ⟨58, _⟩ => ⟨S500000x128, .i1⟩
  | .hbm, ⟨59, _⟩ => ⟨S500000x128, .f32⟩
  | .hbm, ⟨60, _⟩ => ⟨S_, .f32⟩
  | .hbm, ⟨61, _⟩ => ⟨S50000x128, .f32⟩
  | .hbm, ⟨62, _⟩ => ⟨S500000x1, .i32⟩
  | .hbm, ⟨63, _⟩ => ⟨S50000x128, .f32⟩
  | .hbm, ⟨64, _⟩ => ⟨S_, .f32⟩
  | .hbm, ⟨65, _⟩ => ⟨S500000, .f32⟩
  | .hbm, ⟨66, _⟩ => ⟨S_, .f32⟩
  | .hbm, ⟨67, _⟩ => ⟨S50000, .f32⟩
  | .hbm, ⟨68, _⟩ => ⟨S500000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S500x128, .f32⟩
  | .hbm, ⟨82, _⟩ => ⟨S1x128, .f32⟩
  | .hbm, ⟨83, _⟩ => ⟨S500x128, .f32⟩
  | .hbm, ⟨84, _⟩ => ⟨S500x128, .f32⟩
  | .hbm, ⟨85, _⟩ => ⟨S366x128, .f32⟩
  | .hbm, ⟨86, _⟩ => ⟨S1x128, .f32⟩
  | .hbm, ⟨87, _⟩ => ⟨S366x128, .f32⟩
  | .hbm, ⟨88, _⟩ => ⟨S366x128, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call0_v0 : Ref sig .tc := ⟨.hbm, 58, rfl⟩
abbrev main_v33 : Ref sig .tc := ⟨.hbm, 59, rfl⟩
abbrev main_cst : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S1x128_S500x128_0_1 : S1x128.BroadcastsInDim S500x128 (![0, 1] : Fin 2 → Fin S500x128.rank)
  bcast_S1x128_S366x128_0_1 : S1x128.BroadcastsInDim S366x128 (![0, 1] : Fin 2 → Fin S366x128.rank)
  gather_S500x128_S500000x1_S500000x128_1_0_n_n_0_1_1128_wf : GatherDims.WF S500x128 S500000x1 S500000x128 [1] [0] [] [0] [] 1 ![1, 128]
  gather_S366x128_S500000x1_S500000x128_1_0_n_n_0_1_1128_wf : GatherDims.WF S366x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  dot_S500x128_S128x128_S500x128_1_0_0_1_n_n_wf : DotDims.WF S500x128 S128x128 S500x128 [1] [0] [0] [1] [] []
  dot_S366x128_S128x128_S366x128_1_0_0_1_n_n_wf : DotDims.WF S366x128 S128x128 S366x128 [1] [0] [0] [1] [] []

variable [Facts₀]

def gather_S500x128_S500000x1_S500000x128_1_0_n_n_0_1_1128 : GatherDims S500x128 S500000x1 S500000x128 where
  offsetDims := [1]
  collapsedSliceDims := [0]
  operandBatchingDims := []
  startIndicesBatchingDims := []
  startIndexMap := [0]
  indexVectorDim := 1
  sliceSizes := ![1, 128]
  wf := gather_S500x128_S500000x1_S500000x128_1_0_n_n_0_1_1128_wf
def gather_S366x128_S500000x1_S500000x128_1_0_n_n_0_1_1128 : GatherDims S366x128 S500000x1 S500000x128 where
  offsetDims := [1]
  collapsedSliceDims := [0]
  operandBatchingDims := []
  startIndicesBatchingDims := []
  startIndexMap := [0]
  indexVectorDim := 1
  sliceSizes := ![1, 128]
  wf := gather_S366x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S366x128_S128x128_S366x128_1_0_0_1_n_n : DotDims S366x128 S128x128 S366x128 where
  lhsContracting := [1]
  rhsContracting := [0]
  lhsNonContracting := [0]
  rhsNonContracting := [1]
  lhsBatch := []
  rhsBatch := []
  wf := dot_S366x128_S128x128_S366x128_1_0_0_1_n_n_wf

class Facts : Prop extends Facts₀ where

variable [Facts]
-- ==== Proof.KernelBody0.lean ====
/-
  Region 0 of @main (the pallas_call running `cc0__msg_kernel`), at a parameter `V`: the TensorCore's buffer contents when the
  region is entered. A window's block at a grid point is read off its array in `V`; the body loads every input block whole,
  and stores its one payload over the whole output block, so after the body the output's staging buffer is that payload of
  the input blocks (`stored0`). With that: the body's triple, the pipeline's proof data (arrays as entered; after the body each
  input's buffer at its block, the output's at `stored0` of the input blocks) and the body obligation at every grid point.
-/
import proofs.«131206_j386547057414_1_alg».proof.Proof.KernelLaunchP
import proofs.«131206_j386547057414_1_alg».proof.Proof.Gen.Kernel.Skeleton
import proofs.«131206_j386547057414_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body0

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a window that is not
    fetched at a point has not moved), for any proof data whose array is `V`'s and whose body leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
/-- Input window 1's current staging buffer holds its block at every point, fetched there or not (a window that is not
    fetched at a point has not moved), for any proof data whose array is `V`'s and whose body leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)
/-- Input window 2's current staging buffer holds its block at every point, fetched there or not (a window that is not
    fetched at a point has not moved), for any proof data whose array is `V`'s and whose body leaves the block in place. -/
theorem held0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)
/-- Input window 3's current staging buffer holds its block at every point, fetched there or not (a window that is not
    fetched at a point has not moved), for any proof data whose array is `V`'s and whose body leaves the block in place. -/
theorem held0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)
/-- Input window 4's current staging buffer holds its block at every point, fetched there or not (a window that is not
    fetched at a point has not moved), for any proof data whose array is `V`'s and whose body leaves the block in place. -/
theorem held0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)
/-- Input window 5's current staging buffer holds its block at every point, fetched there or not (a window that is not
    fetched at a point has not moved), for any proof data whose array is `V`'s and whose body leaves the block in place. -/
theorem held0_5_of {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)

/-- The output block's staging buffer after the body: the one store, over the whole block, of the payload of the loaded input blocks. -/
def stored0 (x0 : Vec F S4000x384 .f32) (x1 : Vec F S4000x1 .f32) (x2 : Vec F S384x128 .f32) (x3 : Vec F S384x128 .f32) (x4 : Vec F S1x128 .f32) (x5 : Vec F S1x128 .f32) : Vec F S4000x128 .f32 :=
  View.canon [⟨(Rect.unit (s := S4000x128) ![0, 0] S4000x128.size inb_S4000x128_S4000x128_0_0), k0_pay1 (View.ld x0 (Rect.unit (s := S4000x384) ![0, 0] S4000x384.size inb_S4000x384_S4000x384_0_0)) (View.ld x2 (Rect.unit (s := S384x128) ![0, 0] S384x128.size inb_S384x128_S384x128_0_0)) (View.ld x3 (Rect.unit (s := S384x128) ![0, 0] S384x128.size inb_S384x128_S384x128_0_0)) (View.ld x4 (Rect.unit (s := S1x128) ![0, 0] S1x128.size inb_S1x128_S1x128_0_0)) (View.ld x5 (Rect.unit (s := S1x128) ![0, 0] S1x128.size inb_S1x128_S1x128_0_0)) (View.ld x1 (Rect.unit (s := S4000x1) ![0, 0] S4000x1.size inb_S4000x1_S4000x1_0_0))⟩]

/-- The one store's rectangle is the whole block, so it covers it. -/
theorem covers0 (p0 : Vec F S4000x128 .f32) (y : S4000x128.Idx) :
    ∃ pc ∈ ([⟨(Rect.unit (s := S4000x128) ![0, 0] S4000x128.size inb_S4000x128_S4000x128_0_0), p0⟩] : List (View.Piece (Elt F) S4000x128 .f32)), y ∈ pc.1.set :=
  View.cover_of_tiled [⟨(Rect.unit (s := S4000x128) ![0, 0] S4000x128.size inb_S4000x128_S4000x128_0_0), p0⟩] S4000x128.size (by rfl) y

set_option maxHeartbeats 1000000 in
/-- The kernel body on whole staging memrefs, the inputs' at contents `xW` and the output's at anything, runs to the continuation
    holding the inputs' as they were and the output's at `stored0` of the inputs'. -/
theorem body_triple0 (c : Dev nD) (E : Set ℕ) (i : grid0.Coords) (arg0 : Memref sig .tc .vmem S4000x384 .f32) (harg0 : arg0.IsWhole) (arg1 : Memref sig .tc .vmem S4000x1 .f32) (harg1 : arg1.IsWhole) (arg2 : Memref sig .tc .vmem S384x128 .f32) (harg2 : arg2.IsWhole) (arg3 : Memref sig .tc .vmem S384x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x384 .f32) (x1 : Vec F S4000x1 .f32) (x2 : Vec F S384x128 .f32) (x3 : Vec F S384x128 .f32) (x4 : Vec F S1x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (stored0 x0 x1 x2 x3 x4 x5)) -∗ K ⟨⟩))
      ⊢ wp frame (wpE (defs₀ (F := F)) Variants.none c none) E (cc0__msg_kernel i arg0 harg0 arg1 harg1 arg2 harg2 arg3 harg3 arg4 harg4 arg5 harg5 arg6 harg6) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covers0 _)

/-- The proof data of pipeline 0 on core `c`: the arrays as the region finds them; after the body at point `t` each input's
    buffer at its block and the output's at `stored0` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => stored0 (blockAt0 V c 0 t) (blockAt0 V c 1 t) (blockAt0 V c 2 t) (blockAt0 V c 3 t) (blockAt0 V c 4 t) (blockAt0 V c 5 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blockAt0 V c 0 t := by dsimp only [dat0]
theorem dat0_after_1 (c : Dev nD) (t : Fin cfg0.N) : (dat0 V c).after 1 t = blockAt0 V c 1 t := by dsimp only [dat0]
theorem dat0_after_2 (c : Dev nD) (t : Fin cfg0.N) : (dat0 V c).after 2 t = blockAt0 V c 2 t := by dsimp only [dat0]
theorem dat0_after_3 (c : Dev nD) (t : Fin cfg0.N) : (dat0 V c).after 3 t = blockAt0 V c 3 t := by dsimp only [dat0]
theorem dat0_after_4 (c : Dev nD) (t : Fin cfg0.N) : (dat0 V c).after 4 t = blockAt0 V c 4 t := by dsimp only [dat0]
theorem dat0_after_5 (c : Dev nD) (t : Fin cfg0.N) : (dat0 V c).after 5 t = blockAt0 V c 5 t := by dsimp only [dat0]
theorem dat0_after_6 (c : Dev nD) (t : Fin cfg0.N) : (dat0 V c).after 6 t = stored0 (blockAt0 V c 0 t) (blockAt0 V c 1 t) (blockAt0 V c 2 t) (blockAt0 V c 3 t) (blockAt0 V c 4 t) (blockAt0 V c 5 t) := by dsimp only [dat0]

theorem dat0_before_0 (c : Dev nD) (t : Fin cfg0.N) (d) : (dat0 V c).before 0 t d = blockAt0 V c 0 t :=
  held0_0_of V (dat0 V c) (dat0_A V c 0) (dat0_after_0 V c) t d
theorem dat0_before_1 (c : Dev nD) (t : Fin cfg0.N) (d) : (dat0 V c).before 1 t d = blockAt0 V c 1 t :=
  held0_1_of V (dat0 V c) (dat0_A V c 1) (dat0_after_1 V c) t d
theorem dat0_before_2 (c : Dev nD) (t : Fin cfg0.N) (d) : (dat0 V c).before 2 t d = blockAt0 V c 2 t :=
  held0_2_of V (dat0 V c) (dat0_A V c 2) (dat0_after_2 V c) t d
theorem dat0_before_3 (c : Dev nD) (t : Fin cfg0.N) (d) : (dat0 V c).before 3 t d = blockAt0 V c 3 t :=
  held0_3_of V (dat0 V c) (dat0_A V c 3) (dat0_after_3 V c) t d
theorem dat0_before_4 (c : Dev nD) (t : Fin cfg0.N) (d) : (dat0 V c).before 4 t d = blockAt0 V c 4 t :=
  held0_4_of V (dat0 V c) (dat0_A V c 4) (dat0_after_4 V c) t d
theorem dat0_before_5 (c : Dev nD) (t : Fin cfg0.N) (d) : (dat0 V c).before 5 t d = blockAt0 V c 5 t :=
  held0_5_of V (dat0 V c) (dat0_A V c 5) (dat0_after_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the core's
    dues pass through unread. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before_0, dat0_before_1, dat0_before_2, dat0_before_3, dat0_before_4, dat0_before_5]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5, dat0_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple0 c Set.univ _ _ _ _ _ _ _ _ _ _ _ _ _ _ _ (blockAt0 V c 0 t) (blockAt0 V c 1 t) (blockAt0 V c 2 t) (blockAt0 V c 3 t) (blockAt0 V c 4 t) (blockAt0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact body_at0 V c t

end Cert.Kernel.Body0

end
-- ==== Proof.KernelBody1.lean ====
/-
  Region 1 of @main (the pallas_call running `cc1__update_kernel`), at a parameter `V`: the TensorCore's buffer contents when the
  region is entered. A window's block at a grid point is read off its array in `V`; the body loads every input block whole,
  and stores its one payload over the whole output block, so after the body the output's staging buffer is that payload of
  the input blocks (`stored1`). With that: the body's triple, the pipeline's proof data (arrays as entered; after the body each
  input's buffer at its block, the output's at `stored1` of the input blocks) and the body obligation at every grid point.
-/
import proofs.«131206_j386547057414_1_alg».proof.Proof.KernelLaunchP
import proofs.«131206_j386547057414_1_alg».proof.Proof.Gen.Kernel.Skeleton
import proofs.«131206_j386547057414_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body1

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a window that is not
    fetched at a point has not moved), for any proof data whose array is `V`'s and whose body leaves the block in place. -/
theorem held1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
/-- Input window 1's current staging buffer holds its block at every point, fetched there or not (a window that is not
    fetched at a point has not moved), for any proof data whose array is `V`'s and whose body leaves the block in place. -/
theorem held1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
/-- Input window 2's current staging buffer holds its block at every point, fetched there or not (a window that is not
    fetched at a point has not moved), for any proof data whose array is `V`'s and whose body leaves the block in place. -/
theorem held1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)
/-- Input window 3's current staging buffer holds its block at every point, fetched there or not (a window that is not
    fetched at a point has not moved), for any proof data whose array is `V`'s and whose body leaves the block in place. -/
theorem held1_3_of {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)

/-- The output block's staging buffer after the body: the one store, over the whole block, of the payload of the loaded input blocks. -/
def stored1 (x0 : Vec F S5000x128 .f32) (x1 : Vec F S128x128 .f32) (x2 : Vec F S1x128 .f32) (x3 : Vec F S5000x128 .f32) : Vec F S5000x128 .f32 :=
  View.canon [⟨(Rect.unit (s := S5000x128) ![0, 0] S5000x128.size inb_S5000x128_S5000x128_0_0), k1_pay1 (View.ld x0 (Rect.unit (s := S5000x128) ![0, 0] S5000x128.size inb_S5000x128_S5000x128_0_0)) (View.ld x1 (Rect.unit (s := S128x128) ![0, 0] S128x128.size inb_S128x128_S128x128_0_0)) (View.ld x2 (Rect.unit (s := S1x128) ![0, 0] S1x128.size inb_S1x128_S1x128_0_0)) (View.ld x3 (Rect.unit (s := S5000x128) ![0, 0] S5000x128.size inb_S5000x128_S5000x128_0_0))⟩]

/-- The one store's rectangle is the whole block, so it covers it. -/
theorem covers1 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The kernel body on whole staging memrefs, the inputs' at contents `xW` and the output's at anything, runs to the continuation
    holding the inputs' as they were and the output's at `stored1` of the inputs'. -/
theorem body_triple1 (c : Dev nD) (E : Set ℕ) (i : grid1.Coords) (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (x3 : Vec F S5000x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (stored1 x0 x1 x2 x3)) -∗ K ⟨⟩))
      ⊢ wp frame (wpE (defs₀ (F := F)) Variants.none c none) E (cc1__update_kernel i arg0 harg0 arg1 harg1 arg2 harg2 arg3 harg3 arg4 harg4) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers1 _)

/-- The proof data of pipeline 1 on core `c`: the arrays as the region finds them; after the body at point `t` each input's
    buffer at its block and the output's at `stored1` of the input blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => stored1 (blockAt1 V c 0 t) (blockAt1 V c 1 t) (blockAt1 V c 2 t) (blockAt1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blockAt1 V c 0 t := by dsimp only [dat1]
theorem dat1_after_1 (c : Dev nD) (t : Fin cfg1.N) : (dat1 V c).after 1 t = blockAt1 V c 1 t := by dsimp only [dat1]
theorem dat1_after_2 (c : Dev nD) (t : Fin cfg1.N) : (dat1 V c).after 2 t = blockAt1 V c 2 t := by dsimp only [dat1]
theorem dat1_after_3 (c : Dev nD) (t : Fin cfg1.N) : (dat1 V c).after 3 t = blockAt1 V c 3 t := by dsimp only [dat1]
theorem dat1_after_4 (c : Dev nD) (t : Fin cfg1.N) : (dat1 V c).after 4 t = stored1 (blockAt1 V c 0 t) (blockAt1 V c 1 t) (blockAt1 V c 2 t) (blockAt1 V c 3 t) := by dsimp only [dat1]

theorem dat1_before_0 (c : Dev nD) (t : Fin cfg1.N) (d) : (dat1 V c).before 0 t d = blockAt1 V c 0 t :=
  held1_0_of V (dat1 V c) (dat1_A V c 0) (dat1_after_0 V c) t d
theorem dat1_before_1 (c : Dev nD) (t : Fin cfg1.N) (d) : (dat1 V c).before 1 t d = blockAt1 V c 1 t :=
  held1_1_of V (dat1 V c) (dat1_A V c 1) (dat1_after_1 V c) t d
theorem dat1_before_2 (c : Dev nD) (t : Fin cfg1.N) (d) : (dat1 V c).before 2 t d = blockAt1 V c 2 t :=
  held1_2_of V (dat1 V c) (dat1_A V c 2) (dat1_after_2 V c) t d
theorem dat1_before_3 (c : Dev nD) (t : Fin cfg1.N) (d) : (dat1 V c).before 3 t d = blockAt1 V c 3 t :=
  held1_3_of V (dat1 V c) (dat1_A V c 3) (dat1_after_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the core's
    dues pass through unread. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before_0, dat1_before_1, dat1_before_2, dat1_before_3]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4]
  iintro ⟨HΦ, Ho, ⟨%d0, H0⟩, ⟨%d1, H1⟩, ⟨%d2, H2⟩, ⟨%d3, H3⟩, ⟨%d4, H4⟩⟩
  iapply (body_triple1 c Set.univ _ _ _ _ _ _ _ _ _ _ _ (blockAt1 V c 0 t) (blockAt1 V c 1 t) (blockAt1 V c 2 t) (blockAt1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact body_at1 V c t

end Cert.Kernel.Body1

end
-- ==== Proof.KernelBody2.lean ====
/-
  Region 2 of @main (the pallas_call running `cc2__update_kernel`), at a parameter `V`: the TensorCore's buffer contents when the
  region is entered. A window's block at a grid point is read off its array in `V`; the body loads every input block whole,
  and stores its one payload over the whole output block, so after the body the output's staging buffer is that payload of
  the input blocks (`stored2`). With that: the body's triple, the pipeline's proof data (arrays as entered; after the body each
  input's buffer at its block, the output's at `stored2` of the input blocks) and the body obligation at every grid point.
-/
import proofs.«131206_j386547057414_1_alg».proof.Proof.KernelLaunchP
import proofs.«131206_j386547057414_1_alg».proof.Proof.Gen.Kernel.Skeleton
import proofs.«131206_j386547057414_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body2

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window that is not
    fetched at a point has not moved), for any proof data whose array is `V`'s and whose body leaves the block in place. -/
theorem held2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)
/-- Input window 1's current staging buffer holds its block at every point, fetched there or not (a window that is not
    fetched at a point has not moved), for any proof data whose array is `V`'s and whose body leaves the block in place. -/
theorem held2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)
/-- Input window 2's current staging buffer holds its block at every point, fetched there or not (a window that is not
    fetched at a point has not moved), for any proof data whose array is `V`'s and whose body leaves the block in place. -/
theorem held2_2_of {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)
/-- Input window 3's current staging buffer holds its block at every point, fetched there or not (a window that is not
    fetched at a point has not moved), for any proof data whose array is `V`'s and whose body leaves the block in place. -/
theorem held2_3_of {c : Dev nD} (dat : Dat τ (Elt F) Unit ℕ (UR sig nD τ) ℕ cfg2 c) (hA : dat.A 3 = V c (Pipeline.arrRef spec2 3))
    (hafter : ∀ t, dat.after 3 t = blockAt2 V c 3 t) (t : Fin cfg2.N) (d) : dat.before 3 t d = blockAt2 V c 3 t :=
  (dat.before_in_eq_fetched 3 rfl (fun _ => rfl) (fun _ _ _ => rfl) (fun t => by rw [hafter]; unfold Dat.blockOf blockAt2; rw [hA]; try rfl) t d).trans
    (by unfold Dat.fetched Dat.blockOf blockAt2; rw [hA]; try rfl)

/-- The output block's staging buffer after the body: the one store, over the whole block, of the payload of the loaded input blocks. -/
def stored2 (x0 : Vec F S500x128 .f32) (x1 : Vec F S128x128 .f32) (x2 : Vec F S1x128 .f32) (x3 : Vec F S500x128 .f32) : Vec F S500x128 .f32 :=
  View.canon [⟨(Rect.unit (s := S500x128) ![0, 0] S500x128.size inb_S500x128_S500x128_0_0), k2_pay1 (View.ld x0 (Rect.unit (s := S500x128) ![0, 0] S500x128.size inb_S500x128_S500x128_0_0)) (View.ld x1 (Rect.unit (s := S128x128) ![0, 0] S128x128.size inb_S128x128_S128x128_0_0)) (View.ld x2 (Rect.unit (s := S1x128) ![0, 0] S1x128.size inb_S1x128_S1x128_0_0)) (View.ld x3 (Rect.unit (s := S500x128) ![0, 0] S500x128.size inb_S500x128_S500x128_0_0))⟩]

/-- The one store's rectangle is the whole block, so it covers it. -/
theorem covers2 (p0 : Vec F S500x128 .f32) (y : S500x128.Idx) :
    ∃ pc ∈ ([⟨(Rect.unit (s := S500x128) ![0, 0] S500x128.size inb_S500x128_S500x128_0_0), p0⟩] : List (View.Piece (Elt F) S500x128 .f32)), y ∈ pc.1.set :=
  View.cover_of_tiled [⟨(Rect.unit (s := S500x128) ![0, 0] S500x128.size inb_S500x128_S500x128_0_0), p0⟩] S500x128.size (by rfl) y

set_option maxHeartbeats 1000000 in
/-- The kernel body on whole staging memrefs, the inputs' at contents `xW` and the output's at anything, runs to the continuation
    holding the inputs' as they were and the output's at `stored2` of the inputs'. -/
theorem body_triple2 (c : Dev nD) (E : Set ℕ) (i : grid2.Coords) (arg0 : Memref sig .tc .vmem S500x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S500x128 .f32) (harg3 : arg3.IsWhole) (arg4 : Memref sig .tc .vmem S500x128 .f32) (harg4 : arg4.IsWhole)
    (x0 : Vec F S500x128 .f32) (x1 : Vec F S128x128 .f32) (x2 : Vec F S1x128 .f32) (x3 : Vec F S500x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (stored2 x0 x1 x2 x3)) -∗ K ⟨⟩))
      ⊢ wp frame (wpE (defs₀ (F := F)) Variants.none c none) E (cc2__update_kernel i arg0 harg0 arg1 harg1 arg2 harg2 arg3 harg3 arg4 harg4) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers2 _)

/-- The proof data of pipeline 2 on core `c`: the arrays as the region finds them; after the body at point `t` each input's
    buffer at its block and the output's at `stored2` of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => stored2 (blockAt2 V c 0 t) (blockAt2 V c 1 t) (blockAt2 V c 2 t) (blockAt2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blockAt2 V c 0 t := by dsimp only [dat2]
theorem dat2_after_1 (c : Dev nD) (t : Fin cfg2.N) : (dat2 V c).after 1 t = blockAt2 V c 1 t := by dsimp only [dat2]
theorem dat2_after_2 (c : Dev nD) (t : Fin cfg2.N) : (dat2 V c).after 2 t = blockAt2 V c 2 t := by dsimp only [dat2]
theorem dat2_after_3 (c : Dev nD) (t : Fin cfg2.N) : (dat2 V c).after 3 t = blockAt2 V c 3 t := by dsimp only [dat2]
theorem dat2_after_4 (c : Dev nD) (t : Fin cfg2.N) : (dat2 V c).after 4 t = stored2 (blockAt2 V c 0 t) (blockAt2 V c 1 t) (blockAt2 V c 2 t) (blockAt2 V c 3 t) := by dsimp only [dat2]

theorem dat2_before_0 (c : Dev nD) (t : Fin cfg2.N) (d) : (dat2 V c).before 0 t d = blockAt2 V c 0 t :=
  held2_0_of V (dat2 V c) (dat2_A V c 0) (dat2_after_0 V c) t d
theorem dat2_before_1 (c : Dev nD) (t : Fin cfg2.N) (d) : (dat2 V c).before 1 t d = blockAt2 V c 1 t :=
  held2_1_of V (dat2 V c) (dat2_A V c 1) (dat2_after_1 V c) t d
theorem dat2_before_2 (c : Dev nD) (t : Fin cfg2.N) (d) : (dat2 V c).before 2 t d = blockAt2 V c 2 t :=
  held2_2_of V (dat2 V c) (dat2_A V c 2) (dat2_after_2 V c) t d
theorem dat2_before_3 (c : Dev nD) (t : Fin cfg2.N) (d) : (dat2 V c).before 3 t d = blockAt2 V c 3 t :=
  held2_3_of V (dat2 V c) (dat2_A V c 3) (dat2_after_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the core's
    dues pass through unread. -/
theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before_0, dat2_before_1, dat2_before_2, dat2_before_3]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4]
  iintro ⟨HΦ, Ho, ⟨%d0, H0⟩, ⟨%d1, H1⟩, ⟨%d2, H2⟩, ⟨%d3, H3⟩, ⟨%d4, H4⟩⟩
  iapply (body_triple2 c Set.univ _ _ _ _ _ _ _ _ _ _ _ (blockAt2 V c 0 t) (blockAt2 V c 1 t) (blockAt2 V c 2 t) (blockAt2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact body_at2 V c t

end Cert.Kernel.Body2

end
-- ==== Proof.KernelBody3.lean ====
/-
  Region 3 of @main (the pallas_call running `cc3__update_kernel`), at a parameter `V`: the TensorCore's buffer contents when the
  region is entered. A window's block at a grid point is read off its array in `V`; the body loads every input block whole,
  and stores its one payload over the whole output block, so after the body the output's staging buffer is that payload of
  the input blocks (`stored3`). With that: the body's triple, the pipeline's proof data (arrays as entered; after the body each
  input's buffer at its block, the output's at `stored3` of the input blocks) and the body obligation at every grid point.
-/
import proofs.«131206_j386547057414_1_alg».proof.Proof.KernelLaunchP
import proofs.«131206_j386547057414_1_alg».proof.Proof.Gen.Kernel.Skeleton
import proofs.«131206_j386547057414_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body3

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (a window that is not
    fetched at a point has not moved), for any proof data whose array is `V`'s and whose body leaves the block in place. -/
theorem held3_0_of {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)
/-- Input window 1's current staging buffer holds its block at every point, fetched there or not (a window that is not
    fetched at a point has not moved), for any proof data whose array is `V`'s and whose body leaves the block in place. -/
theorem held3_1_of {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)
/-- Input window 2's current staging buffer holds its block at every point, fetched there or not (a window that is not
    fetched at a point has not moved), for any proof data whose array is `V`'s and whose body leaves the block in place. -/
theorem held3_2_of {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)
/-- Input window 3's current staging buffer holds its block at every point, fetched there or not (a window that is not
    fetched at a point has not moved), for any proof data whose array is `V`'s and whose body leaves the block in place. -/
theorem held3_3_of {c : Dev nD} (dat : Dat τ (Elt F) Unit ℕ (UR sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)

/-- The output block's staging buffer after the body: the one store, over the whole block, of the payload of the loaded input blocks. -/
def stored3 (x0 : Vec F S366x128 .f32) (x1 : Vec F S128x128 .f32) (x2 : Vec F S1x128 .f32) (x3 : Vec F S366x128 .f32) : Vec F S366x128 .f32 :=
  View.canon [⟨(Rect.unit (s := S366x128) ![0, 0] S366x128.size inb_S366x128_S366x128_0_0), k3_pay1 (View.ld x0 (Rect.unit (s := S366x128) ![0, 0] S366x128.size inb_S366x128_S366x128_0_0)) (View.ld x1 (Rect.unit (s := S128x128) ![0, 0] S128x128.size inb_S128x128_S128x128_0_0)) (View.ld x2 (Rect.unit (s := S1x128) ![0, 0] S1x128.size inb_S1x128_S1x128_0_0)) (View.ld x3 (Rect.unit (s := S366x128) ![0, 0] S366x128.size inb_S366x128_S366x128_0_0))⟩]

/-- The one store's rectangle is the whole block, so it covers it. -/
theorem covers3 (p0 : Vec F S366x128 .f32) (y : S366x128.Idx) :
    ∃ pc ∈ ([⟨(Rect.unit (s := S366x128) ![0, 0] S366x128.size inb_S366x128_S366x128_0_0), p0⟩] : List (View.Piece (Elt F) S366x128 .f32)), y ∈ pc.1.set :=
  View.cover_of_tiled [⟨(Rect.unit (s := S366x128) ![0, 0] S366x128.size inb_S366x128_S366x128_0_0), p0⟩] S366x128.size (by rfl) y

set_option maxHeartbeats 1000000 in
/-- The kernel body on whole staging memrefs, the inputs' at contents `xW` and the output's at anything, runs to the continuation
    holding the inputs' as they were and the output's at `stored3` of the inputs'. -/
theorem body_triple3 (c : Dev nD) (E : Set ℕ) (i : grid3.Coords) (arg0 : Memref sig .tc .vmem S366x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S366x128 .f32) (harg3 : arg3.IsWhole) (arg4 : Memref sig .tc .vmem S366x128 .f32) (harg4 : arg4.IsWhole)
    (x0 : Vec F S366x128 .f32) (x1 : Vec F S128x128 .f32) (x2 : Vec F S1x128 .f32) (x3 : Vec F S366x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (stored3 x0 x1 x2 x3)) -∗ K ⟨⟩))
      ⊢ wp frame (wpE (defs₀ (F := F)) Variants.none c none) E (cc3__update_kernel i arg0 harg0 arg1 harg1 arg2 harg2 arg3 harg3 arg4 harg4) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers3 _)

/-- The proof data of pipeline 3 on core `c`: the arrays as the region finds them; after the body at point `t` each input's
    buffer at its block and the output's at `stored3` of the input blocks; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => stored3 (blockAt3 V c 0 t) (blockAt3 V c 1 t) (blockAt3 V c 2 t) (blockAt3 V c 3 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_0 (c : Dev nD) (t : Fin cfg3.N) : (dat3 V c).after 0 t = blockAt3 V c 0 t := by dsimp only [dat3]
theorem dat3_after_1 (c : Dev nD) (t : Fin cfg3.N) : (dat3 V c).after 1 t = blockAt3 V c 1 t := by dsimp only [dat3]
theorem dat3_after_2 (c : Dev nD) (t : Fin cfg3.N) : (dat3 V c).after 2 t = blockAt3 V c 2 t := by dsimp only [dat3]
theorem dat3_after_3 (c : Dev nD) (t : Fin cfg3.N) : (dat3 V c).after 3 t = blockAt3 V c 3 t := by dsimp only [dat3]
theorem dat3_after_4 (c : Dev nD) (t : Fin cfg3.N) : (dat3 V c).after 4 t = stored3 (blockAt3 V c 0 t) (blockAt3 V c 1 t) (blockAt3 V c 2 t) (blockAt3 V c 3 t) := by dsimp only [dat3]

theorem dat3_before_0 (c : Dev nD) (t : Fin cfg3.N) (d) : (dat3 V c).before 0 t d = blockAt3 V c 0 t :=
  held3_0_of V (dat3 V c) (dat3_A V c 0) (dat3_after_0 V c) t d
theorem dat3_before_1 (c : Dev nD) (t : Fin cfg3.N) (d) : (dat3 V c).before 1 t d = blockAt3 V c 1 t :=
  held3_1_of V (dat3 V c) (dat3_A V c 1) (dat3_after_1 V c) t d
theorem dat3_before_2 (c : Dev nD) (t : Fin cfg3.N) (d) : (dat3 V c).before 2 t d = blockAt3 V c 2 t :=
  held3_2_of V (dat3 V c) (dat3_A V c 2) (dat3_after_2 V c) t d
theorem dat3_before_3 (c : Dev nD) (t : Fin cfg3.N) (d) : (dat3 V c).before 3 t d = blockAt3 V c 3 t :=
  held3_3_of V (dat3 V c) (dat3_A V c 3) (dat3_after_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the core's
    dues pass through unread. -/
theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [dat3_before_0, dat3_before_1, dat3_before_2, dat3_before_3]
  rw [show (dat3 V c).Φ t.succ = (dat3 V c).Φ t.castSucc from rfl,
    show (dat3 V c).owesAt () t.succ = (dat3 V c).owesAt () t.castSucc from rfl,
    dat3_after_0, dat3_after_1, dat3_after_2, dat3_after_3, dat3_after_4]
  iintro ⟨HΦ, Ho, ⟨%d0, H0⟩, ⟨%d1, H1⟩, ⟨%d2, H2⟩, ⟨%d3, H3⟩, ⟨%d4, H4⟩⟩
  iapply (body_triple3 c Set.univ _ _ _ _ _ _ _ _ _ _ _ (blockAt3 V c 0 t) (blockAt3 V c 1 t) (blockAt3 V c 2 t) (blockAt3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact body_at3 V c t

end Cert.Kernel.Body3

end
-- ==== Proof.KernelRun.lean ====
/-
  The run of @main as a whole: four host stretches and four kernel regions in turn. The buffer contents at every boundary
  are named (`at1` … `at8`: a host stretch applies its operations to the contents before it; a region changes only its output
  array, to what its write-backs leave), each region is a segment of the run entered from the contents before it and left at
  the contents after it, and every weakly fair execution of @main terminates with EVERY unscoped buffer at `at8`. The frame
  claim (the arguments end as launched) and the values of the three results are read off that.
-/
import proofs.«131206_j386547057414_1_alg».proof.Proof.KernelRegionsP
import proofs.«131206_j386547057414_1_alg».proof.Proof.KernelBody0
import proofs.«131206_j386547057414_1_alg».proof.Proof.KernelBody1
import proofs.«131206_j386547057414_1_alg».proof.Proof.KernelBody2
import proofs.«131206_j386547057414_1_alg».proof.Proof.KernelBody3

set_option maxRecDepth 16384

noncomputable section

namespace Cert.Kernel.Run

open Cert.Kernel Cert.Kernel.Gen Cert.Kernel.GenP
open Cert.Kernel.Body0 Cert.Kernel.Body1 Cert.Kernel.Body2 Cert.Kernel.Body3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- After the first host stretch: region 0's entry contents, read at the TensorCore's references. -/
abbrev at1 : (c : Dev nD) → (b : Ref sig .tc) → Buf (Elt F) ((c : Thread nD τ).loc b) := fun c b => V1 m c b
/-- What region 0's write-backs leave in its output array. -/
def left0 (c : Dev nD) : Buf (Elt F) ((c : Thread nD τ).loc main_v28) := (dat0 (at1 m) c).arrAt 6 cfg0.N
/-- After region 0: only its output array changed. -/
def val2 (c : Dev nD) : Valuation τ sig (Elt F) := Function.update (V1 m c) main_v28 (left0 m c)
abbrev at2 : (c : Dev nD) → (b : Ref sig .tc) → Buf (Elt F) ((c : Thread nD τ).loc b) := fun c b => val2 m c b
def val3 (c : Dev nD) : Valuation τ sig (Elt F) := StableHlo.after hostOps1 (val2 m c)
abbrev at3 : (c : Dev nD) → (b : Ref sig .tc) → Buf (Elt F) ((c : Thread nD τ).loc b) := fun c b => val3 m c b
def left1 (c : Dev nD) : Buf (Elt F) ((c : Thread nD τ).loc main_v42) := (dat1 (at3 m) c).arrAt 4 cfg1.N
def val4 (c : Dev nD) : Valuation τ sig (Elt F) := Function.update (val3 m c) main_v42 (left1 m c)
abbrev at4 : (c : Dev nD) → (b : Ref sig .tc) → Buf (Elt F) ((c : Thread nD τ).loc b) := fun c b => val4 m c b
def val5 (c : Dev nD) : Valuation τ sig (Elt F) := StableHlo.after hostOps2 (val4 m c)
abbrev at5 : (c : Dev nD) → (b : Ref sig .tc) → Buf (Elt F) ((c : Thread nD τ).loc b) := fun c b => val5 m c b
def left2 (c : Dev nD) : Buf (Elt F) ((c : Thread nD τ).loc main_v45) := (dat2 (at5 m) c).arrAt 4 cfg2.N
def val6 (c : Dev nD) : Valuation τ sig (Elt F) := Function.update (val5 m c) main_v45 (left2 m c)
abbrev at6 : (c : Dev nD) → (b : Ref sig .tc) → Buf (Elt F) ((c : Thread nD τ).loc b) := fun c b => val6 m c b
def val7 (c : Dev nD) : Valuation τ sig (Elt F) := StableHlo.after hostOps3 (val6 m c)
abbrev at7 : (c : Dev nD) → (b : Ref sig .tc) → Buf (Elt F) ((c : Thread nD τ).loc b) := fun c b => val7 m c b
def left3 (c : Dev nD) : Buf (Elt F) ((c : Thread nD τ).loc main_v48) := (dat3 (at7 m) c).arrAt 4 cfg3.N
def val8 (c : Dev nD) : Valuation τ sig (Elt F) := Function.update (val7 m c) main_v48 (left3 m c)
abbrev at8 : (c : Dev nD) → (b : Ref sig .tc) → Buf (Elt F) ((c : Thread nD τ).loc b) := fun c b => val8 m c b

/-- What each region leaves in the buffers it may change, as the conditional frame's unknowns. -/
def leaves : Outs (F := F) := fun J r c => match J with
  | 2 => val2 m c r
  | 4 => val4 m c r
  | 6 => val6 m c r
  | _ => val8 m c r

theorem V2_eq (c : Dev nD) : V2 m (leaves m) c = val2 m c := by
  show Function.update (V1 m c) main_v28 (val2 m c main_v28) = val2 m c
  unfold val2; rw [Function.update_self]
theorem V3_eq (c : Dev nD) : V3 m (leaves m) c = val3 m c := by
  show StableHlo.after hostOps1 (V2 m (leaves m) c) = _
  rw [V2_eq]; rfl
theorem V4_eq (c : Dev nD) : V4 m (leaves m) c = val4 m c := by
  show Function.update (V3 m (leaves m) c) main_v42 (val4 m c main_v42) = val4 m c
  rw [V3_eq]; unfold val4; rw [Function.update_self]
theorem V5_eq (c : Dev nD) : V5 m (leaves m) c = val5 m c := by
  show StableHlo.after hostOps2 (V4 m (leaves m) c) = _
  rw [V4_eq]; rfl
theorem V6_eq (c : Dev nD) : V6 m (leaves m) c = val6 m c := by
  show Function.update (V5 m (leaves m) c) main_v45 (val6 m c main_v45) = val6 m c
  rw [V5_eq]; unfold val6; rw [Function.update_self]
theorem V7_eq (c : Dev nD) : V7 m (leaves m) c = val7 m c := by
  show StableHlo.after hostOps3 (V6 m (leaves m) c) = _
  rw [V6_eq]; rfl
theorem V8_eq (c : Dev nD) : V8 m (leaves m) c = val8 m c := by
  show Function.update (V7 m (leaves m) c) main_v48 (val8 m c main_v48) = val8 m c
  rw [V7_eq]; unfold val8; rw [Function.update_self]

/-! ## Each region's arrays at its exit -/

/-- At region 0's exit each of its arrays holds what the pipeline leaves: an input's array is as entered, the output's is what
    the write-backs left. -/
theorem exit_arr0 (c : Dev nD) : ∀ w : Fin cfg0.W, (dat0 (at1 m) c).arrAt w cfg0.N = at2 m c (Pipeline.arrRef spec0 w) := fun
  | 0 => ((dat0 (at1 m) c).arrAt_in 0 rfl _).trans ((dat0_A (at1 m) c 0).trans (by
      show V1 m c (Pipeline.arrRef spec0 0) = val2 m c (Pipeline.arrRef spec0 0)
      unfold val2; exact (Function.update_of_ne (StableHlo.devRef_ne_of_ne (by decide)) _ _).symm))
  | 1 => ((dat0 (at1 m) c).arrAt_in 1 rfl _).trans ((dat0_A (at1 m) c 1).trans (by
      show V1 m c (Pipeline.arrRef spec0 1) = val2 m c (Pipeline.arrRef spec0 1)
      unfold val2; exact (Function.update_of_ne (StableHlo.devRef_ne_of_ne (by decide)) _ _).symm))
  | 2 => ((dat0 (at1 m) c).arrAt_in 2 rfl _).trans ((dat0_A (at1 m) c 2).trans (by
      show V1 m c (Pipeline.arrRef spec0 2) = val2 m c (Pipeline.arrRef spec0 2)
      unfold val2; exact (Function.update_of_ne (StableHlo.devRef_ne_of_ne (by decide)) _ _).symm))
  | 3 => ((dat0 (at1 m) c).arrAt_in 3 rfl _).trans ((dat0_A (at1 m) c 3).trans (by
      show V1 m c (Pipeline.arrRef spec0 3) = val2 m c (Pipeline.arrRef spec0 3)
      unfold val2; exact (Function.update_of_ne (StableHlo.devRef_ne_of_ne (by decide)) _ _).symm))
  | 4 => ((dat0 (at1 m) c).arrAt_in 4 rfl _).trans ((dat0_A (at1 m) c 4).trans (by
      show V1 m c (Pipeline.arrRef spec0 4) = val2 m c (Pipeline.arrRef spec0 4)
      unfold val2; exact (Function.update_of_ne (StableHlo.devRef_ne_of_ne (by decide)) _ _).symm))
  | 5 => ((dat0 (at1 m) c).arrAt_in 5 rfl _).trans ((dat0_A (at1 m) c 5).trans (by
      show V1 m c (Pipeline.arrRef spec0 5) = val2 m c (Pipeline.arrRef spec0 5)
      unfold val2; exact (Function.update_of_ne (StableHlo.devRef_ne_of_ne (by decide)) _ _).symm))
  | 6 => by
      show left0 m c = val2 m c main_v28
      unfold val2; exact (Function.update_self (Proc.devRef .tc main_v28 : DevRef τ sig) (left0 m c) (V1 m c)).symm
  | ⟨_ + 7, h⟩ => absurd h (Nat.not_lt.2 (Nat.le_add_left _ _))
/-- … and every other buffer what it held at entry. -/
theorem exit_rest0 (c : Dev nD) : ∀ b, b ∉ Finset.univ.image (Pipeline.arrRef spec0) → at2 m c b = at1 m c b := fun b hb => by
  show val2 m c b = V1 m c b
  unfold val2
  exact Function.update_of_ne (StableHlo.devRef_ne_of_ne (fun e => hb (Finset.mem_image.mpr ⟨6, Finset.mem_univ _, e.symm⟩)) : (Proc.devRef .tc b : DevRef τ sig) ≠ Proc.devRef .tc main_v28) _ _

/-- At region 1's exit each of its arrays holds what the pipeline leaves: an input's array is as entered, the output's is what
    the write-backs left. -/
theorem exit_arr1 (c : Dev nD) : ∀ w : Fin cfg1.W, (dat1 (at3 m) c).arrAt w cfg1.N = at4 m c (Pipeline.arrRef spec1 w) := fun
  | 0 => ((dat1 (at3 m) c).arrAt_in 0 rfl _).trans ((dat1_A (at3 m) c 0).trans (by
      show val3 m c (Pipeline.arrRef spec1 0) = val4 m c (Pipeline.arrRef spec1 0)
      unfold val4; exact (Function.update_of_ne (StableHlo.devRef_ne_of_ne (by decide)) _ _).symm))
  | 1 => ((dat1 (at3 m) c).arrAt_in 1 rfl _).trans ((dat1_A (at3 m) c 1).trans (by
      show val3 m c (Pipeline.arrRef spec1 1) = val4 m c (Pipeline.arrRef spec1 1)
      unfold val4; exact (Function.update_of_ne (StableHlo.devRef_ne_of_ne (by decide)) _ _).symm))
  | 2 => ((dat1 (at3 m) c).arrAt_in 2 rfl _).trans ((dat1_A (at3 m) c 2).trans (by
      show val3 m c (Pipeline.arrRef spec1 2) = val4 m c (Pipeline.arrRef spec1 2)
      unfold val4; exact (Function.update_of_ne (StableHlo.devRef_ne_of_ne (by decide)) _ _).symm))
  | 3 => ((dat1 (at3 m) c).arrAt_in 3 rfl _).trans ((dat1_A (at3 m) c 3).trans (by
      show val3 m c (Pipeline.arrRef spec1 3) = val4 m c (Pipeline.arrRef spec1 3)
      unfold val4; exact (Function.update_of_ne (StableHlo.devRef_ne_of_ne (by decide)) _ _).symm))
  | 4 => by
      show left1 m c = val4 m c main_v42
      unfold val4; exact (Function.update_self (Proc.devRef .tc main_v42 : DevRef τ sig) (left1 m c) (val3 m c)).symm
  | ⟨_ + 5, h⟩ => absurd h (Nat.not_lt.2 (Nat.le_add_left _ _))
/-- … and every other buffer what it held at entry. -/
theorem exit_rest1 (c : Dev nD) : ∀ b, b ∉ Finset.univ.image (Pipeline.arrRef spec1) → at4 m c b = at3 m c b := fun b hb => by
  show val4 m c b = val3 m c b
  unfold val4
  exact Function.update_of_ne (StableHlo.devRef_ne_of_ne (fun e => hb (Finset.mem_image.mpr ⟨4, Finset.mem_univ _, e.symm⟩)) : (Proc.devRef .tc b : DevRef τ sig) ≠ Proc.devRef .tc main_v42) _ _

/-- At region 2's exit each of its arrays holds what the pipeline leaves: an input's array is as entered, the output's is what
    the write-backs left. -/
theorem exit_arr2 (c : Dev nD) : ∀ w : Fin cfg2.W, (dat2 (at5 m) c).arrAt w cfg2.N = at6 m c (Pipeline.arrRef spec2 w) := fun
  | 0 => ((dat2 (at5 m) c).arrAt_in 0 rfl _).trans ((dat2_A (at5 m) c 0).trans (by
      show val5 m c (Pipeline.arrRef spec2 0) = val6 m c (Pipeline.arrRef spec2 0)
      unfold val6; exact (Function.update_of_ne (StableHlo.devRef_ne_of_ne (by decide)) _ _).symm))
  | 1 => ((dat2 (at5 m) c).arrAt_in 1 rfl _).trans ((dat2_A (at5 m) c 1).trans (by
      show val5 m c (Pipeline.arrRef spec2 1) = val6 m c (Pipeline.arrRef spec2 1)
      unfold val6; exact (Function.update_of_ne (StableHlo.devRef_ne_of_ne (by decide)) _ _).symm))
  | 2 => ((dat2 (at5 m) c).arrAt_in 2 rfl _).trans ((dat2_A (at5 m) c 2).trans (by
      show val5 m c (Pipeline.arrRef spec2 2) = val6 m c (Pipeline.arrRef spec2 2)
      unfold val6; exact (Function.update_of_ne (StableHlo.devRef_ne_of_ne (by decide)) _ _).symm))
  | 3 => ((dat2 (at5 m) c).arrAt_in 3 rfl _).trans ((dat2_A (at5 m) c 3).trans (by
      show val5 m c (Pipeline.arrRef spec2 3) = val6 m c (Pipeline.arrRef spec2 3)
      unfold val6; exact (Function.update_of_ne (StableHlo.devRef_ne_of_ne (by decide)) _ _).symm))
  | 4 => by
      show left2 m c = val6 m c main_v45
      unfold val6; exact (Function.update_self (Proc.devRef .tc main_v45 : DevRef τ sig) (left2 m c) (val5 m c)).symm
  | ⟨_ + 5, h⟩ => absurd h (Nat.not_lt.2 (Nat.le_add_left _ _))
/-- … and every other buffer what it held at entry. -/
theorem exit_rest2 (c : Dev nD) : ∀ b, b ∉ Finset.univ.image (Pipeline.arrRef spec2) → at6 m c b = at5 m c b := fun b hb => by
  show val6 m c b = val5 m c b
  unfold val6
  exact Function.update_of_ne (StableHlo.devRef_ne_of_ne (fun e => hb (Finset.mem_image.mpr ⟨4, Finset.mem_univ _, e.symm⟩)) : (Proc.devRef .tc b : DevRef τ sig) ≠ Proc.devRef .tc main_v45) _ _

/-- At region 3's exit each of its arrays holds what the pipeline leaves: an input's array is as entered, the output's is what
    the write-backs left. -/
theorem exit_arr3 (c : Dev nD) : ∀ w : Fin cfg3.W, (dat3 (at7 m) c).arrAt w cfg3.N = at8 m c (Pipeline.arrRef spec3 w) := fun
  | 0 => ((dat3 (at7 m) c).arrAt_in 0 rfl _).trans ((dat3_A (at7 m) c 0).trans (by
      show val7 m c (Pipeline.arrRef spec3 0) = val8 m c (Pipeline.arrRef spec3 0)
      unfold val8; exact (Function.update_of_ne (StableHlo.devRef_ne_of_ne (by decide)) _ _).symm))
  | 1 => ((dat3 (at7 m) c).arrAt_in 1 rfl _).trans ((dat3_A (at7 m) c 1).trans (by
      show val7 m c (Pipeline.arrRef spec3 1) = val8 m c (Pipeline.arrRef spec3 1)
      unfold val8; exact (Function.update_of_ne (StableHlo.devRef_ne_of_ne (by decide)) _ _).symm))
  | 2 => ((dat3 (at7 m) c).arrAt_in 2 rfl _).trans ((dat3_A (at7 m) c 2).trans (by
      show val7 m c (Pipeline.arrRef spec3 2) = val8 m c (Pipeline.arrRef spec3 2)
      unfold val8; exact (Function.update_of_ne (StableHlo.devRef_ne_of_ne (by decide)) _ _).symm))
  | 3 => ((dat3 (at7 m) c).arrAt_in 3 rfl _).trans ((dat3_A (at7 m) c 3).trans (by
      show val7 m c (Pipeline.arrRef spec3 3) = val8 m c (Pipeline.arrRef spec3 3)
      unfold val8; exact (Function.update_of_ne (StableHlo.devRef_ne_of_ne (by decide)) _ _).symm))
  | 4 => by
      show left3 m c = val8 m c main_v48
      unfold val8; exact (Function.update_self (Proc.devRef .tc main_v48 : DevRef τ sig) (left3 m c) (val7 m c)).symm
  | ⟨_ + 5, h⟩ => absurd h (Nat.not_lt.2 (Nat.le_add_left _ _))
/-- … and every other buffer what it held at entry. -/
theorem exit_rest3 (c : Dev nD) : ∀ b, b ∉ Finset.univ.image (Pipeline.arrRef spec3) → at8 m c b = at7 m c b := fun b hb => by
  show val8 m c b = val7 m c b
  unfold val8
  exact Function.update_of_ne (StableHlo.devRef_ne_of_ne (fun e => hb (Finset.mem_image.mpr ⟨4, Finset.mem_univ _, e.symm⟩)) : (Proc.devRef .tc b : DevRef τ sig) ≠ Proc.devRef .tc main_v48) _ _

/-! ## The proof data family and what rides along -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (at1 m) c
  | ⟨1, _⟩ => fun c => dat1 (at3 m) c
  | ⟨2, _⟩ => fun c => dat2 (at5 m) c
  | ⟨3, _⟩ => fun c => dat3 (at7 m) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every segment: the core's generator register at some state and its dues, at nothing. -/
abbrev rides (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the contents before it, left at the contents after
    it. Its arrays are split out of the unscoped buffers and put back at the exit contents; the generator register goes into
    the pipeline's invariant and comes out; nothing is owed; the kernel has no semaphore of its own. -/
def reg0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (at1 m) c).loose
  hwaits := Pipeline.hwaits_of_owed_zero _ _ _ _ noLevels levelZero 0 fun _ _ => rfl
  pre c := iprop(StableHlo.held (c : Thread nD τ) (Pipeline.ucRefs τ sig) (V1 m c) ∗ rides c)
  post c := iprop(StableHlo.held (c : Thread nD τ) (Pipeline.ucRefs τ sig) (val2 m c) ∗ rides c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at1 m c) (at2 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays are split out of the unscoped buffers and put back at the exit contents; the generator register goes into
    the pipeline's invariant and comes out; nothing is owed; the kernel has no semaphore of its own. -/
def reg1 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (at3 m) c).loose
  hwaits := Pipeline.hwaits_of_owed_zero _ _ _ _ noLevels levelZero 1 fun _ _ => rfl
  pre c := iprop(StableHlo.held (c : Thread nD τ) (Pipeline.ucRefs τ sig) (val3 m c) ∗ rides c)
  post c := iprop(StableHlo.held (c : Thread nD τ) (Pipeline.ucRefs τ sig) (val4 m c) ∗ rides c)
  X c := iprop(∃ r, prngReg c r)
  Y c := iprop(∃ r, prngReg c r)
  Z c := Pipeline.unscopedRest (Ix := Unit) (Name := ℕ) (U := UR sig nD τ) (Lvl := ℕ) spec1 c (at3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at3 m c) (at4 m c) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents after
    it. Its arrays are split out of the unscoped buffers and put back at the exit contents; the generator register goes into
    the pipeline's invariant and comes out; nothing is owed; the kernel has no semaphore of its own. -/
def reg2 : Pipeline.RegionSeg (pcfgs (F := F)) adm (pdats m) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (at5 m) c).loose
  hwaits := Pipeline.hwaits_of_owed_zero _ _ _ _ noLevels levelZero 2 fun _ _ => rfl
  pre c := iprop(StableHlo.held (c : Thread nD τ) (Pipeline.ucRefs τ sig) (val5 m c) ∗ rides c)
  post c := iprop(StableHlo.held (c : Thread nD τ) (Pipeline.ucRefs τ sig) (val6 m c) ∗ rides c)
  X c := iprop(∃ r, prngReg c r)
  Y c := iprop(∃ r, prngReg c r)
  Z c := Pipeline.unscopedRest (Ix := Unit) (Name := ℕ) (U := UR sig nD τ) (Lvl := ℕ) spec2 c (at5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at5 m c) (at6 m c) ((pdats m 2 c).arrAt · cfg2.N) (exit_arr2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents after
    it. Its arrays are split out of the unscoped buffers and put back at the exit contents; the generator register goes into
    the pipeline's invariant and comes out; nothing is owed; the kernel has no semaphore of its own. -/
def reg3 : Pipeline.RegionSeg (pcfgs (F := F)) adm (pdats m) () defs₀ noVariants noLevels levelZero 3 where
  win := launch3.win.to₀
  block_pos := launch3.block_pos
  stage_whole := launch3.stage_whole
  K := PEmpty
  osem k := k.elim
  ho := Pipeline.OwnSemFacts.none _
  hbody c := (body_obligation3 (at7 m) c).loose
  hwaits := Pipeline.hwaits_of_owed_zero _ _ _ _ noLevels levelZero 3 fun _ _ => rfl
  pre c := iprop(StableHlo.held (c : Thread nD τ) (Pipeline.ucRefs τ sig) (val7 m c) ∗ rides c)
  post c := iprop(StableHlo.held (c : Thread nD τ) (Pipeline.ucRefs τ sig) (val8 m c) ∗ rides c)
  X c := iprop(∃ r, prngReg c r)
  Y c := iprop(∃ r, prngReg c r)
  Z c := Pipeline.unscopedRest (Ix := Unit) (Name := ℕ) (U := UR sig nD τ) (Lvl := ℕ) spec3 c (at7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (at7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (at7 m c) (at8 m c) ((pdats m 3 c).arrAt · cfg3.N) (exit_arr3 m c) (exit_rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The thread states meet at every boundary -/

theorem meet2 (c : Dev nD) : iprop(StableHlo.held (c : Thread nD τ) (Pipeline.ucRefs τ sig) (val2 m c) ∗ rides c)
    ⊢ (iprop(StableHlo.held (c : Thread nD τ) (Pipeline.ucRefs τ sig) (V2 m (leaves m) c) ∗ rides c) : sProp 𝕄) := Entails.of_eq (by rw [V2_eq])
theorem meet3 (c : Dev nD) : iprop(StableHlo.held (c : Thread nD τ) (Pipeline.ucRefs τ sig) (V3 m (leaves m) c) ∗ rides c)
    ⊢ (iprop(StableHlo.held (c : Thread nD τ) (Pipeline.ucRefs τ sig) (val3 m c) ∗ rides c) : sProp 𝕄) := Entails.of_eq (by rw [V3_eq])
theorem meet4 (c : Dev nD) : iprop(StableHlo.held (c : Thread nD τ) (Pipeline.ucRefs τ sig) (val4 m c) ∗ rides c)
    ⊢ (iprop(StableHlo.held (c : Thread nD τ) (Pipeline.ucRefs τ sig) (V4 m (leaves m) c) ∗ rides c) : sProp 𝕄) := Entails.of_eq (by rw [V4_eq])
theorem meet5 (c : Dev nD) : iprop(StableHlo.held (c : Thread nD τ) (Pipeline.ucRefs τ sig) (V5 m (leaves m) c) ∗ rides c)
    ⊢ (iprop(StableHlo.held (c : Thread nD τ) (Pipeline.ucRefs τ sig) (val5 m c) ∗ rides c) : sProp 𝕄) := Entails.of_eq (by rw [V5_eq])
theorem meet6 (c : Dev nD) : iprop(StableHlo.held (c : Thread nD τ) (Pipeline.ucRefs τ sig) (val6 m c) ∗ rides c)
    ⊢ (iprop(StableHlo.held (c : Thread nD τ) (Pipeline.ucRefs τ sig) (V6 m (leaves m) c) ∗ rides c) : sProp 𝕄) := Entails.of_eq (by rw [V6_eq])
theorem meet7 (c : Dev nD) : iprop(StableHlo.held (c : Thread nD τ) (Pipeline.ucRefs τ sig) (V7 m (leaves m) c) ∗ rides c)
    ⊢ (iprop(StableHlo.held (c : Thread nD τ) (Pipeline.ucRefs τ sig) (val7 m c) ∗ rides c) : sProp 𝕄) := Entails.of_eq (by rw [V7_eq])
theorem meet8 (c : Dev nD) : iprop(StableHlo.held (c : Thread nD τ) (Pipeline.ucRefs τ sig) (val8 m c) ∗ rides c)
    ⊢ (iprop((StableHlo.held (c : Thread nD τ) (Pipeline.ucRefs τ sig) (val8 m c) ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The run -/

set_option backward.isDefEq.respectTransparency.types false in
/-- Every weakly fair execution of @main from memory `m` with zero counters terminates, nothing faulting, and every final memory
    holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = val8 m c b) := by
  refine Pipeline.θ_run_regions_kit_dev (pcfgs (F := F)) adm (pdats m) () cellOf_inj emb₁ defs₀ noVariants noLevels levelZero m ρ main
    (segs m (leaves m) noVariants noLevels levelZero (fun _ c => rides c) () (pdats m) (reg0 m) (reg1 m) (reg2 m) (reg3 m))
    (fun c Q => by
      rewrite [main_chain c, Seg.run_eq_chain,
        show (segs m (leaves m) noVariants noLevels levelZero (fun _ c => rides c) () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c))
    (Tₙ := fun c => iprop(StableHlo.held (c : Thread nD τ) (Pipeline.ucRefs τ sig) (val8 m c) ∗ ∃ r, prngReg c r))
    (hch := fun c => ⟨.rfl, .rfl, meet2 m c, meet3 m c, meet4 m c, meet5 m c, meet6 m c, meet7 m c, meet8 m c⟩)
    (hinit := by
      refine Pipeline.initEach noLevels levelZero fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = val8 m c b)
    (hfin := fun c s' => by
      iintro ⟨⟨Hh, -⟩, HSI⟩
      unfold StableHlo.held
      imodintro
      iapply (pointsTo_read_all (Pipeline.ucRefs τ sig) (fun b => (((c : Thread nD τ)).1, b)) (val8 m c) s')
      isplitl [Hh] <;> iassumption)
    (hQ := fun s h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim's post at any `F`: each argument array ends as launched (no host stretch writes it, no region may change it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans ((congrFun (V8_eq m c).symm _).trans (V8_main_arg0 m (leaves m) c)),
    (h c _ (mem_uc main_arg1 (by decide))).trans ((congrFun (V8_eq m c).symm _).trans (V8_main_arg1 m (leaves m) c)),
    (h c _ (mem_uc main_arg2 (by decide))).trans ((congrFun (V8_eq m c).symm _).trans (V8_main_arg2 m (leaves m) c)),
    (h c _ (mem_uc main_arg3 (by decide))).trans ((congrFun (V8_eq m c).symm _).trans (V8_main_arg3 m (leaves m) c)),
    (h c _ (mem_uc main_arg4 (by decide))).trans ((congrFun (V8_eq m c).symm _).trans (V8_main_arg4 m (leaves m) c)),
    (h c _ (mem_uc main_arg5 (by decide))).trans ((congrFun (V8_eq m c).symm _).trans (V8_main_arg5 m (leaves m) c)),
    (h c _ (mem_uc main_arg6 (by decide))).trans ((congrFun (V8_eq m c).symm _).trans (V8_main_arg6 m (leaves m) c)),
    (h c _ (mem_uc main_arg7 (by decide))).trans ((congrFun (V8_eq m c).symm _).trans (V8_main_arg7 m (leaves m) c)),
    (h c _ (mem_uc main_arg8 (by decide))).trans ((congrFun (V8_eq m c).symm _).trans (V8_main_arg8 m (leaves m) c)),
    (h c _ (mem_uc main_arg9 (by decide))).trans ((congrFun (V8_eq m c).symm _).trans (V8_main_arg9 m (leaves m) c)),
    (h c _ (mem_uc main_arg10 (by decide))).trans ((congrFun (V8_eq m c).symm _).trans (V8_main_arg10 m (leaves m) c)),
    (h c _ (mem_uc main_arg11 (by decide))).trans ((congrFun (V8_eq m c).symm _).trans (V8_main_arg11 m (leaves m) c)),
    (h c _ (mem_uc main_arg12 (by decide))).trans ((congrFun (V8_eq m c).symm _).trans (V8_main_arg12 m (leaves m) c)),
    (h c _ (mem_uc main_arg13 (by decide))).trans ((congrFun (V8_eq m c).symm _).trans (V8_main_arg13 m (leaves m) c)),
    (h c _ (mem_uc main_arg14 (by decide))).trans ((congrFun (V8_eq m c).symm _).trans (V8_main_arg14 m (leaves m) c)),
    (h c _ (mem_uc main_arg15 (by decide))).trans ((congrFun (V8_eq m c).symm _).trans (V8_main_arg15 m (leaves m) c)),
    (h c _ (mem_uc main_arg16 (by decide))).trans ((congrFun (V8_eq m c).symm _).trans (V8_main_arg16 m (leaves m) c)),
    (h c _ (mem_uc main_arg17 (by decide))).trans ((congrFun (V8_eq m c).symm _).trans (V8_main_arg17 m (leaves m) c))⟩) (run_all m ρ)

end Cert.Kernel.Run

end
-- ==== Proof.KernelIdealBody0.lean ====
/-
  Region 0 of @main (the pallas_call running `cc0__msg_kernel`), at a parameter `V`: the TensorCore's buffer contents when the
  region is entered. A window's block at a grid point is read off its array in `V`; the body loads every input block whole,
  and stores its one payload over the whole output block, so after the body the output's staging buffer is that payload of
  the input blocks (`stored0`). With that: the body's triple, the pipeline's proof data (arrays as entered; after the body each
  input's buffer at its block, the output's at `stored0` of the input blocks) and the body obligation at every grid point.
-/
import proofs.«131206_j386547057414_1_alg».proof.Proof.KernelIdealLaunchP
import proofs.«131206_j386547057414_1_alg».proof.Proof.Gen.KernelIdeal.Skeleton
import proofs.«131206_j386547057414_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body0

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a window that is not
    fetched at a point has not moved), for any proof data whose array is `V`'s and whose body leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
/-- Input window 1's current staging buffer holds its block at every point, fetched there or not (a window that is not
    fetched at a point has not moved), for any proof data whose array is `V`'s and whose body leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)
/-- Input window 2's current staging buffer holds its block at every point, fetched there or not (a window that is not
    fetched at a point has not moved), for any proof data whose array is `V`'s and whose body leaves the block in place. -/
theorem held0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)
/-- Input window 3's current staging buffer holds its block at every point, fetched there or not (a window that is not
    fetched at a point has not moved), for any proof data whose array is `V`'s and whose body leaves the block in place. -/
theorem held0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)
/-- Input window 4's current staging buffer holds its block at every point, fetched there or not (a window that is not
    fetched at a point has not moved), for any proof data whose array is `V`'s and whose body leaves the block in place. -/
theorem held0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)
/-- Input window 5's current staging buffer holds its block at every point, fetched there or not (a window that is not
    fetched at a point has not moved), for any proof data whose array is `V`'s and whose body leaves the block in place. -/
theorem held0_5_of {c : Dev nD} (dat : Dat τ (Elt F) Unit ℕ (UR sig nD τ) ℕ cfg0 c) (hA : dat.A 5 = V c (Pipeline.arrRef spec0 5))
    (hafter : ∀ t, dat.after 5 t = blockAt0 V c 5 t) (t : Fin cfg0.N) (d) : dat.before 5 t d = blockAt0 V c 5 t :=
  (dat.before_in_eq_fetched 5 rfl (fun _ => rfl) (fun _ _ _ => rfl) (fun t => by rw [hafter]; unfold Dat.blockOf blockAt0; rw [hA]; try rfl) t d).trans
    (by unfold Dat.fetched Dat.blockOf blockAt0; rw [hA]; try rfl)

/-- The output block's staging buffer after the body: the one store, over the whole block, of the payload of the loaded input blocks. -/
def stored0 (x0 : Vec F S4000x384 .f32) (x1 : Vec F S4000x1 .f32) (x2 : Vec F S384x128 .f32) (x3 : Vec F S384x128 .f32) (x4 : Vec F S1x128 .f32) (x5 : Vec F S1x128 .f32) : Vec F S4000x128 .f32 :=
  View.canon [⟨(Rect.unit (s := S4000x128) ![0, 0] S4000x128.size inb_S4000x128_S4000x128_0_0), k0_pay1 (View.ld x0 (Rect.unit (s := S4000x384) ![0, 0] S4000x384.size inb_S4000x384_S4000x384_0_0)) (View.ld x2 (Rect.unit (s := S384x128) ![0, 0] S384x128.size inb_S384x128_S384x128_0_0)) (View.ld x3 (Rect.unit (s := S384x128) ![0, 0] S384x128.size inb_S384x128_S384x128_0_0)) (View.ld x4 (Rect.unit (s := S1x128) ![0, 0] S1x128.size inb_S1x128_S1x128_0_0)) (View.ld x5 (Rect.unit (s := S1x128) ![0, 0] S1x128.size inb_S1x128_S1x128_0_0)) (View.ld x1 (Rect.unit (s := S4000x1) ![0, 0] S4000x1.size inb_S4000x1_S4000x1_0_0))⟩]

/-- The one store's rectangle is the whole block, so it covers it. -/
theorem covers0 (p0 : Vec F S4000x128 .f32) (y : S4000x128.Idx) :
    ∃ pc ∈ ([⟨(Rect.unit (s := S4000x128) ![0, 0] S4000x128.size inb_S4000x128_S4000x128_0_0), p0⟩] : List (View.Piece (Elt F) S4000x128 .f32)), y ∈ pc.1.set :=
  View.cover_of_tiled [⟨(Rect.unit (s := S4000x128) ![0, 0] S4000x128.size inb_S4000x128_S4000x128_0_0), p0⟩] S4000x128.size (by rfl) y

set_option maxHeartbeats 1000000 in
/-- The kernel body on whole staging memrefs, the inputs' at contents `xW` and the output's at anything, runs to the continuation
    holding the inputs' as they were and the output's at `stored0` of the inputs'. -/
theorem body_triple0 (c : Dev nD) (E : Set ℕ) (i : grid0.Coords) (arg0 : Memref sig .tc .vmem S4000x384 .f32) (harg0 : arg0.IsWhole) (arg1 : Memref sig .tc .vmem S4000x1 .f32) (harg1 : arg1.IsWhole) (arg2 : Memref sig .tc .vmem S384x128 .f32) (harg2 : arg2.IsWhole) (arg3 : Memref sig .tc .vmem S384x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S4000x128 .f32) (harg6 : arg6.IsWhole)
    (x0 : Vec F S4000x384 .f32) (x1 : Vec F S4000x1 .f32) (x2 : Vec F S384x128 .f32) (x3 : Vec F S384x128 .f32) (x4 : Vec F S1x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (stored0 x0 x1 x2 x3 x4 x5)) -∗ K ⟨⟩))
      ⊢ wp frame (wpE (defs₀ (F := F)) Variants.none c none) E (cc0__msg_kernel i arg0 harg0 arg1 harg1 arg2 harg2 arg3 harg3 arg4 harg4 arg5 harg5 arg6 harg6) K := by
  simp only [cc0__msg_kernel_eq_skeleton]; unfold cc0__msg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (covers0 _)

/-- The proof data of pipeline 0 on core `c`: the arrays as the region finds them; after the body at point `t` each input's
    buffer at its block and the output's at `stored0` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => blockAt0 V c 5 t
    | ⟨6, _⟩ => stored0 (blockAt0 V c 0 t) (blockAt0 V c 1 t) (blockAt0 V c 2 t) (blockAt0 V c 3 t) (blockAt0 V c 4 t) (blockAt0 V c 5 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blockAt0 V c 0 t := by dsimp only [dat0]
theorem dat0_after_1 (c : Dev nD) (t : Fin cfg0.N) : (dat0 V c).after 1 t = blockAt0 V c 1 t := by dsimp only [dat0]
theorem dat0_after_2 (c : Dev nD) (t : Fin cfg0.N) : (dat0 V c).after 2 t = blockAt0 V c 2 t := by dsimp only [dat0]
theorem dat0_after_3 (c : Dev nD) (t : Fin cfg0.N) : (dat0 V c).after 3 t = blockAt0 V c 3 t := by dsimp only [dat0]
theorem dat0_after_4 (c : Dev nD) (t : Fin cfg0.N) : (dat0 V c).after 4 t = blockAt0 V c 4 t := by dsimp only [dat0]
theorem dat0_after_5 (c : Dev nD) (t : Fin cfg0.N) : (dat0 V c).after 5 t = blockAt0 V c 5 t := by dsimp only [dat0]
theorem dat0_after_6 (c : Dev nD) (t : Fin cfg0.N) : (dat0 V c).after 6 t = stored0 (blockAt0 V c 0 t) (blockAt0 V c 1 t) (blockAt0 V c 2 t) (blockAt0 V c 3 t) (blockAt0 V c 4 t) (blockAt0 V c 5 t) := by dsimp only [dat0]

theorem dat0_before_0 (c : Dev nD) (t : Fin cfg0.N) (d) : (dat0 V c).before 0 t d = blockAt0 V c 0 t :=
  held0_0_of V (dat0 V c) (dat0_A V c 0) (dat0_after_0 V c) t d
theorem dat0_before_1 (c : Dev nD) (t : Fin cfg0.N) (d) : (dat0 V c).before 1 t d = blockAt0 V c 1 t :=
  held0_1_of V (dat0 V c) (dat0_A V c 1) (dat0_after_1 V c) t d
theorem dat0_before_2 (c : Dev nD) (t : Fin cfg0.N) (d) : (dat0 V c).before 2 t d = blockAt0 V c 2 t :=
  held0_2_of V (dat0 V c) (dat0_A V c 2) (dat0_after_2 V c) t d
theorem dat0_before_3 (c : Dev nD) (t : Fin cfg0.N) (d) : (dat0 V c).before 3 t d = blockAt0 V c 3 t :=
  held0_3_of V (dat0 V c) (dat0_A V c 3) (dat0_after_3 V c) t d
theorem dat0_before_4 (c : Dev nD) (t : Fin cfg0.N) (d) : (dat0 V c).before 4 t d = blockAt0 V c 4 t :=
  held0_4_of V (dat0 V c) (dat0_A V c 4) (dat0_after_4 V c) t d
theorem dat0_before_5 (c : Dev nD) (t : Fin cfg0.N) (d) : (dat0 V c).before 5 t d = blockAt0 V c 5 t :=
  held0_5_of V (dat0 V c) (dat0_A V c 5) (dat0_after_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the core's
    dues pass through unread. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before_0, dat0_before_1, dat0_before_2, dat0_before_3, dat0_before_4, dat0_before_5]
  rw [show (dat0 V c).Φ t.succ = (dat0 V c).Φ t.castSucc from rfl,
    show (dat0 V c).owesAt () t.succ = (dat0 V c).owesAt () t.castSucc from rfl,
    dat0_after_0, dat0_after_1, dat0_after_2, dat0_after_3, dat0_after_4, dat0_after_5, dat0_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple0 c Set.univ _ _ _ _ _ _ _ _ _ _ _ _ _ _ _ (blockAt0 V c 0 t) (blockAt0 V c 1 t) (blockAt0 V c 2 t) (blockAt0 V c 3 t) (blockAt0 V c 4 t) (blockAt0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact body_at0 V c t

end Cert.KernelIdeal.Body0

end
-- ==== Proof.KernelIdealBody1.lean ====
/-
  Region 1 of @main (the pallas_call running `cc1__update_kernel`), at a parameter `V`: the TensorCore's buffer contents when the
  region is entered. A window's block at a grid point is read off its array in `V`; the body loads every input block whole,
  and stores its one payload over the whole output block, so after the body the output's staging buffer is that payload of
  the input blocks (`stored1`). With that: the body's triple, the pipeline's proof data (arrays as entered; after the body each
  input's buffer at its block, the output's at `stored1` of the input blocks) and the body obligation at every grid point.
-/
import proofs.«131206_j386547057414_1_alg».proof.Proof.KernelIdealLaunchP
import proofs.«131206_j386547057414_1_alg».proof.Proof.Gen.KernelIdeal.Skeleton
import proofs.«131206_j386547057414_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body1

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a window that is not
    fetched at a point has not moved), for any proof data whose array is `V`'s and whose body leaves the block in place. -/
theorem held1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
/-- Input window 1's current staging buffer holds its block at every point, fetched there or not (a window that is not
    fetched at a point has not moved), for any proof data whose array is `V`'s and whose body leaves the block in place. -/
theorem held1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
/-- Input window 2's current staging buffer holds its block at every point, fetched there or not (a window that is not
    fetched at a point has not moved), for any proof data whose array is `V`'s and whose body leaves the block in place. -/
theorem held1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)
/-- Input window 3's current staging buffer holds its block at every point, fetched there or not (a window that is not
    fetched at a point has not moved), for any proof data whose array is `V`'s and whose body leaves the block in place. -/
theorem held1_3_of {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)

/-- The output block's staging buffer after the body: the one store, over the whole block, of the payload of the loaded input blocks. -/
def stored1 (x0 : Vec F S5000x128 .f32) (x1 : Vec F S128x128 .f32) (x2 : Vec F S1x128 .f32) (x3 : Vec F S5000x128 .f32) : Vec F S5000x128 .f32 :=
  View.canon [⟨(Rect.unit (s := S5000x128) ![0, 0] S5000x128.size inb_S5000x128_S5000x128_0_0), k1_pay1 (View.ld x0 (Rect.unit (s := S5000x128) ![0, 0] S5000x128.size inb_S5000x128_S5000x128_0_0)) (View.ld x1 (Rect.unit (s := S128x128) ![0, 0] S128x128.size inb_S128x128_S128x128_0_0)) (View.ld x2 (Rect.unit (s := S1x128) ![0, 0] S1x128.size inb_S1x128_S1x128_0_0)) (View.ld x3 (Rect.unit (s := S5000x128) ![0, 0] S5000x128.size inb_S5000x128_S5000x128_0_0))⟩]

/-- The one store's rectangle is the whole block, so it covers it. -/
theorem covers1 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The kernel body on whole staging memrefs, the inputs' at contents `xW` and the output's at anything, runs to the continuation
    holding the inputs' as they were and the output's at `stored1` of the inputs'. -/
theorem body_triple1 (c : Dev nD) (E : Set ℕ) (i : grid1.Coords) (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (x3 : Vec F S5000x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (stored1 x0 x1 x2 x3)) -∗ K ⟨⟩))
      ⊢ wp frame (wpE (defs₀ (F := F)) Variants.none c none) E (cc1__update_kernel i arg0 harg0 arg1 harg1 arg2 harg2 arg3 harg3 arg4 harg4) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers1 _)

/-- The proof data of pipeline 1 on core `c`: the arrays as the region finds them; after the body at point `t` each input's
    buffer at its block and the output's at `stored1` of the input blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => stored1 (blockAt1 V c 0 t) (blockAt1 V c 1 t) (blockAt1 V c 2 t) (blockAt1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blockAt1 V c 0 t := by dsimp only [dat1]
theorem dat1_after_1 (c : Dev nD) (t : Fin cfg1.N) : (dat1 V c).after 1 t = blockAt1 V c 1 t := by dsimp only [dat1]
theorem dat1_after_2 (c : Dev nD) (t : Fin cfg1.N) : (dat1 V c).after 2 t = blockAt1 V c 2 t := by dsimp only [dat1]
theorem dat1_after_3 (c : Dev nD) (t : Fin cfg1.N) : (dat1 V c).after 3 t = blockAt1 V c 3 t := by dsimp only [dat1]
theorem dat1_after_4 (c : Dev nD) (t : Fin cfg1.N) : (dat1 V c).after 4 t = stored1 (blockAt1 V c 0 t) (blockAt1 V c 1 t) (blockAt1 V c 2 t) (blockAt1 V c 3 t) := by dsimp only [dat1]

theorem dat1_before_0 (c : Dev nD) (t : Fin cfg1.N) (d) : (dat1 V c).before 0 t d = blockAt1 V c 0 t :=
  held1_0_of V (dat1 V c) (dat1_A V c 0) (dat1_after_0 V c) t d
theorem dat1_before_1 (c : Dev nD) (t : Fin cfg1.N) (d) : (dat1 V c).before 1 t d = blockAt1 V c 1 t :=
  held1_1_of V (dat1 V c) (dat1_A V c 1) (dat1_after_1 V c) t d
theorem dat1_before_2 (c : Dev nD) (t : Fin cfg1.N) (d) : (dat1 V c).before 2 t d = blockAt1 V c 2 t :=
  held1_2_of V (dat1 V c) (dat1_A V c 2) (dat1_after_2 V c) t d
theorem dat1_before_3 (c : Dev nD) (t : Fin cfg1.N) (d) : (dat1 V c).before 3 t d = blockAt1 V c 3 t :=
  held1_3_of V (dat1 V c) (dat1_A V c 3) (dat1_after_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the core's
    dues pass through unread. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before_0, dat1_before_1, dat1_before_2, dat1_before_3]
  rw [show (dat1 V c).Φ t.succ = (dat1 V c).Φ t.castSucc from rfl,
    show (dat1 V c).owesAt () t.succ = (dat1 V c).owesAt () t.castSucc from rfl,
    dat1_after_0, dat1_after_1, dat1_after_2, dat1_after_3, dat1_after_4]
  iintro ⟨HΦ, Ho, ⟨%d0, H0⟩, ⟨%d1, H1⟩, ⟨%d2, H2⟩, ⟨%d3, H3⟩, ⟨%d4, H4⟩⟩
  iapply (body_triple1 c Set.univ _ _ _ _ _ _ _ _ _ _ _ (blockAt1 V c 0 t) (blockAt1 V c 1 t) (blockAt1 V c 2 t) (blockAt1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact body_at1 V c t

end Cert.KernelIdeal.Body1

end
-- ==== Proof.KernelIdealBody2.lean ====
/-
  Region 2 of @main (the pallas_call running `cc2__update_kernel`), at a parameter `V`: the TensorCore's buffer contents when the
  region is entered. A window's block at a grid point is read off its array in `V`; the body loads every input block whole,
  and stores its one payload over the whole output block, so after the body the output's staging buffer is that payload of
  the input blocks (`stored2`). With that: the body's triple, the pipeline's proof data (arrays as entered; after the body each
  input's buffer at its block, the output's at `stored2` of the input blocks) and the body obligation at every grid point.
-/
import proofs.«131206_j386547057414_1_alg».proof.Proof.KernelIdealLaunchP
import proofs.«131206_j386547057414_1_alg».proof.Proof.Gen.KernelIdeal.Skeleton
import proofs.«131206_j386547057414_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body2

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window that is not
    fetched at a point has not moved), for any proof data whose array is `V`'s and whose body leaves the block in place. -/
theorem held2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)
/-- Input window 1's current staging buffer holds its block at every point, fetched there or not (a window that is not
    fetched at a point has not moved), for any proof data whose array is `V`'s and whose body leaves the block in place. -/
theorem held2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)
/-- Input window 2's current staging buffer holds its block at every point, fetched there or not (a window that is not
    fetched at a point has not moved), for any proof data whose array is `V`'s and whose body leaves the block in place. -/
theorem held2_2_of {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)
/-- Input window 3's current staging buffer holds its block at every point, fetched there or not (a window that is not
    fetched at a point has not moved), for any proof data whose array is `V`'s and whose body leaves the block in place. -/
theorem held2_3_of {c : Dev nD} (dat : Dat τ (Elt F) Unit ℕ (UR sig nD τ) ℕ cfg2 c) (hA : dat.A 3 = V c (Pipeline.arrRef spec2 3))
    (hafter : ∀ t, dat.after 3 t = blockAt2 V c 3 t) (t : Fin cfg2.N) (d) : dat.before 3 t d = blockAt2 V c 3 t :=
  (dat.before_in_eq_fetched 3 rfl (fun _ => rfl) (fun _ _ _ => rfl) (fun t => by rw [hafter]; unfold Dat.blockOf blockAt2; rw [hA]; try rfl) t d).trans
    (by unfold Dat.fetched Dat.blockOf blockAt2; rw [hA]; try rfl)

/-- The output block's staging buffer after the body: the one store, over the whole block, of the payload of the loaded input blocks. -/
def stored2 (x0 : Vec F S500x128 .f32) (x1 : Vec F S128x128 .f32) (x2 : Vec F S1x128 .f32) (x3 : Vec F S500x128 .f32) : Vec F S500x128 .f32 :=
  View.canon [⟨(Rect.unit (s := S500x128) ![0, 0] S500x128.size inb_S500x128_S500x128_0_0), k2_pay1 (View.ld x0 (Rect.unit (s := S500x128) ![0, 0] S500x128.size inb_S500x128_S500x128_0_0)) (View.ld x1 (Rect.unit (s := S128x128) ![0, 0] S128x128.size inb_S128x128_S128x128_0_0)) (View.ld x2 (Rect.unit (s := S1x128) ![0, 0] S1x128.size inb_S1x128_S1x128_0_0)) (View.ld x3 (Rect.unit (s := S500x128) ![0, 0] S500x128.size inb_S500x128_S500x128_0_0))⟩]

/-- The one store's rectangle is the whole block, so it covers it. -/
theorem covers2 (p0 : Vec F S500x128 .f32) (y : S500x128.Idx) :
    ∃ pc ∈ ([⟨(Rect.unit (s := S500x128) ![0, 0] S500x128.size inb_S500x128_S500x128_0_0), p0⟩] : List (View.Piece (Elt F) S500x128 .f32)), y ∈ pc.1.set :=
  View.cover_of_tiled [⟨(Rect.unit (s := S500x128) ![0, 0] S500x128.size inb_S500x128_S500x128_0_0), p0⟩] S500x128.size (by rfl) y

set_option maxHeartbeats 1000000 in
/-- The kernel body on whole staging memrefs, the inputs' at contents `xW` and the output's at anything, runs to the continuation
    holding the inputs' as they were and the output's at `stored2` of the inputs'. -/
theorem body_triple2 (c : Dev nD) (E : Set ℕ) (i : grid2.Coords) (arg0 : Memref sig .tc .vmem S500x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S500x128 .f32) (harg3 : arg3.IsWhole) (arg4 : Memref sig .tc .vmem S500x128 .f32) (harg4 : arg4.IsWhole)
    (x0 : Vec F S500x128 .f32) (x1 : Vec F S128x128 .f32) (x2 : Vec F S1x128 .f32) (x3 : Vec F S500x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (stored2 x0 x1 x2 x3)) -∗ K ⟨⟩))
      ⊢ wp frame (wpE (defs₀ (F := F)) Variants.none c none) E (cc2__update_kernel i arg0 harg0 arg1 harg1 arg2 harg2 arg3 harg3 arg4 harg4) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers2 _)

/-- The proof data of pipeline 2 on core `c`: the arrays as the region finds them; after the body at point `t` each input's
    buffer at its block and the output's at `stored2` of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => stored2 (blockAt2 V c 0 t) (blockAt2 V c 1 t) (blockAt2 V c 2 t) (blockAt2 V c 3 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blockAt2 V c 0 t := by dsimp only [dat2]
theorem dat2_after_1 (c : Dev nD) (t : Fin cfg2.N) : (dat2 V c).after 1 t = blockAt2 V c 1 t := by dsimp only [dat2]
theorem dat2_after_2 (c : Dev nD) (t : Fin cfg2.N) : (dat2 V c).after 2 t = blockAt2 V c 2 t := by dsimp only [dat2]
theorem dat2_after_3 (c : Dev nD) (t : Fin cfg2.N) : (dat2 V c).after 3 t = blockAt2 V c 3 t := by dsimp only [dat2]
theorem dat2_after_4 (c : Dev nD) (t : Fin cfg2.N) : (dat2 V c).after 4 t = stored2 (blockAt2 V c 0 t) (blockAt2 V c 1 t) (blockAt2 V c 2 t) (blockAt2 V c 3 t) := by dsimp only [dat2]

theorem dat2_before_0 (c : Dev nD) (t : Fin cfg2.N) (d) : (dat2 V c).before 0 t d = blockAt2 V c 0 t :=
  held2_0_of V (dat2 V c) (dat2_A V c 0) (dat2_after_0 V c) t d
theorem dat2_before_1 (c : Dev nD) (t : Fin cfg2.N) (d) : (dat2 V c).before 1 t d = blockAt2 V c 1 t :=
  held2_1_of V (dat2 V c) (dat2_A V c 1) (dat2_after_1 V c) t d
theorem dat2_before_2 (c : Dev nD) (t : Fin cfg2.N) (d) : (dat2 V c).before 2 t d = blockAt2 V c 2 t :=
  held2_2_of V (dat2 V c) (dat2_A V c 2) (dat2_after_2 V c) t d
theorem dat2_before_3 (c : Dev nD) (t : Fin cfg2.N) (d) : (dat2 V c).before 3 t d = blockAt2 V c 3 t :=
  held2_3_of V (dat2 V c) (dat2_A V c 3) (dat2_after_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the core's
    dues pass through unread. -/
theorem body_at2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before_0, dat2_before_1, dat2_before_2, dat2_before_3]
  rw [show (dat2 V c).Φ t.succ = (dat2 V c).Φ t.castSucc from rfl,
    show (dat2 V c).owesAt () t.succ = (dat2 V c).owesAt () t.castSucc from rfl,
    dat2_after_0, dat2_after_1, dat2_after_2, dat2_after_3, dat2_after_4]
  iintro ⟨HΦ, Ho, ⟨%d0, H0⟩, ⟨%d1, H1⟩, ⟨%d2, H2⟩, ⟨%d3, H3⟩, ⟨%d4, H4⟩⟩
  iapply (body_triple2 c Set.univ _ _ _ _ _ _ _ _ _ _ _ (blockAt2 V c 0 t) (blockAt2 V c 1 t) (blockAt2 V c 2 t) (blockAt2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact body_at2 V c t

end Cert.KernelIdeal.Body2

end
-- ==== Proof.KernelIdealBody3.lean ====
/-
  Region 3 of @main (the pallas_call running `cc3__update_kernel`), at a parameter `V`: the TensorCore's buffer contents when the
  region is entered. A window's block at a grid point is read off its array in `V`; the body loads every input block whole,
  and stores its one payload over the whole output block, so after the body the output's staging buffer is that payload of
  the input blocks (`stored3`). With that: the body's triple, the pipeline's proof data (arrays as entered; after the body each
  input's buffer at its block, the output's at `stored3` of the input blocks) and the body obligation at every grid point.
-/
import proofs.«131206_j386547057414_1_alg».proof.Proof.KernelIdealLaunchP
import proofs.«131206_j386547057414_1_alg».proof.Proof.Gen.KernelIdeal.Skeleton
import proofs.«131206_j386547057414_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body3

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (a window that is not
    fetched at a point has not moved), for any proof data whose array is `V`'s and whose body leaves the block in place. -/
theorem held3_0_of {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)
/-- Input window 1's current staging buffer holds its block at every point, fetched there or not (a window that is not
    fetched at a point has not moved), for any proof data whose array is `V`'s and whose body leaves the block in place. -/
theorem held3_1_of {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)
/-- Input window 2's current staging buffer holds its block at every point, fetched there or not (a window that is not
    fetched at a point has not moved), for any proof data whose array is `V`'s and whose body leaves the block in place. -/
theorem held3_2_of {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)
/-- Input window 3's current staging buffer holds its block at every point, fetched there or not (a window that is not
    fetched at a point has not moved), for any proof data whose array is `V`'s and whose body leaves the block in place. -/
theorem held3_3_of {c : Dev nD} (dat : Dat τ (Elt F) Unit ℕ (UR sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)

/-- The output block's staging buffer after the body: the one store, over the whole block, of the payload of the loaded input blocks. -/
def stored3 (x0 : Vec F S366x128 .f32) (x1 : Vec F S128x128 .f32) (x2 : Vec F S1x128 .f32) (x3 : Vec F S366x128 .f32) : Vec F S366x128 .f32 :=
  View.canon [⟨(Rect.unit (s := S366x128) ![0, 0] S366x128.size inb_S366x128_S366x128_0_0), k3_pay1 (View.ld x0 (Rect.unit (s := S366x128) ![0, 0] S366x128.size inb_S366x128_S366x128_0_0)) (View.ld x1 (Rect.unit (s := S128x128) ![0, 0] S128x128.size inb_S128x128_S128x128_0_0)) (View.ld x2 (Rect.unit (s := S1x128) ![0, 0] S1x128.size inb_S1x128_S1x128_0_0)) (View.ld x3 (Rect.unit (s := S366x128) ![0, 0] S366x128.size inb_S366x128_S366x128_0_0))⟩]

/-- The one store's rectangle is the whole block, so it covers it. -/
theorem covers3 (p0 : Vec F S366x128 .f32) (y : S366x128.Idx) :
    ∃ pc ∈ ([⟨(Rect.unit (s := S366x128) ![0, 0] S366x128.size inb_S366x128_S366x128_0_0), p0⟩] : List (View.Piece (Elt F) S366x128 .f32)), y ∈ pc.1.set :=
  View.cover_of_tiled [⟨(Rect.unit (s := S366x128) ![0, 0] S366x128.size inb_S366x128_S366x128_0_0), p0⟩] S366x128.size (by rfl) y

set_option maxHeartbeats 1000000 in
/-- The kernel body on whole staging memrefs, the inputs' at contents `xW` and the output's at anything, runs to the continuation
    holding the inputs' as they were and the output's at `stored3` of the inputs'. -/
theorem body_triple3 (c : Dev nD) (E : Set ℕ) (i : grid3.Coords) (arg0 : Memref sig .tc .vmem S366x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S366x128 .f32) (harg3 : arg3.IsWhole) (arg4 : Memref sig .tc .vmem S366x128 .f32) (harg4 : arg4.IsWhole)
    (x0 : Vec F S366x128 .f32) (x1 : Vec F S128x128 .f32) (x2 : Vec F S1x128 .f32) (x3 : Vec F S366x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (stored3 x0 x1 x2 x3)) -∗ K ⟨⟩))
      ⊢ wp frame (wpE (defs₀ (F := F)) Variants.none c none) E (cc3__update_kernel i arg0 harg0 arg1 harg1 arg2 harg2 arg3 harg3 arg4 harg4) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers3 _)

/-- The proof data of pipeline 3 on core `c`: the arrays as the region finds them; after the body at point `t` each input's
    buffer at its block and the output's at `stored3` of the input blocks; the invariant the scoped rest and the generator
    register, untouched; nothing owed; full shares. -/
def dat3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => stored3 (blockAt3 V c 0 t) (blockAt3 V c 1 t) (blockAt3 V c 2 t) (blockAt3 V c 3 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_0 (c : Dev nD) (t : Fin cfg3.N) : (dat3 V c).after 0 t = blockAt3 V c 0 t := by dsimp only [dat3]
theorem dat3_after_1 (c : Dev nD) (t : Fin cfg3.N) : (dat3 V c).after 1 t = blockAt3 V c 1 t := by dsimp only [dat3]
theorem dat3_after_2 (c : Dev nD) (t : Fin cfg3.N) : (dat3 V c).after 2 t = blockAt3 V c 2 t := by dsimp only [dat3]
theorem dat3_after_3 (c : Dev nD) (t : Fin cfg3.N) : (dat3 V c).after 3 t = blockAt3 V c 3 t := by dsimp only [dat3]
theorem dat3_after_4 (c : Dev nD) (t : Fin cfg3.N) : (dat3 V c).after 4 t = stored3 (blockAt3 V c 0 t) (blockAt3 V c 1 t) (blockAt3 V c 2 t) (blockAt3 V c 3 t) := by dsimp only [dat3]

theorem dat3_before_0 (c : Dev nD) (t : Fin cfg3.N) (d) : (dat3 V c).before 0 t d = blockAt3 V c 0 t :=
  held3_0_of V (dat3 V c) (dat3_A V c 0) (dat3_after_0 V c) t d
theorem dat3_before_1 (c : Dev nD) (t : Fin cfg3.N) (d) : (dat3 V c).before 1 t d = blockAt3 V c 1 t :=
  held3_1_of V (dat3 V c) (dat3_A V c 1) (dat3_after_1 V c) t d
theorem dat3_before_2 (c : Dev nD) (t : Fin cfg3.N) (d) : (dat3 V c).before 2 t d = blockAt3 V c 2 t :=
  held3_2_of V (dat3 V c) (dat3_A V c 2) (dat3_after_2 V c) t d
theorem dat3_before_3 (c : Dev nD) (t : Fin cfg3.N) (d) : (dat3 V c).before 3 t d = blockAt3 V c 3 t :=
  held3_3_of V (dat3 V c) (dat3_A V c 3) (dat3_after_3 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and the core's
    dues pass through unread. -/
theorem body_at3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [dat3_before_0, dat3_before_1, dat3_before_2, dat3_before_3]
  rw [show (dat3 V c).Φ t.succ = (dat3 V c).Φ t.castSucc from rfl,
    show (dat3 V c).owesAt () t.succ = (dat3 V c).owesAt () t.castSucc from rfl,
    dat3_after_0, dat3_after_1, dat3_after_2, dat3_after_3, dat3_after_4]
  iintro ⟨HΦ, Ho, ⟨%d0, H0⟩, ⟨%d1, H1⟩, ⟨%d2, H2⟩, ⟨%d3, H3⟩, ⟨%d4, H4⟩⟩
  iapply (body_triple3 c Set.univ _ _ _ _ _ _ _ _ _ _ _ (blockAt3 V c 0 t) (blockAt3 V c 1 t) (blockAt3 V c 2 t) (blockAt3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact body_at3 V c t

end Cert.KernelIdeal.Body3

end
-- ==== Proof.KernelIdealRun.lean ====
/-
  The run of @main as a whole: four host stretches and four kernel regions in turn. The buffer contents at every boundary
  are named (`at1` … `at8`: a host stretch applies its operations to the contents before it; a region changes only its output
  array, to what its write-backs leave), each region is a segment of the run entered from the contents before it and left at
  the contents after it, and every weakly fair execution of @main terminates with EVERY unscoped buffer at `at8`. The frame
  claim (the arguments end as launched) and the values of the three results are read off that.
-/
import proofs.«131206_j386547057414_1_alg».proof.Proof.KernelIdealRegionsP
import proofs.«131206_j386547057414_1_alg».proof.Proof.KernelIdealBody0
import proofs.«131206_j386547057414_1_alg».proof.Proof.KernelIdealBody1
import proofs.«131206_j386547057414_1_alg».proof.Proof.KernelIdealBody2
import proofs.«131206_j386547057414_1_alg».proof.Proof.KernelIdealBody3

set_option maxRecDepth 16384

noncomputable section

namespace Cert.KernelIdeal.Run

open Cert.KernelIdeal Cert.KernelIdeal.Gen Cert.KernelIdeal.GenP
open Cert.KernelIdeal.Body0 Cert.KernelIdeal.Body1 Cert.KernelIdeal.Body2 Cert.KernelIdeal.Body3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- After the first host stretch: region 0's entry contents, read at the TensorCore's references. -/
abbrev at1 : (c : Dev nD) → (b : Ref sig .tc) → Buf (Elt F) ((c : Thread nD τ).loc b) := fun c b => V1 m c b
/-- What region 0's write-backs leave in its output array. -/
def left0 (c : Dev nD) : Buf (Elt F) ((c : Thread nD τ).loc main_v28) := (dat0 (at1 m) c).arrAt 6 cfg0.N
/-- After region 0: only its output array changed. -/
def val2 (c : Dev nD) : Valuation τ sig (Elt F) := Function.update (V1 m c) main_v28 (left0 m c)
abbrev at2 : (c : Dev nD) → (b : Ref sig .tc) → Buf (Elt F) ((c : Thread nD τ).loc b) := fun c b => val2 m c b
def val3 (c : Dev nD) : Valuation τ sig (Elt F) := StableHlo.after hostOps1 (val2 m c)
abbrev at3 : (c : Dev nD) → (b : Ref sig .tc) → Buf (Elt F) ((c : Thread nD τ).loc b) := fun c b => val3 m c b
def left1 (c : Dev nD) : Buf (Elt F) ((c : Thread nD τ).loc main_v42) := (dat1 (at3 m) c).arrAt 4 cfg1.N
def val4 (c : Dev nD) : Valuation τ sig (Elt F) := Function.update (val3 m c) main_v42 (left1 m c)
abbrev at4 : (c : Dev nD) → (b : Ref sig .tc) → Buf (Elt F) ((c : Thread nD τ).loc b) := fun c b => val4 m c b
def val5 (c : Dev nD) : Valuation τ sig (Elt F) := StableHlo.after hostOps2 (val4 m c)
abbrev at5 : (c : Dev nD) → (b : Ref sig .tc) → Buf (Elt F) ((c : Thread nD τ).loc b) := fun c b => val5 m c b
def left2 (c : Dev nD) : Buf (Elt F) ((c : Thread nD τ).loc main_v45) := (dat2 (at5 m) c).arrAt 4 cfg2.N
def val6 (c : Dev nD) : Valuation τ sig (Elt F) := Function.update (val5 m c) main_v45 (left2 m c)
abbrev at6 : (c : Dev nD) → (b : Ref sig .tc) → Buf (Elt F) ((c : Thread nD τ).loc b) := fun c b => val6 m c b
def val7 (c : Dev nD) : Valuation τ sig (Elt F) := StableHlo.after hostOps3 (val6 m c)
abbrev at7 : (c : Dev nD) → (b : Ref sig .tc) → Buf (Elt F) ((c : Thread nD τ).loc b) := fun c b => val7 m c b
def left3 (c : Dev nD) : Buf (Elt F) ((c : Thread nD τ).loc main_v48) := (dat3 (at7 m) c).arrAt 4 cfg3.N
def val8 (c : Dev nD) : Valuation τ sig (Elt F) := Function.update (val7 m c) main_v48 (left3 m c)
abbrev at8 : (c : Dev nD) → (b : Ref sig .tc) → Buf (Elt F) ((c : Thread nD τ).loc b) := fun c b => val8 m c b

/-- What each region leaves in the buffers it may change, as the conditional frame's unknowns. -/
def leaves : Outs (F := F) := fun J r c => match J with
  | 2 => val2 m c r
  | 4 => val4 m c r
  | 6 => val6 m c r
  | _ => val8 m c r

theorem V2_eq (c : Dev nD) : V2 m (leaves m) c = val2 m c := by
  show Function.update (V1 m c) main_v28 (val2 m c main_v28) = val2 m c
  unfold val2; rw [Function.update_self]
theorem V3_eq (c : Dev nD) : V3 m (leaves m) c = val3 m c := by
  show StableHlo.after hostOps1 (V2 m (leaves m) c) = _
  rw [V2_eq]; rfl
theorem V4_eq (c : Dev nD) : V4 m (leaves m) c = val4 m c := by
  show Function.update (V3 m (leaves m) c) main_v42 (val4 m c main_v42) = val4 m c
  rw [V3_eq]; unfold val4; rw [Function.update_self]
theorem V5_eq (c : Dev nD) : V5 m (leaves m) c = val5 m c := by
  show StableHlo.after hostOps2 (V4 m (leaves m) c) = _
  rw [V4_eq]; rfl
theorem V6_eq (c : Dev nD) : V6 m (leaves m) c = val6 m c := by
  show Function.update (V5 m (leaves m) c) main_v45 (val6 m c main_v45) = val6 m c
  rw [V5_eq]; unfold val6; rw [Function.update_self]
theorem V7_eq (c : Dev nD) : V7 m (leaves m) c = val7 m c := by
  show StableHlo.after hostOps3 (V6 m (leaves m) c) = _
  rw [V6_eq]; rfl
theorem V8_eq (c : Dev nD) : V8 m (leaves m) c = val8 m c := by
  show Function.update (V7 m (leaves m) c) main_v48 (val8 m c main_v48) = val8 m c
  rw [V7_eq]; unfold val8; rw [Function.update_self]

/-! ## Each region's arrays at its exit -/

/-- At region 0's exit each of its arrays holds what the pipeline leaves: an input's array is as entered, the output's is what
    the write-backs left. -/
theorem exit_arr0 (c : Dev nD) : ∀ w : Fin cfg0.W, (dat0 (at1 m) c).arrAt w cfg0.N = at2 m c (Pipeline.arrRef spec0 w) := fun
  | 0 => ((dat0 (at1 m) c).arrAt_in 0 rfl _).trans ((dat0_A (at1 m) c 0).trans (by
      show V1 m c (Pipeline.arrRef spec0 0) = val2 m c (Pipeline.arrRef spec0 0)
      unfold val2; exact (Function.update_of_ne (StableHlo.devRef_ne_of_ne (by decide)) _ _).symm))
  | 1 => ((dat0 (at1 m) c).arrAt_in 1 rfl _).trans ((dat0_A (at1 m) c 1).trans (by
      show V1 m c (Pipeline.arrRef spec0 1) = val2 m c (Pipeline.arrRef spec0 1)
      unfold val2; exact (Function.update_of_ne (StableHlo.devRef_ne_of_ne (by decide)) _ _).symm))
  | 2 => ((dat0 (at1 m) c).arrAt_in 2 rfl _).trans ((dat0_A (at1 m) c 2).trans (by
      show V1 m c (Pipeline.arrRef spec0 2) = val2 m c (Pipeline.arrRef spec0 2)
      unfold val2; exact (Function.update_of_ne (StableHlo.devRef_ne_of_ne (by decide)) _ _).symm))
  | 3 => ((dat0 (at1 m) c).arrAt_in 3 rfl _).trans ((dat0_A (at1 m) c 3).trans (by
      show V1 m c (Pipeline.arrRef spec0 3) = val2 m c (Pipeline.arrRef spec0 3)
      unfold val2; exact (Function.update_of_ne (StableHlo.devRef_ne_of_ne (by decide)) _ _).symm))
  | 4 => ((dat0 (at1 m) c).arrAt_in 4 rfl _).trans ((dat0_A (at1 m) c 4).trans (by
      show V1 m c (Pipeline.arrRef spec0 4) = val2 m c (Pipeline.arrRef spec0 4)
      unfold val2; exact (Function.update_of_ne (StableHlo.devRef_ne_of_ne (by decide)) _ _).symm))
  | 5 => ((dat0 (at1 m) c).arrAt_in 5 rfl _).trans ((dat0_A (at1 m) c 5).trans (by
      show V1 m c (Pipeline.arrRef spec0 5) = val2 m c (Pipeline.arrRef spec0 5)
      unfold val2; exact (Function.update_of_ne (StableHlo.devRef_ne_of_ne (by decide)) _ _).symm))
  | 6 => by
      show left0 m c = val2 m c main_v28
      unfold val2; exact (Function.update_self (Proc.devRef .tc main_v28 : DevRef τ sig) (left0 m c) (V1 m c)).symm
  | ⟨_ + 7, h⟩ => absurd h (Nat.not_lt.2 (Nat.le_add_left _ _))
/-- … and every other buffer what it held at entry. -/
theorem exit_rest0 (c : Dev nD) : ∀ b, b ∉ Finset.univ.image (Pipeline.arrRef spec0) → at2 m c b = at1 m c b := fun b hb => by
  show val2 m c b = V1 m c b
  unfold val2
  exact Function.update_of_ne (StableHlo.devRef_ne_of_ne (fun e => hb (Finset.mem_image.mpr ⟨6, Finset.mem_univ _, e.symm⟩)) : (Proc.devRef .tc b : DevRef τ sig) ≠ Proc.devRef .tc main_v28) _ _

/-- At region 1's exit each of its arrays holds what the pipeline leaves: an input's array is as entered, the output's is what
    the write-backs left. -/
theorem exit_arr1 (c : Dev nD) : ∀ w : Fin cfg1.W, (dat1 (at3 m) c).arrAt w cfg1.N = at4 m c (Pipeline.arrRef spec1 w) := fun
  | 0 => ((dat1 (at3 m) c).arrAt_in 0 rfl _).trans ((dat1_A (at3 m) c 0).trans (by
      show val3 m c (Pipeline.arrRef spec1 0) = val4 m c (Pipeline.arrRef spec1 0)
      unfold val4; exact (Function.update_of_ne (StableHlo.devRef_ne_of_ne (by decide)) _ _).symm))
  | 1 => ((dat1 (at3 m) c).arrAt_in 1 rfl _).trans ((dat1_A (at3 m) c 1).trans (by
      show val3 m c (Pipeline.arrRef spec1 1) = val4 m c (Pipeline.arrRef spec1 1)
      unfold val4; exact (Function.update_of_ne (StableHlo.devRef_ne_of_ne (by decide)) _ _).symm))
  | 2 => ((dat1 (at3 m) c).arrAt_in 2 rfl _).trans ((dat1_A (at3 m) c 2).trans (by
      show val3 m c (Pipeline.arrRef spec1 2) = val4 m c (Pipeline.arrRef spec1 2)
      unfold val4; exact (Function.update_of_ne (StableHlo.devRef_ne_of_ne (by decide)) _ _).symm))
  | 3 => ((dat1 (at3 m) c).arrAt_in 3 rfl _).trans ((dat1_A (at3 m) c 3).trans (by
      show val3 m c (Pipeline.arrRef spec1 3) = val4 m c (Pipeline.arrRef spec1 3)
      unfold val4; exact (Function.update_of_ne (StableHlo.devRef_ne_of_ne (by decide)) _ _).symm))
  | 4 => by
      show left1 m c = val4 m c main_v42
      unfold val4; exact (Function.update_self (Proc.devRef .tc main_v42 : DevRef τ sig) (left1 m c) (val3 m c)).symm
  | ⟨_ + 5, h⟩ => absurd h (Nat.not_lt.2 (Nat.le_add_left _ _))
/-- … and every other buffer what it held at entry. -/
theorem exit_rest1 (c : Dev nD) : ∀ b, b ∉ Finset.univ.image (Pipeline.arrRef spec1) → at4 m c b = at3 m c b := fun b hb => by
  show val4 m c b = val3 m c b
  unfold val4
  exact Function.update_of_ne (StableHlo.devRef_ne_of_ne (fun e => hb (Finset.mem_image.mpr ⟨4, Finset.mem_univ _, e.symm⟩)) : (Proc.devRef .tc b : DevRef τ sig) ≠ Proc.devRef .tc main_v42) _ _

/-- At region 2's exit each of its arrays holds what the pipeline leaves: an input's array is as entered, the output's is what
    the write-backs left. -/
theorem exit_arr2 (c : Dev nD) : ∀ w : Fin cfg2.W, (dat2 (at5 m) c).arrAt w cfg2.N = at6 m c (Pipeline.arrRef spec2 w) := fun
  | 0 => ((dat2 (at5 m) c).arrAt_in 0 rfl _).trans ((dat2_A (at5 m) c 0).trans (by
      show val5 m c (Pipeline.arrRef spec2 0) = val6 m c (Pipeline.arrRef spec2 0)
      unfold val6; exact (Function.update_of_ne (StableHlo.devRef_ne_of_ne (by decide)) _ _).symm))
  | 1 => ((dat2 (at5 m) c).arrAt_in 1 rfl _).trans ((dat2_A (at5 m) c 1).trans (by
      show val5 m c (Pipeline.arrRef spec2 1) = val6 m c (Pipeline.arrRef spec2 1)
      unfold val6; exact (Function.update_of_ne (StableHlo.devRef_ne_of_ne (by decide)) _ _).symm))
  | 2 => ((dat2 (at5 m) c).arrAt_in 2 rfl _).trans ((dat2_A (at5 m) c 2).trans (by
      show val5 m c (Pipeline.arrRef spec2 2) = val6 m c (Pipeline.arrRef spec2 2)
      unfold val6; exact (Function.update_of_ne (StableHlo.devRef_ne_of_ne (by decide)) _ _).symm))
  | 3 => ((dat2 (at5 m) c).arrAt_in 3 rfl _).trans ((dat2_A (at5 m) c 3).trans (by
      show val5 m c (Pipeline.arrRef spec2 3) = val6 m c (Pipeline.arrRef spec2 3)
      unfold val6; exact (Function.update_of_ne (StableHlo.devRef_ne_of_ne (by decide)) _ _).symm))
  | 4 => by
      show left2 m c = val6 m c main_v45
      unfold val6; exact (Function.update_self (Proc.devRef .tc main_v45 : DevRef τ sig) (left2 m c) (val5 m c)).symm
  | ⟨_ + 5, h⟩ => absurd h (Nat.not_lt.2 (Nat.le_add_left _ _))
/-- … and every other buffer what it held at entry. -/
theorem exit_rest2 (c : Dev nD) : ∀ b, b ∉ Finset.univ.image (Pipeline.arrRef spec2) → at6 m c b = at5 m c b := fun b hb => by
  show val6 m c b = val5 m c b
  unfold val6
  exact Function.update_of_ne (StableHlo.devRef_ne_of_ne (fun e => hb (Finset.mem_image.mpr ⟨4, Finset.mem_univ _, e.symm⟩)) : (Proc.devRef .tc b : DevRef τ sig) ≠ Proc.devRef .tc main_v45) _ _

/-- At region 3's exit each of its arrays holds what the pipeline leaves: an input's array is as entered, the output's is what
    the write-backs left. -/
theorem exit_arr3 (c : Dev nD) : ∀ w : Fin cfg3.W, (dat3 (at7 m) c).arrAt w cfg3.N = at8 m c (Pipeline.arrRef spec3 w) := fun
  | 0 => ((dat3 (at7 m) c).arrAt_in 0 rfl _).trans ((dat3_A (at7 m) c 0).trans (by
      show val7 m c (Pipeline.arrRef spec3 0) = val8 m c (Pipeline.arrRef spec3 0)
      unfold val8; exact (Function.update_of_ne (StableHlo.devRef_ne_of_ne (by decide)) _ _).symm))
  | 1 => ((dat3 (at7 m) c).arrAt_in 1 rfl _).trans ((dat3_A (at7 m) c 1).trans (by
      show val7 m c (Pipeline.arrRef spec3 1) = val8 m c (Pipeline.arrRef spec3 1)
      unfold val8; exact (Function.update_of_ne (StableHlo.devRef_ne_of_ne (by decide)) _ _).symm))
  | 2 => ((dat3 (at7 m) c).arrAt_in 2 rfl _).trans ((dat3_A (at7 m) c 2).trans (by
      show val7 m c (Pipeline.arrRef spec3 2) = val8 m c (Pipeline.arrRef spec3 2)
      unfold val8; exact (Function.update_of_ne (StableHlo.devRef_ne_of_ne (by decide)) _ _).symm))
  | 3 => ((dat3 (at7 m) c).arrAt_in 3 rfl _).trans ((dat3_A (at7 m) c 3).trans (by
      show val7 m c (Pipeline.arrRef spec3 3) = val8 m c (Pipeline.arrRef spec3 3)
      unfold val8; exact (Function.update_of_ne (StableHlo.devRef_ne_of_ne (by decide)) _ _).symm))
  | 4 => by
      show left3 m c = val8 m c main_v48
      unfold val8; exact (Function.update_self (Proc.devRef .tc main_v48 : DevRef τ sig) (left3 m c) (val7 m c)).symm
  | ⟨_ + 5, h⟩ => absurd h (Nat.not_lt.2 (Nat.le_add_left _ _))
/-- … and every other buffer what it held at entry. -/
theorem exit_rest3 (c : Dev nD) : ∀ b, b ∉ Finset.univ.image (Pipeline.arrRef spec3) → at8 m c b = at7 m c b := fun b hb => by
  show val8 m c b = val7 m c b
  unfold val8
  exact Function.update_of_ne (StableHlo.devRef_ne_of_ne (fun e => hb (Finset.mem_image.mpr ⟨4, Finset.mem_univ _, e.symm⟩)) : (Proc.devRef .tc b : DevRef τ sig) ≠ Proc.devRef .tc main_v48) _ _

/-! ## The proof data family and what rides along -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (at1 m) c
  | ⟨1, _⟩ => fun c => dat1 (at3 m) c
  | ⟨2, _⟩ => fun c => dat2 (at5 m) c
  | ⟨3, _⟩ => fun c => dat3 (at7 m) c
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every segment: the core's generator register at some state and its dues, at nothing. -/
abbrev rides (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the contents before it, left at the contents after
    it. Its arrays are split out of the unscoped buffers and put back at the exit contents; the generator register goes into
    the pipeline's invariant and comes out; nothing is owed; the kernel has no semaphore of its own. -/
def reg0 : Pipeline.RegionSeg (pcfgs (F := F)) adm (pdats m) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (at1 m) c).loose
  hwaits := Pipeline.hwaits_of_owed_zero _ _ _ _ noLevels levelZero 0 fun _ _ => rfl
  pre c := iprop(StableHlo.held (c : Thread nD τ) (Pipeline.ucRefs τ sig) (V1 m c) ∗ rides c)
  post c := iprop(StableHlo.held (c : Thread nD τ) (Pipeline.ucRefs τ sig) (val2 m c) ∗ rides c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at1 m c) (at2 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays are split out of the unscoped buffers and put back at the exit contents; the generator register goes into
    the pipeline's invariant and comes out; nothing is owed; the kernel has no semaphore of its own. -/
def reg1 : Pipeline.RegionSeg (pcfgs (F := F)) adm (pdats m) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (at3 m) c).loose
  hwaits := Pipeline.hwaits_of_owed_zero _ _ _ _ noLevels levelZero 1 fun _ _ => rfl
  pre c := iprop(StableHlo.held (c : Thread nD τ) (Pipeline.ucRefs τ sig) (val3 m c) ∗ rides c)
  post c := iprop(StableHlo.held (c : Thread nD τ) (Pipeline.ucRefs τ sig) (val4 m c) ∗ rides c)
  X c := iprop(∃ r, prngReg c r)
  Y c := iprop(∃ r, prngReg c r)
  Z c := Pipeline.unscopedRest (Ix := Unit) (Name := ℕ) (U := UR sig nD τ) (Lvl := ℕ) spec1 c (at3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at3 m c) (at4 m c) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents after
    it. Its arrays are split out of the unscoped buffers and put back at the exit contents; the generator register goes into
    the pipeline's invariant and comes out; nothing is owed; the kernel has no semaphore of its own. -/
def reg2 : Pipeline.RegionSeg (pcfgs (F := F)) adm (pdats m) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (at5 m) c).loose
  hwaits := Pipeline.hwaits_of_owed_zero _ _ _ _ noLevels levelZero 2 fun _ _ => rfl
  pre c := iprop(StableHlo.held (c : Thread nD τ) (Pipeline.ucRefs τ sig) (val5 m c) ∗ rides c)
  post c := iprop(StableHlo.held (c : Thread nD τ) (Pipeline.ucRefs τ sig) (val6 m c) ∗ rides c)
  X c := iprop(∃ r, prngReg c r)
  Y c := iprop(∃ r, prngReg c r)
  Z c := Pipeline.unscopedRest (Ix := Unit) (Name := ℕ) (U := UR sig nD τ) (Lvl := ℕ) spec2 c (at5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at5 m c) (at6 m c) ((pdats m 2 c).arrAt · cfg2.N) (exit_arr2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents after
    it. Its arrays are split out of the unscoped buffers and put back at the exit contents; the generator register goes into
    the pipeline's invariant and comes out; nothing is owed; the kernel has no semaphore of its own. -/
def reg3 : Pipeline.RegionSeg (pcfgs (F := F)) adm (pdats m) () defs₀ noVariants noLevels levelZero 3 where
  win := launch3.win.to₀
  block_pos := launch3.block_pos
  stage_whole := launch3.stage_whole
  K := PEmpty
  osem k := k.elim
  ho := Pipeline.OwnSemFacts.none _
  hbody c := (body_obligation3 (at7 m) c).loose
  hwaits := Pipeline.hwaits_of_owed_zero _ _ _ _ noLevels levelZero 3 fun _ _ => rfl
  pre c := iprop(StableHlo.held (c : Thread nD τ) (Pipeline.ucRefs τ sig) (val7 m c) ∗ rides c)
  post c := iprop(StableHlo.held (c : Thread nD τ) (Pipeline.ucRefs τ sig) (val8 m c) ∗ rides c)
  X c := iprop(∃ r, prngReg c r)
  Y c := iprop(∃ r, prngReg c r)
  Z c := Pipeline.unscopedRest (Ix := Unit) (Name := ℕ) (U := UR sig nD τ) (Lvl := ℕ) spec3 c (at7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (at7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (at7 m c) (at8 m c) ((pdats m 3 c).arrAt · cfg3.N) (exit_arr3 m c) (exit_rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The thread states meet at every boundary -/

theorem meet2 (c : Dev nD) : iprop(StableHlo.held (c : Thread nD τ) (Pipeline.ucRefs τ sig) (val2 m c) ∗ rides c)
    ⊢ (iprop(StableHlo.held (c : Thread nD τ) (Pipeline.ucRefs τ sig) (V2 m (leaves m) c) ∗ rides c) : sProp 𝕄) := Entails.of_eq (by rw [V2_eq])
theorem meet3 (c : Dev nD) : iprop(StableHlo.held (c : Thread nD τ) (Pipeline.ucRefs τ sig) (V3 m (leaves m) c) ∗ rides c)
    ⊢ (iprop(StableHlo.held (c : Thread nD τ) (Pipeline.ucRefs τ sig) (val3 m c) ∗ rides c) : sProp 𝕄) := Entails.of_eq (by rw [V3_eq])
theorem meet4 (c : Dev nD) : iprop(StableHlo.held (c : Thread nD τ) (Pipeline.ucRefs τ sig) (val4 m c) ∗ rides c)
    ⊢ (iprop(StableHlo.held (c : Thread nD τ) (Pipeline.ucRefs τ sig) (V4 m (leaves m) c) ∗ rides c) : sProp 𝕄) := Entails.of_eq (by rw [V4_eq])
theorem meet5 (c : Dev nD) : iprop(StableHlo.held (c : Thread nD τ) (Pipeline.ucRefs τ sig) (V5 m (leaves m) c) ∗ rides c)
    ⊢ (iprop(StableHlo.held (c : Thread nD τ) (Pipeline.ucRefs τ sig) (val5 m c) ∗ rides c) : sProp 𝕄) := Entails.of_eq (by rw [V5_eq])
theorem meet6 (c : Dev nD) : iprop(StableHlo.held (c : Thread nD τ) (Pipeline.ucRefs τ sig) (val6 m c) ∗ rides c)
    ⊢ (iprop(StableHlo.held (c : Thread nD τ) (Pipeline.ucRefs τ sig) (V6 m (leaves m) c) ∗ rides c) : sProp 𝕄) := Entails.of_eq (by rw [V6_eq])
theorem meet7 (c : Dev nD) : iprop(StableHlo.held (c : Thread nD τ) (Pipeline.ucRefs τ sig) (V7 m (leaves m) c) ∗ rides c)
    ⊢ (iprop(StableHlo.held (c : Thread nD τ) (Pipeline.ucRefs τ sig) (val7 m c) ∗ rides c) : sProp 𝕄) := Entails.of_eq (by rw [V7_eq])
theorem meet8 (c : Dev nD) : iprop(StableHlo.held (c : Thread nD τ) (Pipeline.ucRefs τ sig) (val8 m c) ∗ rides c)
    ⊢ (iprop((StableHlo.held (c : Thread nD τ) (Pipeline.ucRefs τ sig) (val8 m c) ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The run -/

set_option backward.isDefEq.respectTransparency.types false in
/-- Every weakly fair execution of @main from memory `m` with zero counters terminates, nothing faulting, and every final memory
    holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = val8 m c b) := by
  refine Pipeline.θ_run_regions_kit_dev (pcfgs (F := F)) adm (pdats m) () cellOf_inj emb₁ defs₀ noVariants noLevels levelZero m ρ main
    (segs m (leaves m) noVariants noLevels levelZero (fun _ c => rides c) () (pdats m) (reg0 m) (reg1 m) (reg2 m) (reg3 m))
    (fun c Q => by
      rewrite [main_chain c, Seg.run_eq_chain,
        show (segs m (leaves m) noVariants noLevels levelZero (fun _ c => rides c) () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c))
    (Tₙ := fun c => iprop(StableHlo.held (c : Thread nD τ) (Pipeline.ucRefs τ sig) (val8 m c) ∗ ∃ r, prngReg c r))
    (hch := fun c => ⟨.rfl, .rfl, meet2 m c, meet3 m c, meet4 m c, meet5 m c, meet6 m c, meet7 m c, meet8 m c⟩)
    (hinit := by
      refine Pipeline.initEach noLevels levelZero fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = val8 m c b)
    (hfin := fun c s' => by
      iintro ⟨⟨Hh, -⟩, HSI⟩
      unfold StableHlo.held
      imodintro
      iapply (pointsTo_read_all (Pipeline.ucRefs τ sig) (fun b => (((c : Thread nD τ)).1, b)) (val8 m c) s')
      isplitl [Hh] <;> iassumption)
    (hQ := fun s h => h)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim's post at any `F`: each argument array ends as launched (no host stretch writes it, no region may change it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans ((congrFun (V8_eq m c).symm _).trans (V8_main_arg0 m (leaves m) c)),
    (h c _ (mem_uc main_arg1 (by decide))).trans ((congrFun (V8_eq m c).symm _).trans (V8_main_arg1 m (leaves m) c)),
    (h c _ (mem_uc main_arg2 (by decide))).trans ((congrFun (V8_eq m c).symm _).trans (V8_main_arg2 m (leaves m) c)),
    (h c _ (mem_uc main_arg3 (by decide))).trans ((congrFun (V8_eq m c).symm _).trans (V8_main_arg3 m (leaves m) c)),
    (h c _ (mem_uc main_arg4 (by decide))).trans ((congrFun (V8_eq m c).symm _).trans (V8_main_arg4 m (leaves m) c)),
    (h c _ (mem_uc main_arg5 (by decide))).trans ((congrFun (V8_eq m c).symm _).trans (V8_main_arg5 m (leaves m) c)),
    (h c _ (mem_uc main_arg6 (by decide))).trans ((congrFun (V8_eq m c).symm _).trans (V8_main_arg6 m (leaves m) c)),
    (h c _ (mem_uc main_arg7 (by decide))).trans ((congrFun (V8_eq m c).symm _).trans (V8_main_arg7 m (leaves m) c)),
    (h c _ (mem_uc main_arg8 (by decide))).trans ((congrFun (V8_eq m c).symm _).trans (V8_main_arg8 m (leaves m) c)),
    (h c _ (mem_uc main_arg9 (by decide))).trans ((congrFun (V8_eq m c).symm _).trans (V8_main_arg9 m (leaves m) c)),
    (h c _ (mem_uc main_arg10 (by decide))).trans ((congrFun (V8_eq m c).symm _).trans (V8_main_arg10 m (leaves m) c)),
    (h c _ (mem_uc main_arg11 (by decide))).trans ((congrFun (V8_eq m c).symm _).trans (V8_main_arg11 m (leaves m) c)),
    (h c _ (mem_uc main_arg12 (by decide))).trans ((congrFun (V8_eq m c).symm _).trans (V8_main_arg12 m (leaves m) c)),
    (h c _ (mem_uc main_arg13 (by decide))).trans ((congrFun (V8_eq m c).symm _).trans (V8_main_arg13 m (leaves m) c)),
    (h c _ (mem_uc main_arg14 (by decide))).trans ((congrFun (V8_eq m c).symm _).trans (V8_main_arg14 m (leaves m) c)),
    (h c _ (mem_uc main_arg15 (by decide))).trans ((congrFun (V8_eq m c).symm _).trans (V8_main_arg15 m (leaves m) c)),
    (h c _ (mem_uc main_arg16 (by decide))).trans ((congrFun (V8_eq m c).symm _).trans (V8_main_arg16 m (leaves m) c)),
    (h c _ (mem_uc main_arg17 (by decide))).trans ((congrFun (V8_eq m c).symm _).trans (V8_main_arg17 m (leaves m) c))⟩) (run_all m ρ)

end Cert.KernelIdeal.Run

end
-- ==== Proof.PayIdeal.lean ====
/-
  The four kernels' stored values read at ONE element, at the ideal (extended-real) values.

  Each kernel stores one block computed from the blocks it loaded. At the ideal values the rounding to bf16 on the way
  into a matrix product is the identity, a product accumulated into the zero splat is the plain sum over the contracted
  coordinate, a shape cast to the same shape is the identity, a [1, b] row broadcast over the rows reads its one row and an
  [a, 1] column broadcast over the columns reads its one column. So at row r and column j:
  • an update kernel stores  (Σ_k x[r,k] · w[k,j] + b[0,j]) + a[r,j]            (`pay_upd1`, `pay_upd2`, `pay_upd3`);
  • the message kernel stores  mask[r,0] · (Σ_k comp[r,k] · wi[k,j] + bi[0,j])
                               + (1 − mask[r,0]) · (Σ_k comp[r,k] · wo[k,j] + bo[0,j])   (`pay_msg`),
  the constant 1 being what the f32 word 0x3F800000 denotes (`one_eq`).
-/
import proofs.«131206_j386547057414_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The f32 word 0x3F800000 denotes the extended real 1. -/
theorem one_eq : Ideal.ofBits .f32 0x3F800000#32 = (1 : EReal) := by
  simp [Ideal.ofBits, Ideal.ieee, -EReal.coe_mul]; norm_num

/-- A plain matrix product [m, k] × [k, n] accumulated into the zero splat, read at (r, j): the sum over the one
    contracted coordinate of the row's elements times the column's. The four hypotheses say which output or
    contraction coordinate each operand axis reads; they are closed on a literal record of dimension numbers. -/
theorem matmul_zero_ix2 {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q ⟨0, Nat.zero_lt_two⟩).val = (i ⟨0, Nat.zero_lt_two⟩).val)
    (hl1 : ∀ i q, (D.lhsIdx i q ⟨1, Nat.one_lt_two⟩).val = (q ⟨0, by omega⟩).val)
    (hr0 : ∀ i q, (D.rhsIdx i q ⟨0, Nat.zero_lt_two⟩).val = (q ⟨0, by omega⟩).val)
    (hr1 : ∀ i q, (D.rhsIdx i q ⟨1, Nat.one_lt_two⟩).val = (i ⟨1, Nat.one_lt_two⟩).val)
    (prec : Option ContractPrecision) (lhs : FVec Ideal ⟨2, ![m, k]⟩ φ₁) (rhs : FVec Ideal ⟨2, ![k, n]⟩ φ₂)
    (r : Fin m) (j : Fin n) :
    FloatOps.matmul D prec lhs rhs (constant (F := Ideal) ⟨2, ![m, n]⟩ .f32 0x00000000#32) (ix2 r j)
      = ∑ c : Fin k, lhs (ix2 r c) * rhs (ix2 c j) := by
  rw [Ideal.matmul_constant_zero_apply, ← Equiv.sum_comp (contrEquiv1 D k hr hs).symm]
  refine Finset.sum_congr rfl fun c _ => ?_
  have hc := contrEquiv1_symm_val D k hr hs c
  have el : D.lhsIdx (ix2 r j) ((contrEquiv1 D k hr hs).symm c) = ix2 r c := funext fun a => Fin.ext (by
    match a with
    | ⟨0, _⟩ => exact hl0 _ _
    | ⟨1, _⟩ => exact (hl1 _ _).trans hc)
  have er : D.rhsIdx (ix2 r j) ((contrEquiv1 D k hr hs).symm c) = ix2 c j := funext fun a => Fin.ext (by
    match a with
    | ⟨0, _⟩ => exact (hr0 _ _).trans hc
    | ⟨1, _⟩ => exact hr1 _ _)
  rw [el, er]

/-- The 5000×128 by 128×128 product of the kernel, into the zero splat, read at (r, j). -/
theorem matmul_5000 {φ₁ φ₂ : FTy} (lhs : FVec Ideal S5000x128 φ₁) (rhs : FVec Ideal S128x128 φ₂) (r : Fin 5000) (j : Fin 128) :
    matmul dot_S5000x128_S128x128_S5000x128_1_0_0_1_n_n none lhs rhs (constant (F := Ideal) S5000x128 .f32 0x00000000#32) (ix2 r j)
      = ∑ c : Fin 128, lhs (ix2 r c) * rhs (ix2 c j) :=
  matmul_zero_ix2 dot_S5000x128_S128x128_S5000x128_1_0_0_1_n_n rfl rfl
    (fun i q => by
      unfold DotDims.lhsIdx
      rw [dif_neg (show ¬(⟨0, Nat.zero_lt_two⟩ : Fin S5000x128.rank) ∈ dot_S5000x128_S128x128_S5000x128_1_0_0_1_n_n.lhsBatch by decide),
        dif_pos (show (⟨0, Nat.zero_lt_two⟩ : Fin S5000x128.rank) ∈ dot_S5000x128_S128x128_S5000x128_1_0_0_1_n_n.lhsNonContracting by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (show ¬(⟨1, Nat.one_lt_two⟩ : Fin S128x128.rank) ∈ dot_S5000x128_S128x128_S5000x128_1_0_0_1_n_n.rhsBatch by decide),
        dif_pos (show (⟨1, Nat.one_lt_two⟩ : Fin S128x128.rank) ∈ dot_S5000x128_S128x128_S5000x128_1_0_0_1_n_n.rhsNonContracting by decide)]
      rfl)
    none lhs rhs r j

/-- The 500×128 by 128×128 product of the kernel, into the zero splat, read at (r, j). -/
theorem matmul_500 {φ₁ φ₂ : FTy} (lhs : FVec Ideal S500x128 φ₁) (rhs : FVec Ideal S128x128 φ₂) (r : Fin 500) (j : Fin 128) :
    matmul dot_S500x128_S128x128_S500x128_1_0_0_1_n_n none lhs rhs (constant (F := Ideal) S500x128 .f32 0x00000000#32) (ix2 r j)
      = ∑ c : Fin 128, lhs (ix2 r c) * rhs (ix2 c j) :=
  matmul_zero_ix2 dot_S500x128_S128x128_S500x128_1_0_0_1_n_n rfl rfl
    (fun i q => by
      unfold DotDims.lhsIdx
      rw [dif_neg (show ¬(⟨0, Nat.zero_lt_two⟩ : Fin S500x128.rank) ∈ dot_S500x128_S128x128_S500x128_1_0_0_1_n_n.lhsBatch by decide),
        dif_pos (show (⟨0, Nat.zero_lt_two⟩ : Fin S500x128.rank) ∈ dot_S500x128_S128x128_S500x128_1_0_0_1_n_n.lhsNonContracting by decide)]
      rfl)
    (fun i q => dot_S500x128_S128x128_S500x128_1_0_0_1_n_n.lhsIdx_val_of_single rfl i q)
    (fun i q => dot_S500x128_S128x128_S500x128_1_0_0_1_n_n.rhsIdx_val_of_single rfl i q)
    (fun i q => by
      unfold DotDims.rhsIdx
      rw [dif_neg (show ¬(⟨1, Nat.one_lt_two⟩ : Fin S128x128.rank) ∈ dot_S500x128_S128x128_S500x128_1_0_0_1_n_n.rhsBatch by decide),
        dif_pos (show (⟨1, Nat.one_lt_two⟩ : Fin S128x128.rank) ∈ dot_S500x128_S128x128_S500x128_1_0_0_1_n_n.rhsNonContracting by decide)]
      rfl)
    none lhs rhs r j

/-- The 366×128 by 128×128 product of the kernel, into the zero splat, read at (r, j). -/
theorem matmul_366 {φ₁ φ₂ : FTy} (lhs : FVec Ideal S366x128 φ₁) (rhs : FVec Ideal S128x128 φ₂) (r : Fin 366) (j : Fin 128) :
    matmul dot_S366x128_S128x128_S366x128_1_0_0_1_n_n none lhs rhs (constant (F := Ideal) S366x128 .f32 0x00000000#32) (ix2 r j)
      = ∑ c : Fin 128, lhs (ix2 r c) * rhs (ix2 c j) :=
  matmul_zero_ix2 dot_S366x128_S128x128_S366x128_1_0_0_1_n_n rfl rfl
    (fun i q => by
      unfold DotDims.lhsIdx
      rw [dif_neg (show ¬(⟨0, Nat.zero_lt_two⟩ : Fin S366x128.rank) ∈ dot_S366x128_S128x128_S366x128_1_0_0_1_n_n.lhsBatch by decide),
        dif_pos (show (⟨0, Nat.zero_lt_two⟩ : Fin S366x128.rank) ∈ dot_S366x128_S128x128_S366x128_1_0_0_1_n_n.lhsNonContracting by decide)]
      rfl)
    (fun i q => dot_S366x128_S128x128_S366x128_1_0_0_1_n_n.lhsIdx_val_of_single rfl i q)
    (fun i q => dot_S366x128_S128x128_S366x128_1_0_0_1_n_n.rhsIdx_val_of_single rfl i q)
    (fun i q => by
      unfold DotDims.rhsIdx
      rw [dif_neg (show ¬(⟨1, Nat.one_lt_two⟩ : Fin S128x128.rank) ∈ dot_S366x128_S128x128_S366x128_1_0_0_1_n_n.rhsBatch by decide),
        dif_pos (show (⟨1, Nat.one_lt_two⟩ : Fin S128x128.rank) ∈ dot_S366x128_S128x128_S366x128_1_0_0_1_n_n.rhsNonContracting by decide)]
      rfl)
    none lhs rhs r j

/-- The 4000×384 by 384×128 product of the kernel, into the zero splat, read at (r, j). -/
theorem matmul_4000 {φ₁ φ₂ : FTy} (lhs : FVec Ideal S4000x384 φ₁) (rhs : FVec Ideal S384x128 φ₂) (r : Fin 4000) (j : Fin 128) :
    matmul dot_S4000x384_S384x128_S4000x128_1_0_0_1_n_n none lhs rhs (constant (F := Ideal) S4000x128 .f32 0x00000000#32) (ix2 r j)
      = ∑ c : Fin 384, lhs (ix2 r c) * rhs (ix2 c j) :=
  matmul_zero_ix2 dot_S4000x384_S384x128_S4000x128_1_0_0_1_n_n rfl rfl
    (fun i q => by
      unfold DotDims.lhsIdx
      rw [dif_neg (show ¬(⟨0, Nat.zero_lt_two⟩ : Fin S4000x384.rank) ∈ dot_S4000x384_S384x128_S4000x128_1_0_0_1_n_n.lhsBatch by decide),
        dif_pos (show (⟨0, Nat.zero_lt_two⟩ : Fin S4000x384.rank) ∈ dot_S4000x384_S384x128_S4000x128_1_0_0_1_n_n.lhsNonContracting by decide)]
      rfl)
    (fun i q => dot_S4000x384_S384x128_S4000x128_1_0_0_1_n_n.lhsIdx_val_of_single rfl i q)
    (fun i q => dot_S4000x384_S384x128_S4000x128_1_0_0_1_n_n.rhsIdx_val_of_single rfl i q)
    (fun i q => by
      unfold DotDims.rhsIdx
      rw [dif_neg (show ¬(⟨1, Nat.one_lt_two⟩ : Fin S384x128.rank) ∈ dot_S4000x384_S384x128_S4000x128_1_0_0_1_n_n.rhsBatch by decide),
        dif_pos (show (⟨1, Nat.one_lt_two⟩ : Fin S384x128.rank) ∈ dot_S4000x384_S384x128_S4000x128_1_0_0_1_n_n.rhsNonContracting by decide)]
      rfl)
    none lhs rhs r j

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The update kernel's stored block (5000 rows) at (r, j): the row of `x` times the column of `w`, plus the bias at
    j, plus the residual at (r, j). The rounding to bf16 before the product is the identity on extended reals. -/
theorem pay_upd1 (x a : Vec Ideal S5000x128 .f32) (w : Vec Ideal S128x128 .f32) (b : Vec Ideal S1x128 .f32) (r : Fin 5000) (j : Fin 128) :
    k1_pay1 (F := Ideal) x w b a (ix2 r j)
      = ((∑ k : Fin 128, x (ix2 r k) * w (ix2 k j)) + b (ix2 0 j)) + a (ix2 r j) := by
  unfold k1_pay1
  simp only [addf_apply]
  refine congrArg₂ (· + ·) (congrArg₂ (· + ·) ?_ ?_) ?_
  · exact (matmul_5000 _ _ r j).trans (Finset.sum_congr rfl fun c _ => rfl)
  · rw [shapeCast_self]
    exact broadcastTo_1b_ab_apply b _ r j
  · rw [shapeCast_self]

/-- The update kernel's stored block (500 rows) at (r, j): the row of `x` times the column of `w`, plus the bias at
    j, plus the residual at (r, j). The rounding to bf16 before the product is the identity on extended reals. -/
theorem pay_upd2 (x a : Vec Ideal S500x128 .f32) (w : Vec Ideal S128x128 .f32) (b : Vec Ideal S1x128 .f32) (r : Fin 500) (j : Fin 128) :
    k2_pay1 (F := Ideal) x w b a (ix2 r j)
      = ((∑ k : Fin 128, x (ix2 r k) * w (ix2 k j)) + b (ix2 0 j)) + a (ix2 r j) := by
  unfold k2_pay1
  simp only [addf_apply]
  refine congrArg₂ (· + ·) (congrArg₂ (· + ·) ?_ ?_) ?_
  · exact (matmul_500 _ _ r j).trans (Finset.sum_congr rfl fun c _ => rfl)
  · rw [shapeCast_self]
    exact broadcastTo_1b_ab_apply b _ r j
  · rw [shapeCast_self]

/-- The update kernel's stored block (366 rows) at (r, j): the row of `x` times the column of `w`, plus the bias at
    j, plus the residual at (r, j). The rounding to bf16 before the product is the identity on extended reals. -/
theorem pay_upd3 (x a : Vec Ideal S366x128 .f32) (w : Vec Ideal S128x128 .f32) (b : Vec Ideal S1x128 .f32) (r : Fin 366) (j : Fin 128) :
    k3_pay1 (F := Ideal) x w b a (ix2 r j)
      = ((∑ k : Fin 128, x (ix2 r k) * w (ix2 k j)) + b (ix2 0 j)) + a (ix2 r j) := by
  unfold k3_pay1
  simp only [addf_apply]
  refine congrArg₂ (· + ·) (congrArg₂ (· + ·) ?_ ?_) ?_
  · exact (matmul_366 _ _ r j).trans (Finset.sum_congr rfl fun c _ => rfl)
  · rw [shapeCast_self]
    exact broadcastTo_1b_ab_apply b _ r j
  · rw [shapeCast_self]

/-- The message kernel's stored block at (r, j): the row's mask times the inner projection (row of `comp` times column of
    `wi`, plus `bi` at j) plus one minus the mask times the outer projection. The roundings to bf16 before the products
    are the identity on extended reals; the constant 1 is the f32 word 0x3F800000 (`one_eq`). -/
theorem pay_msg (comp : Vec Ideal S4000x384 .f32) (wi wo : Vec Ideal S384x128 .f32) (bi bo : Vec Ideal S1x128 .f32)
    (mask : Vec Ideal S4000x1 .f32) (r : Fin 4000) (j : Fin 128) :
    k0_pay1 (F := Ideal) comp wi wo bi bo mask (ix2 r j)
      = mask (ix2 r 0) * ((∑ k : Fin 384, comp (ix2 r k) * wi (ix2 k j)) + bi (ix2 0 j))
        + ((1 : EReal) - mask (ix2 r 0)) * ((∑ k : Fin 384, comp (ix2 r k) * wo (ix2 k j)) + bo (ix2 0 j)) := by
  unfold k0_pay1
  simp only [addf_apply, mulf_apply]
  refine congrArg₂ (· + ·) (congrArg₂ (· * ·) ?_ (congrArg₂ (· + ·) ?_ ?_)) (congrArg₂ (· * ·) ?_ (congrArg₂ (· + ·) ?_ ?_))
  · rw [shapeCast_self]
    exact broadcastTo_a1_ab_apply mask _ r j
  · rw [shapeCast_self]
    exact (matmul_4000 _ _ r j).trans (Finset.sum_congr rfl fun c _ => rfl)
  · rw [shapeCast_self]
    exact broadcastTo_1b_ab_apply bi _ r j
  · rw [shapeCast_self]
    refine (broadcastTo_a1_ab_apply _ _ r j).trans ?_
    show Ideal.ofBits .f32 0x3F800000#32 - mask (ix2 r 0) = 1 - mask (ix2 r 0)
    rw [one_eq]
  · rw [shapeCast_self]
    exact (matmul_4000 _ _ r j).trans (Finset.sum_congr rfl fun c _ => rfl)
  · rw [shapeCast_self]
    exact broadcastTo_1b_ab_apply bo _ r j

end Cert.KernelIdeal.Pay

end
-- ==== Proof.KernelIdealVal0.lean ====
/-
  What region 0's output array (the per-edge messages) holds after its write-backs, as ONE function of the arrays the region
  finds at entry: entry (e, j) is  mask[e] · (∑ₖ comp[e, k] · wi[k, j] + bi[0, j]) + (1 − mask[e]) · (∑ₖ comp[e, k] · wo[k, j] + bo[0, j])
  on the extended reals. The output's block at grid point t is rows 4000·t … 4000·t + 3999; comp and mask are read through the
  same rows, the two weights and the two biases whole at every point; the 125 points' blocks cover the 500000 rows.
-/
import proofs.«131206_j386547057414_1_alg».proof.Proof.KernelIdealBody0
import proofs.«131206_j386547057414_1_alg».proof.Proof.PayIdeal
import Idealize.ShloMosaic.Lib.Pipeline.Value
import Idealize.ShloMosaic.Lib.ValueIdx

set_option maxRecDepth 16384

noncomputable section

namespace Cert.KernelIdeal.Val0

open Cert.KernelIdeal Cert.KernelIdeal.Gen Cert.KernelIdeal.GenP Cert.KernelIdeal.Body0 Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- One entry of the blended message. -/
def msgAt (comp : S500000x384.Idx → EReal) (mask : S500000x1.Idx → EReal) (wi wo : S384x128.Idx → EReal) (bi bo : S1x128.Idx → EReal)
    (e : Fin 500000) (j : Fin 128) : EReal :=
  mask (ix2 e 0) * ((∑ k : Fin 384, comp (ix2 e k) * wi (ix2 k j)) + bi (ix2 0 j))
    + ((1 : EReal) - mask (ix2 e 0)) * ((∑ k : Fin 384, comp (ix2 e k) * wo (ix2 k j)) + bo (ix2 0 j))
/-- The whole message array. -/
def msg (comp : S500000x384.Idx → EReal) (mask : S500000x1.Idx → EReal) (wi wo : S384x128.Idx → EReal) (bi bo : S1x128.Idx → EReal) :
    S500000x128.Idx → EReal :=
  fun i => msgAt comp mask wi wo bi bo (i 0) (i 1)

/-- The printed index maps over the grid: comp, mask and the output move down the rows with the point; the rest stay. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 125 := by
  have h := t.isLt; have hN : cfg0.N = 125 := N_0; omega

/-- comp's block at point t is rows 4000·t … of comp. -/
theorem block_comp (c : Dev nD) (t : Fin cfg0.N) (p : Fin 4000) (q : Fin 384) (i : S500000x384.Idx)
    (h0 : (i 0).val = 4000 * t.val + p.val) (h1 : (i 1).val = q.val) :
    (blockAt0 V c 0 t : Vec Ideal S4000x384 .f32) (ix2 p q) = (V c main_v21 : S500000x384.Idx → EReal) i := by
  have e := index_maps t
  have ht := point_lt t
  unfold blockAt0
  rw [View.read_apply]
  refine congrArg (V c main_v21 : S500000x384.Idx → EReal) ?_
  funext a; apply Fin.ext
  match a with
  | ⟨0, _⟩ => show win0_0.index t (0 : Fin 2) * 4000 + 1 * p.val = (i 0).val; omega
  | ⟨1, _⟩ => show win0_0.index t (1 : Fin 2) * 384 + 1 * q.val = (i 1).val; omega

/-- mask's block at point t is rows 4000·t … of mask. -/
theorem block_mask (c : Dev nD) (t : Fin cfg0.N) (p : Fin 4000) (q : Fin 1) (i : S500000x1.Idx)
    (h0 : (i 0).val = 4000 * t.val + p.val) (h1 : (i 1).val = q.val) :
    (blockAt0 V c 1 t : Vec Ideal S4000x1 .f32) (ix2 p q) = (V c main_v25 : S500000x1.Idx → EReal) i := by
  have e := index_maps t
  have ht := point_lt t
  unfold blockAt0
  rw [View.read_apply]
  refine congrArg (V c main_v25 : S500000x1.Idx → EReal) ?_
  funext a; apply Fin.ext
  match a with
  | ⟨0, _⟩ => show win0_1.index t (0 : Fin 2) * 4000 + 1 * p.val = (i 0).val; omega
  | ⟨1, _⟩ => show win0_1.index t (1 : Fin 2) * 1 + 1 * q.val = (i 1).val; omega

/-- wi's block at every point is wi. -/
theorem block_wi (c : Dev nD) (t : Fin cfg0.N) (p : Fin 384) (q : Fin 128) :
    (blockAt0 V c 2 t : Vec Ideal S384x128 .f32) (ix2 p q) = (V c main_arg8 : S384x128.Idx → EReal) (ix2 p q) := by
  have e := index_maps t
  have ht := point_lt t
  unfold blockAt0
  rw [View.read_apply]
  refine congrArg (V c main_arg8 : S384x128.Idx → EReal) ?_
  funext a; apply Fin.ext
  match a with
  | ⟨0, _⟩ => show win0_2.index t (0 : Fin 2) * 384 + 1 * p.val = p.val; omega
  | ⟨1, _⟩ => show win0_2.index t (1 : Fin 2) * 128 + 1 * q.val = q.val; omega

/-- wo's block at every point is wo. -/
theorem block_wo (c : Dev nD) (t : Fin cfg0.N) (p : Fin 384) (q : Fin 128) :
    (blockAt0 V c 3 t : Vec Ideal S384x128 .f32) (ix2 p q) = (V c main_arg10 : S384x128.Idx → EReal) (ix2 p q) := by
  have e := index_maps t
  have ht := point_lt t
  unfold blockAt0
  rw [View.read_apply]
  refine congrArg (V c main_arg10 : S384x128.Idx → EReal) ?_
  funext a; apply Fin.ext
  match a with
  | ⟨0, _⟩ => show win0_3.index t (0 : Fin 2) * 384 + 1 * p.val = p.val; omega
  | ⟨1, _⟩ => show win0_3.index t (1 : Fin 2) * 128 + 1 * q.val = q.val; omega

/-- bi's block at every point is bi. -/
theorem block_bi (c : Dev nD) (t : Fin cfg0.N) (p : Fin 1) (q : Fin 128) :
    (blockAt0 V c 4 t : Vec Ideal S1x128 .f32) (ix2 p q) = (V c main_v26 : S1x128.Idx → EReal) (ix2 p q) := by
  have e := index_maps t
  have ht := point_lt t
  unfold blockAt0
  rw [View.read_apply]
  refine congrArg (V c main_v26 : S1x128.Idx → EReal) ?_
  funext a; apply Fin.ext
  match a with
  | ⟨0, _⟩ => show win0_4.index t (0 : Fin 2) * 1 + 1 * p.val = p.val; omega
  | ⟨1, _⟩ => show win0_4.index t (1 : Fin 2) * 128 + 1 * q.val = q.val; omega

/-- bo's block at every point is bo. -/
theorem block_bo (c : Dev nD) (t : Fin cfg0.N) (p : Fin 1) (q : Fin 128) :
    (blockAt0 V c 5 t : Vec Ideal S1x128 .f32) (ix2 p q) = (V c main_v27 : S1x128.Idx → EReal) (ix2 p q) := by
  have e := index_maps t
  have ht := point_lt t
  unfold blockAt0
  rw [View.read_apply]
  refine congrArg (V c main_v27 : S1x128.Idx → EReal) ?_
  funext a; apply Fin.ext
  match a with
  | ⟨0, _⟩ => show win0_5.index t (0 : Fin 2) * 1 + 1 * p.val = p.val; omega
  | ⟨1, _⟩ => show win0_5.index t (1 : Fin 2) * 128 + 1 * q.val = q.val; omega

/-- A row of a block times a column of a weight, entry by entry the same row of the array times the same column. -/
theorem row_product (X : Vec Ideal S4000x384 .f32) (Wb : Vec Ideal S384x128 .f32) (x : S500000x384.Idx → EReal) (w : S384x128.Idx → EReal)
    (R : Fin 500000) (p : Fin 4000) (q : Fin 128) (hX : ∀ k : Fin 384, X (ix2 p k) = x (ix2 R k)) (hW : ∀ k : Fin 384, Wb (ix2 k q) = w (ix2 k q)) :
    (∑ k : Fin 384, X (ix2 p k) * Wb (ix2 k q)) = ∑ k : Fin 384, x (ix2 R k) * w (ix2 k q) :=
  Finset.sum_congr rfl (fun k _ => by rw [hX k, hW k])

/-- What point t writes back is block t of the blended message of the arrays the region finds. -/
theorem written_back (c : Dev nD) (t : Fin cfg0.N) :
    (dat0 V c).flushed 6 t = ((cfg0.win 6).blk t).view.read (Elt Ideal)
      (msg (V c main_v21) (V c main_v25) (V c main_arg8) (V c main_arg10) (V c main_v26) (V c main_v27)) := by
  show (cfg0.win 6).cut (grid0.coords t) ((dat0 V c).after 6 t) = _
  rw [dat0_after_6]
  unfold stored0
  rw [View.canon_unit_zero zeroOffsets]
  simp only [View.ld_unit_zero (S := S4000x384) zeroOffsets, View.ld_unit_zero (S := S4000x1) zeroOffsets, View.ld_unit_zero (S := S384x128) zeroOffsets, View.ld_unit_zero (S := S1x128) zeroOffsets]
  funext y
  obtain ⟨p, q, rfl⟩ : ∃ (p : Fin 4000) (q : Fin 128), y = ix2 p q := ⟨y 0, y 1, eq_ix2 y⟩
  have e := index_maps t
  have ht := point_lt t
  rw [View.read_apply]
  have hemb : ((cfg0.win 6).blk t).view.emb (ix2 p q) = (ix2 (⟨4000 * t.val + p.val, by have := p.isLt; omega⟩ : Fin 500000) q : S500000x128.Idx) := by
    funext a; apply Fin.ext
    match a with
    | ⟨0, _⟩ => show win0_6.index t (0 : Fin 2) * 4000 + 1 * p.val = 4000 * t.val + p.val; omega
    | ⟨1, _⟩ => show win0_6.index t (1 : Fin 2) * 128 + 1 * q.val = q.val; omega
  rw [hemb]
  refine (pay_msg _ _ _ _ _ _ p q).trans ?_
  have hR : 4000 * t.val + p.val < 500000 := by have := p.isLt; omega
  show _ = msgAt _ _ _ _ _ _ ⟨4000 * t.val + p.val, hR⟩ q
  unfold msgAt
  rw [row_product (blockAt0 V c 0 t) (blockAt0 V c 2 t) (V c main_v21) (V c main_arg8) ⟨4000 * t.val + p.val, hR⟩ p q
      (fun k => block_comp V c t p k (ix2 ⟨4000 * t.val + p.val, hR⟩ k) rfl rfl) (fun k => block_wi V c t k q),
    row_product (blockAt0 V c 0 t) (blockAt0 V c 3 t) (V c main_v21) (V c main_arg10) ⟨4000 * t.val + p.val, hR⟩ p q
      (fun k => block_comp V c t p k (ix2 ⟨4000 * t.val + p.val, hR⟩ k) rfl rfl) (fun k => block_wo V c t k q),
    block_mask V c t p 0 (ix2 ⟨4000 * t.val + p.val, hR⟩ 0) rfl rfl, block_bi V c t 0 q, block_bo V c t 0 q]

/-- An index of the array is in point t's block iff each coordinate is in the block's range on its axis. -/
theorem mem_block (t : Fin cfg0.N) (i : S500000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v28).slice (win0_6.rect t)).set ↔ _
  rw [View.set_slice_whole, Rect.mem_set_unit]
  exact Iff.rfl

/-- Every index of the array is in the block of the point its row falls under. -/
theorem covered (i : S500000x128.Idx) : ∃ t : Fin cfg0.N, (cfg0.win 6).flush t = true ∧ i ∈ ((cfg0.win 6).blk t).view.set := by
  have hi0 : (i 0).val < 500000 := (i 0).isLt
  have hi1 : (i 1).val < 128 := (i 1).isLt
  have hN : grid0.N = 125 := N_0
  have hlt : (i 0).val / 4000 < grid0.N := by omega
  refine ⟨⟨(i 0).val / 4000, hlt⟩, flush0_6 _, ?_⟩
  rw [mem_block]
  have e := index_maps ⟨(i 0).val / 4000, hlt⟩
  have e0 : win0_6.index ⟨(i 0).val / 4000, hlt⟩ (0 : Fin 2) = (i 0).val / 4000 := e.2.2.2.2.2.2.2.2.2.2.2.2.1
  have e1 : win0_6.index ⟨(i 0).val / 4000, hlt⟩ (1 : Fin 2) = 0 := e.2.2.2.2.2.2.2.2.2.2.2.2.2
  intro a
  match a with
  | ⟨0, _⟩ =>
    show win0_6.index ⟨(i 0).val / 4000, hlt⟩ (0 : Fin 2) * 4000 ≤ (i 0).val ∧ (i 0).val < win0_6.index ⟨(i 0).val / 4000, hlt⟩ (0 : Fin 2) * 4000 + 4000
    rw [e0]; omega
  | ⟨1, _⟩ =>
    show win0_6.index ⟨(i 0).val / 4000, hlt⟩ (1 : Fin 2) * 128 ≤ (i 1).val ∧ (i 1).val < win0_6.index ⟨(i 0).val / 4000, hlt⟩ (1 : Fin 2) * 128 + 128
    rw [e1]; omega

/-- The message array after the region (the blocks cover every row). -/
theorem array_after (c : Dev nD) :
    (dat0 V c).arrAt 6 cfg0.N = msg (V c main_v21) (V c main_v25) (V c main_arg8) (V c main_arg10) (V c main_v26) (V c main_v27) :=
  (dat0 V c).arrAt_eq_of_cover 6 _ (fun t _ => written_back V c t) fun i => covered i

end Cert.KernelIdeal.Val0

end
-- ==== Proof.KernelIdealVal1.lean ====
/-
  What region 1's output array holds after its write-backs, as ONE function of the arrays the region finds at entry: entry
  (r, j) is  (∑ₖ x[r, k] · w[k, j] + b[0, j]) + a[r, j]  on the extended reals. The output's block at grid point t is rows
  5000·t … 5000·t + 4999 of the array; the moving inputs (x and a) are read through the same rows, the weight and the bias
  whole at every point; the blocks of the 10 grid points cover the 50000 rows.
-/
import proofs.«131206_j386547057414_1_alg».proof.Proof.KernelIdealBody1
import proofs.«131206_j386547057414_1_alg».proof.Proof.PayIdeal
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.GenP Cert.KernelIdeal.Body1 Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- One entry of x·w + b + a. -/
def updAt (x : S50000x128.Idx → EReal) (w : S128x128.Idx → EReal) (b : S1x128.Idx → EReal) (a : S50000x128.Idx → EReal) (r : Fin 50000) (j : Fin 128) : EReal :=
  ((∑ k : Fin 128, x (ix2 r k) * w (ix2 k j)) + b (ix2 0 j)) + a (ix2 r j)
/-- The whole array x·w + b + a. -/
def upd (x : S50000x128.Idx → EReal) (w : S128x128.Idx → EReal) (b : S1x128.Idx → EReal) (a : S50000x128.Idx → EReal) : S50000x128.Idx → EReal :=
  fun i => updAt x w b a (i 0) (i 1)

/-- The printed index maps over the grid: x, a and the output move down the rows with the point; w and b stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 10 := by
  have h := t.isLt; have hN : cfg1.N = 10 := N_1; omega

/-- x's block at point t is rows 5000·t … of x. -/
theorem block_x (c : Dev nD) (t : Fin cfg1.N) (p : Fin 5000) (q : Fin 128) (i : S50000x128.Idx)
    (h0 : (i 0).val = 5000 * t.val + p.val) (h1 : (i 1).val = q.val) :
    (blockAt1 V c 0 t : Vec Ideal S5000x128 .f32) (ix2 p q) = (V c main_arg5 : S50000x128.Idx → EReal) i := by
  obtain ⟨e0, e1, -⟩ := index_maps t
  have ht := point_lt t
  unfold blockAt1
  rw [View.read_apply]
  refine congrArg (V c main_arg5 : S50000x128.Idx → EReal) ?_
  funext a; apply Fin.ext
  match a with
  | ⟨0, _⟩ => show win1_0.index t (0 : Fin 2) * 5000 + 1 * p.val = (i 0).val; omega
  | ⟨1, _⟩ => show win1_0.index t (1 : Fin 2) * 128 + 1 * q.val = (i 1).val; omega

/-- a's block at point t is rows 5000·t … of a. -/
theorem block_a (c : Dev nD) (t : Fin cfg1.N) (p : Fin 5000) (q : Fin 128) (i : S50000x128.Idx)
    (h0 : (i 0).val = 5000 * t.val + p.val) (h1 : (i 1).val = q.val) :
    (blockAt1 V c 3 t : Vec Ideal S5000x128 .f32) (ix2 p q) = (V c main_v40 : S50000x128.Idx → EReal) i := by
  obtain ⟨-, -, -, -, -, -, e0, e1, -⟩ := index_maps t
  have ht := point_lt t
  unfold blockAt1
  rw [View.read_apply]
  refine congrArg (V c main_v40 : S50000x128.Idx → EReal) ?_
  funext a; apply Fin.ext
  match a with
  | ⟨0, _⟩ => show win1_3.index t (0 : Fin 2) * 5000 + 1 * p.val = (i 0).val; omega
  | ⟨1, _⟩ => show win1_3.index t (1 : Fin 2) * 128 + 1 * q.val = (i 1).val; omega

/-- w's block at every point is w. -/
theorem block_w (c : Dev nD) (t : Fin cfg1.N) (p q : Fin 128) :
    (blockAt1 V c 1 t : Vec Ideal S128x128 .f32) (ix2 p q) = (V c main_arg12 : S128x128.Idx → EReal) (ix2 p q) := by
  obtain ⟨-, -, e0, e1, -⟩ := index_maps t
  unfold blockAt1
  rw [View.read_apply]
  refine congrArg (V c main_arg12 : S128x128.Idx → EReal) ?_
  funext a; apply Fin.ext
  match a with
  | ⟨0, _⟩ => show win1_1.index t (0 : Fin 2) * 128 + 1 * p.val = p.val; omega
  | ⟨1, _⟩ => show win1_1.index t (1 : Fin 2) * 128 + 1 * q.val = q.val; omega

/-- b's block at every point is b. -/
theorem block_b (c : Dev nD) (t : Fin cfg1.N) (p : Fin 1) (q : Fin 128) :
    (blockAt1 V c 2 t : Vec Ideal S1x128 .f32) (ix2 p q) = (V c main_v41 : S1x128.Idx → EReal) (ix2 p q) := by
  obtain ⟨-, -, -, -, e0, e1, -⟩ := index_maps t
  unfold blockAt1
  rw [View.read_apply]
  refine congrArg (V c main_v41 : S1x128.Idx → EReal) ?_
  funext a; apply Fin.ext
  match a with
  | ⟨0, _⟩ => show win1_2.index t (0 : Fin 2) * 1 + 1 * p.val = p.val; omega
  | ⟨1, _⟩ => show win1_2.index t (1 : Fin 2) * 128 + 1 * q.val = q.val; omega

/-- What point t writes back is block t of x·w + b + a of the arrays the region finds. -/
theorem written_back (c : Dev nD) (t : Fin cfg1.N) :
    (dat1 V c).flushed 4 t = ((cfg1.win 4).blk t).view.read (Elt Ideal)
      (upd (V c main_arg5) (V c main_arg12) (V c main_v41) (V c main_v40)) := by
  show (cfg1.win 4).cut (grid1.coords t) ((dat1 V c).after 4 t) = _
  rw [dat1_after_4]
  unfold stored1
  rw [View.canon_unit_zero zeroOffsets]
  simp only [View.ld_unit_zero (S := S5000x128) zeroOffsets, View.ld_unit_zero (S := S128x128) zeroOffsets, View.ld_unit_zero (S := S1x128) zeroOffsets]
  funext y
  obtain ⟨p, q, rfl⟩ : ∃ (p : Fin 5000) (q : Fin 128), y = ix2 p q := ⟨y 0, y 1, eq_ix2 y⟩
  obtain ⟨-, -, -, -, -, -, -, -, e0, e1⟩ := index_maps t
  have ht := point_lt t
  rw [View.read_apply]
  have hemb : ((cfg1.win 4).blk t).view.emb (ix2 p q) = (ix2 (⟨5000 * t.val + p.val, by have := p.isLt; omega⟩ : Fin 50000) q : S50000x128.Idx) := by
    funext a; apply Fin.ext
    match a with
    | ⟨0, _⟩ => show win1_4.index t (0 : Fin 2) * 5000 + 1 * p.val = 5000 * t.val + p.val; omega
    | ⟨1, _⟩ => show win1_4.index t (1 : Fin 2) * 128 + 1 * q.val = q.val; omega
  rw [hemb]
  refine (pay_upd1 _ _ _ _ p q).trans ?_
  show _ = updAt _ _ _ _ ⟨5000 * t.val + p.val, _⟩ q
  unfold updAt
  rw [block_b V c t 0 q, block_a V c t p q (ix2 ⟨5000 * t.val + p.val, by have := p.isLt; omega⟩ q) rfl rfl,
    Finset.sum_congr rfl (fun k _ => by rw [block_x V c t p k (ix2 ⟨5000 * t.val + p.val, by have := p.isLt; omega⟩ k) rfl rfl, block_w V c t k q])]

/-- An index of the array is in point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

/-- Every index of the array is in the block of the point its row falls under. -/
theorem covered (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  have hlt : (i 0).val / 5000 < grid1.N := by omega
  refine ⟨⟨(i 0).val / 5000, hlt⟩, flush1_4 _, ?_⟩
  rw [mem_block]
  have e := index_maps ⟨(i 0).val / 5000, hlt⟩
  have e0 : win1_4.index ⟨(i 0).val / 5000, hlt⟩ (0 : Fin 2) = (i 0).val / 5000 := e.2.2.2.2.2.2.2.2.1
  have e1 : win1_4.index ⟨(i 0).val / 5000, hlt⟩ (1 : Fin 2) = 0 := e.2.2.2.2.2.2.2.2.2
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    rw [e0]; omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    rw [e1]; omega

/-- The output array after the region: x·w + b + a of the arrays the region finds (the blocks cover every row). -/
theorem array_after (c : Dev nD) :
    (dat1 V c).arrAt 4 cfg1.N = upd (V c main_arg5) (V c main_arg12) (V c main_v41) (V c main_v40) :=
  (dat1 V c).arrAt_eq_of_cover 4 _ (fun t _ => written_back V c t) fun i => covered i

end Cert.KernelIdeal.Val1

end
-- ==== Proof.KernelIdealVal2.lean ====
/-
  What region 2's output array holds after its write-backs, as ONE function of the arrays the region finds at entry: entry
  (r, j) is  (∑ₖ x[r, k] · w[k, j] + b[0, j]) + a[r, j]  on the extended reals. The output's block at grid point t is rows
  500·t … 500·t + 499 of the array; the moving inputs (x and a) are read through the same rows, the weight and the bias
  whole at every point; the blocks of the 1 grid point cover the 500 rows.
-/
import proofs.«131206_j386547057414_1_alg».proof.Proof.KernelIdealBody2
import proofs.«131206_j386547057414_1_alg».proof.Proof.PayIdeal
import Idealize.ShloMosaic.Lib.Pipeline.Value
import Idealize.ShloMosaic.Lib.ValueIdx

set_option maxRecDepth 16384

noncomputable section

namespace Cert.KernelIdeal.Val2

open Cert.KernelIdeal Cert.KernelIdeal.Gen Cert.KernelIdeal.GenP Cert.KernelIdeal.Body2 Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- One entry of x·w + b + a. -/
def updAt (x : S500x128.Idx → EReal) (w : S128x128.Idx → EReal) (b : S1x128.Idx → EReal) (a : S500x128.Idx → EReal) (r : Fin 500) (j : Fin 128) : EReal :=
  ((∑ k : Fin 128, x (ix2 r k) * w (ix2 k j)) + b (ix2 0 j)) + a (ix2 r j)
/-- The whole array x·w + b + a. -/
def upd (x : S500x128.Idx → EReal) (w : S128x128.Idx → EReal) (b : S1x128.Idx → EReal) (a : S500x128.Idx → EReal) : S500x128.Idx → EReal :=
  fun i => updAt x w b a (i 0) (i 1)

/-- The printed index maps over the grid: x, a and the output move down the rows with the point; w and b stay. -/
theorem index_maps : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem point_lt (t : Fin cfg2.N) : t.val < 1 := by
  have h := t.isLt; have hN : cfg2.N = 1 := N_2; omega

/-- x's block at point t is rows 500·t … of x. -/
theorem block_x (c : Dev nD) (t : Fin cfg2.N) (p : Fin 500) (q : Fin 128) (i : S500x128.Idx)
    (h0 : (i 0).val = 500 * t.val + p.val) (h1 : (i 1).val = q.val) :
    (blockAt2 V c 0 t : Vec Ideal S500x128 .f32) (ix2 p q) = (V c main_arg6 : S500x128.Idx → EReal) i := by
  obtain ⟨e0, e1, -⟩ := index_maps t
  have ht := point_lt t
  unfold blockAt2
  rw [View.read_apply]
  refine congrArg (V c main_arg6 : S500x128.Idx → EReal) ?_
  funext a; apply Fin.ext
  match a with
  | ⟨0, _⟩ => show win2_0.index t (0 : Fin 2) * 500 + 1 * p.val = (i 0).val; omega
  | ⟨1, _⟩ => show win2_0.index t (1 : Fin 2) * 128 + 1 * q.val = (i 1).val; omega

/-- a's block at point t is rows 500·t … of a. -/
theorem block_a (c : Dev nD) (t : Fin cfg2.N) (p : Fin 500) (q : Fin 128) (i : S500x128.Idx)
    (h0 : (i 0).val = 500 * t.val + p.val) (h1 : (i 1).val = q.val) :
    (blockAt2 V c 3 t : Vec Ideal S500x128 .f32) (ix2 p q) = (V c main_v43 : S500x128.Idx → EReal) i := by
  obtain ⟨-, -, -, -, -, -, e0, e1, -⟩ := index_maps t
  have ht := point_lt t
  unfold blockAt2
  rw [View.read_apply]
  refine congrArg (V c main_v43 : S500x128.Idx → EReal) ?_
  funext a; apply Fin.ext
  match a with
  | ⟨0, _⟩ => show win2_3.index t (0 : Fin 2) * 500 + 1 * p.val = (i 0).val; omega
  | ⟨1, _⟩ => show win2_3.index t (1 : Fin 2) * 128 + 1 * q.val = (i 1).val; omega

/-- w's block at every point is w. -/
theorem block_w (c : Dev nD) (t : Fin cfg2.N) (p q : Fin 128) :
    (blockAt2 V c 1 t : Vec Ideal S128x128 .f32) (ix2 p q) = (V c main_arg14 : S128x128.Idx → EReal) (ix2 p q) := by
  obtain ⟨-, -, e0, e1, -⟩ := index_maps t
  unfold blockAt2
  rw [View.read_apply]
  refine congrArg (V c main_arg14 : S128x128.Idx → EReal) ?_
  funext a; apply Fin.ext
  match a with
  | ⟨0, _⟩ => show win2_1.index t (0 : Fin 2) * 128 + 1 * p.val = p.val; omega
  | ⟨1, _⟩ => show win2_1.index t (1 : Fin 2) * 128 + 1 * q.val = q.val; omega

/-- b's block at every point is b. -/
theorem block_b (c : Dev nD) (t : Fin cfg2.N) (p : Fin 1) (q : Fin 128) :
    (blockAt2 V c 2 t : Vec Ideal S1x128 .f32) (ix2 p q) = (V c main_v44 : S1x128.Idx → EReal) (ix2 p q) := by
  obtain ⟨-, -, -, -, e0, e1, -⟩ := index_maps t
  unfold blockAt2
  rw [View.read_apply]
  refine congrArg (V c main_v44 : S1x128.Idx → EReal) ?_
  funext a; apply Fin.ext
  match a with
  | ⟨0, _⟩ => show win2_2.index t (0 : Fin 2) * 1 + 1 * p.val = p.val; omega
  | ⟨1, _⟩ => show win2_2.index t (1 : Fin 2) * 128 + 1 * q.val = q.val; omega

/-- What point t writes back is block t of x·w + b + a of the arrays the region finds. -/
theorem written_back (c : Dev nD) (t : Fin cfg2.N) :
    (dat2 V c).flushed 4 t = ((cfg2.win 4).blk t).view.read (Elt Ideal)
      (upd (V c main_arg6) (V c main_arg14) (V c main_v44) (V c main_v43)) := by
  show (cfg2.win 4).cut (grid2.coords t) ((dat2 V c).after 4 t) = _
  rw [dat2_after_4]
  unfold stored2
  rw [View.canon_unit_zero zeroOffsets]
  simp only [View.ld_unit_zero (S := S500x128) zeroOffsets, View.ld_unit_zero (S := S128x128) zeroOffsets, View.ld_unit_zero (S := S1x128) zeroOffsets]
  funext y
  obtain ⟨p, q, rfl⟩ : ∃ (p : Fin 500) (q : Fin 128), y = ix2 p q := ⟨y 0, y 1, eq_ix2 y⟩
  obtain ⟨-, -, -, -, -, -, -, -, e0, e1⟩ := index_maps t
  have ht := point_lt t
  rw [View.read_apply]
  have hemb : ((cfg2.win 4).blk t).view.emb (ix2 p q) = (ix2 (⟨500 * t.val + p.val, by have := p.isLt; omega⟩ : Fin 500) q : S500x128.Idx) := by
    funext a; apply Fin.ext
    match a with
    | ⟨0, _⟩ => show win2_4.index t (0 : Fin 2) * 500 + 1 * p.val = 500 * t.val + p.val; omega
    | ⟨1, _⟩ => show win2_4.index t (1 : Fin 2) * 128 + 1 * q.val = q.val; omega
  rw [hemb]
  refine (pay_upd2 _ _ _ _ p q).trans ?_
  show _ = updAt _ _ _ _ ⟨500 * t.val + p.val, _⟩ q
  unfold updAt
  rw [block_b V c t 0 q, block_a V c t p q (ix2 ⟨500 * t.val + p.val, by have := p.isLt; omega⟩ q) rfl rfl,
    Finset.sum_congr rfl (fun k _ => by rw [block_x V c t p k (ix2 ⟨500 * t.val + p.val, by have := p.isLt; omega⟩ k) rfl rfl, block_w V c t k q])]

/-- An index of the array is in point t's block iff each coordinate is in the block's range on its axis. -/
theorem mem_block (t : Fin cfg2.N) (i : S500x128.Idx) :
    i ∈ ((cfg2.win 4).blk t).view.set ↔ ∀ a : Fin 2, win2_4.index t a * S500x128.size a ≤ (i a).val ∧ (i a).val < win2_4.index t a * S500x128.size a + S500x128.size a := by
  show i ∈ ((View.whole main_v45).slice (win2_4.rect t)).set ↔ _
  rw [View.set_slice_whole, Rect.mem_set_unit]
  exact Iff.rfl

/-- Every index of the array is in the block of the point its row falls under. -/
theorem covered (i : S500x128.Idx) : ∃ t : Fin cfg2.N, (cfg2.win 4).flush t = true ∧ i ∈ ((cfg2.win 4).blk t).view.set := by
  have hi0 : (i 0).val < 500 := (i 0).isLt
  have hi1 : (i 1).val < 128 := (i 1).isLt
  have hN : grid2.N = 1 := N_2
  have hlt : (i 0).val / 500 < grid2.N := by omega
  refine ⟨⟨(i 0).val / 500, hlt⟩, flush2_4 _, ?_⟩
  rw [mem_block]
  have e := index_maps ⟨(i 0).val / 500, hlt⟩
  have e0 : win2_4.index ⟨(i 0).val / 500, hlt⟩ (0 : Fin 2) = 0 := e.2.2.2.2.2.2.2.2.1
  have e1 : win2_4.index ⟨(i 0).val / 500, hlt⟩ (1 : Fin 2) = 0 := e.2.2.2.2.2.2.2.2.2
  intro a
  match a with
  | ⟨0, _⟩ =>
    show win2_4.index ⟨(i 0).val / 500, hlt⟩ (0 : Fin 2) * 500 ≤ (i 0).val ∧ (i 0).val < win2_4.index ⟨(i 0).val / 500, hlt⟩ (0 : Fin 2) * 500 + 500
    rw [e0]; omega
  | ⟨1, _⟩ =>
    show win2_4.index ⟨(i 0).val / 500, hlt⟩ (1 : Fin 2) * 128 ≤ (i 1).val ∧ (i 1).val < win2_4.index ⟨(i 0).val / 500, hlt⟩ (1 : Fin 2) * 128 + 128
    rw [e1]; omega

/-- The output array after the region: x·w + b + a of the arrays the region finds (the blocks cover every row). -/
theorem array_after (c : Dev nD) :
    (dat2 V c).arrAt 4 cfg2.N = upd (V c main_arg6) (V c main_arg14) (V c main_v44) (V c main_v43) :=
  (dat2 V c).arrAt_eq_of_cover 4 _ (fun t _ => written_back V c t) fun i => covered i

end Cert.KernelIdeal.Val2

end
-- ==== Proof.KernelIdealVal3.lean ====
/-
  What region 3's output array holds after its write-backs, as ONE function of the arrays the region finds at entry: entry
  (r, j) is  (∑ₖ x[r, k] · w[k, j] + b[0, j]) + a[r, j]  on the extended reals. The output's block at grid point t is rows
  366·t … 366·t + 365 of the array; the moving inputs (x and a) are read through the same rows, the weight and the bias
  whole at every point; the blocks of the 1 grid point cover the 366 rows.
-/
import proofs.«131206_j386547057414_1_alg».proof.Proof.KernelIdealBody3
import proofs.«131206_j386547057414_1_alg».proof.Proof.PayIdeal
import Idealize.ShloMosaic.Lib.Pipeline.Value
import Idealize.ShloMosaic.Lib.ValueIdx

set_option maxRecDepth 16384

noncomputable section

namespace Cert.KernelIdeal.Val3

open Cert.KernelIdeal Cert.KernelIdeal.Gen Cert.KernelIdeal.GenP Cert.KernelIdeal.Body3 Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- One entry of x·w + b + a. -/
def updAt (x : S366x128.Idx → EReal) (w : S128x128.Idx → EReal) (b : S1x128.Idx → EReal) (a : S366x128.Idx → EReal) (r : Fin 366) (j : Fin 128) : EReal :=
  ((∑ k : Fin 128, x (ix2 r k) * w (ix2 k j)) + b (ix2 0 j)) + a (ix2 r j)
/-- The whole array x·w + b + a. -/
def upd (x : S366x128.Idx → EReal) (w : S128x128.Idx → EReal) (b : S1x128.Idx → EReal) (a : S366x128.Idx → EReal) : S366x128.Idx → EReal :=
  fun i => updAt x w b a (i 0) (i 1)

/-- The printed index maps over the grid: x, a and the output move down the rows with the point; w and b stay. -/
theorem index_maps : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem point_lt (t : Fin cfg3.N) : t.val < 1 := by
  have h := t.isLt; have hN : cfg3.N = 1 := N_3; omega

/-- x's block at point t is rows 366·t … of x. -/
theorem block_x (c : Dev nD) (t : Fin cfg3.N) (p : Fin 366) (q : Fin 128) (i : S366x128.Idx)
    (h0 : (i 0).val = 366 * t.val + p.val) (h1 : (i 1).val = q.val) :
    (blockAt3 V c 0 t : Vec Ideal S366x128 .f32) (ix2 p q) = (V c main_arg7 : S366x128.Idx → EReal) i := by
  obtain ⟨e0, e1, -⟩ := index_maps t
  have ht := point_lt t
  unfold blockAt3
  rw [View.read_apply]
  refine congrArg (V c main_arg7 : S366x128.Idx → EReal) ?_
  funext a; apply Fin.ext
  match a with
  | ⟨0, _⟩ => show win3_0.index t (0 : Fin 2) * 366 + 1 * p.val = (i 0).val; omega
  | ⟨1, _⟩ => show win3_0.index t (1 : Fin 2) * 128 + 1 * q.val = (i 1).val; omega

/-- a's block at point t is rows 366·t … of a. -/
theorem block_a (c : Dev nD) (t : Fin cfg3.N) (p : Fin 366) (q : Fin 128) (i : S366x128.Idx)
    (h0 : (i 0).val = 366 * t.val + p.val) (h1 : (i 1).val = q.val) :
    (blockAt3 V c 3 t : Vec Ideal S366x128 .f32) (ix2 p q) = (V c main_v46 : S366x128.Idx → EReal) i := by
  obtain ⟨-, -, -, -, -, -, e0, e1, -⟩ := index_maps t
  have ht := point_lt t
  unfold blockAt3
  rw [View.read_apply]
  refine congrArg (V c main_v46 : S366x128.Idx → EReal) ?_
  funext a; apply Fin.ext
  match a with
  | ⟨0, _⟩ => show win3_3.index t (0 : Fin 2) * 366 + 1 * p.val = (i 0).val; omega
  | ⟨1, _⟩ => show win3_3.index t (1 : Fin 2) * 128 + 1 * q.val = (i 1).val; omega

/-- w's block at every point is w. -/
theorem block_w (c : Dev nD) (t : Fin cfg3.N) (p q : Fin 128) :
    (blockAt3 V c 1 t : Vec Ideal S128x128 .f32) (ix2 p q) = (V c main_arg16 : S128x128.Idx → EReal) (ix2 p q) := by
  obtain ⟨-, -, e0, e1, -⟩ := index_maps t
  unfold blockAt3
  rw [View.read_apply]
  refine congrArg (V c main_arg16 : S128x128.Idx → EReal) ?_
  funext a; apply Fin.ext
  match a with
  | ⟨0, _⟩ => show win3_1.index t (0 : Fin 2) * 128 + 1 * p.val = p.val; omega
  | ⟨1, _⟩ => show win3_1.index t (1 : Fin 2) * 128 + 1 * q.val = q.val; omega

/-- b's block at every point is b. -/
theorem block_b (c : Dev nD) (t : Fin cfg3.N) (p : Fin 1) (q : Fin 128) :
    (blockAt3 V c 2 t : Vec Ideal S1x128 .f32) (ix2 p q) = (V c main_v47 : S1x128.Idx → EReal) (ix2 p q) := by
  obtain ⟨-, -, -, -, e0, e1, -⟩ := index_maps t
  unfold blockAt3
  rw [View.read_apply]
  refine congrArg (V c main_v47 : S1x128.Idx → EReal) ?_
  funext a; apply Fin.ext
  match a with
  | ⟨0, _⟩ => show win3_2.index t (0 : Fin 2) * 1 + 1 * p.val = p.val; omega
  | ⟨1, _⟩ => show win3_2.index t (1 : Fin 2) * 128 + 1 * q.val = q.val; omega

/-- What point t writes back is block t of x·w + b + a of the arrays the region finds. -/
theorem written_back (c : Dev nD) (t : Fin cfg3.N) :
    (dat3 V c).flushed 4 t = ((cfg3.win 4).blk t).view.read (Elt Ideal)
      (upd (V c main_arg7) (V c main_arg16) (V c main_v47) (V c main_v46)) := by
  show (cfg3.win 4).cut (grid3.coords t) ((dat3 V c).after 4 t) = _
  rw [dat3_after_4]
  unfold stored3
  rw [View.canon_unit_zero zeroOffsets]
  simp only [View.ld_unit_zero (S := S366x128) zeroOffsets, View.ld_unit_zero (S := S128x128) zeroOffsets, View.ld_unit_zero (S := S1x128) zeroOffsets]
  funext y
  obtain ⟨p, q, rfl⟩ : ∃ (p : Fin 366) (q : Fin 128), y = ix2 p q := ⟨y 0, y 1, eq_ix2 y⟩
  obtain ⟨-, -, -, -, -, -, -, -, e0, e1⟩ := index_maps t
  have ht := point_lt t
  rw [View.read_apply]
  have hemb : ((cfg3.win 4).blk t).view.emb (ix2 p q) = (ix2 (⟨366 * t.val + p.val, by have := p.isLt; omega⟩ : Fin 366) q : S366x128.Idx) := by
    funext a; apply Fin.ext
    match a with
    | ⟨0, _⟩ => show win3_4.index t (0 : Fin 2) * 366 + 1 * p.val = 366 * t.val + p.val; omega
    | ⟨1, _⟩ => show win3_4.index t (1 : Fin 2) * 128 + 1 * q.val = q.val; omega
  rw [hemb]
  refine (pay_upd3 _ _ _ _ p q).trans ?_
  show _ = updAt _ _ _ _ ⟨366 * t.val + p.val, _⟩ q
  unfold updAt
  rw [block_b V c t 0 q, block_a V c t p q (ix2 ⟨366 * t.val + p.val, by have := p.isLt; omega⟩ q) rfl rfl,
    Finset.sum_congr rfl (fun k _ => by rw [block_x V c t p k (ix2 ⟨366 * t.val + p.val, by have := p.isLt; omega⟩ k) rfl rfl, block_w V c t k q])]

/-- An index of the array is in point t's block iff each coordinate is in the block's range on its axis. -/
theorem mem_block (t : Fin cfg3.N) (i : S366x128.Idx) :
    i ∈ ((cfg3.win 4).blk t).view.set ↔ ∀ a : Fin 2, win3_4.index t a * S366x128.size a ≤ (i a).val ∧ (i a).val < win3_4.index t a * S366x128.size a + S366x128.size a := by
  show i ∈ ((View.whole main_v48).slice (win3_4.rect t)).set ↔ _
  rw [View.set_slice_whole, Rect.mem_set_unit]
  exact Iff.rfl

/-- Every index of the array is in the block of the point its row falls under. -/
theorem covered (i : S366x128.Idx) : ∃ t : Fin cfg3.N, (cfg3.win 4).flush t = true ∧ i ∈ ((cfg3.win 4).blk t).view.set := by
  have hi0 : (i 0).val < 366 := (i 0).isLt
  have hi1 : (i 1).val < 128 := (i 1).isLt
  have hN : grid3.N = 1 := N_3
  have hlt : (i 0).val / 366 < grid3.N := by omega
  refine ⟨⟨(i 0).val / 366, hlt⟩, flush3_4 _, ?_⟩
  rw [mem_block]
  have e := index_maps ⟨(i 0).val / 366, hlt⟩
  have e0 : win3_4.index ⟨(i 0).val / 366, hlt⟩ (0 : Fin 2) = 0 := e.2.2.2.2.2.2.2.2.1
  have e1 : win3_4.index ⟨(i 0).val / 366, hlt⟩ (1 : Fin 2) = 0 := e.2.2.2.2.2.2.2.2.2
  intro a
  match a with
  | ⟨0, _⟩ =>
    show win3_4.index ⟨(i 0).val / 366, hlt⟩ (0 : Fin 2) * 366 ≤ (i 0).val ∧ (i 0).val < win3_4.index ⟨(i 0).val / 366, hlt⟩ (0 : Fin 2) * 366 + 366
    rw [e0]; omega
  | ⟨1, _⟩ =>
    show win3_4.index ⟨(i 0).val / 366, hlt⟩ (1 : Fin 2) * 128 ≤ (i 1).val ∧ (i 1).val < win3_4.index ⟨(i 0).val / 366, hlt⟩ (1 : Fin 2) * 128 + 128
    rw [e1]; omega

/-- The output array after the region: x·w + b + a of the arrays the region finds (the blocks cover every row). -/
theorem array_after (c : Dev nD) :
    (dat3 V c).arrAt 4 cfg3.N = upd (V c main_arg7) (V c main_arg16) (V c main_v47) (V c main_v46) :=
  (dat3 V c).arrAt_eq_of_cover 4 _ (fun t _ => written_back V c t) fun i => covered i

end Cert.KernelIdeal.Val3

end
-- ==== Proof.KernelIdealHost.lean ====
/-
  What the kernel program's host operations leave in the buffers the four kernels read, at the ideal (extended-real)
  values, for an arbitrary valuation `W` of the buffers the stretch starts from.

  • Before the message kernel: its gathered input is `gathered` of six arguments — for every edge the three endpoint
    rows side by side (`after0_v21`); its mask at edge e is 1 where the edge's integer flag is 0 and 0 elsewhere
    (`after0_v25_apply`; a one-bit word read unsigned is 1 or 0, `uitofp_bit`); its two bias rows are the bias vectors
    (`after0_v26_apply`, `after0_v27_apply`).
  • Before the first update kernel: its residual is `aggregated` of the destination indices and the messages — the
    per-node mean (`after1_v40`); its bias row is the bias vector (`after1_v41_apply`).
  • Before the second and third update kernels: the residual is the zero array (`after2_v43_apply`,
    `after3_v46_apply`) and the bias row is the bias vector (`after2_v44_apply`, `after3_v47_apply`).
  `gathered` and `aggregated` are the host operations' composed terms; nothing here reads them at an index.
-/
import proofs.«131206_j386547057414_1_alg».proof.Proof.KernelIdealRegionsP
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Host

open Cert.KernelIdeal Cert.KernelIdeal.Gen Cert.KernelIdeal.GenP
open Idealize.ShloMosaic Idealize.ShloMosaic.ValueIdx Idealize.ShloMosaic.StableHlo

/-- After the third stretch of host operations the residual of the second update kernel is the zero array. -/
theorem after2_v43_apply (W : Valuation τ sig (Elt Ideal)) (r : Fin 500) (j : Fin 128) :
    (StableHlo.after (hostOps2 (F := Ideal)) W (Proc.devRef .tc main_v43) : S500x128.Idx → EReal) (ix2 r j) = (0 : EReal) := by
  have e : (StableHlo.after (hostOps2 (F := Ideal)) W (Proc.devRef .tc main_v43) : S500x128.Idx → EReal)
      = broadcastInDim S500x128 ![] bcast_S_S500x128 (constant (F := Ideal) S_ .f32 0x00000000#32) := by
    after_results <;> rfl
  rw [e]
  exact Ideal.ofBits_zero_f32

/-- After the fourth stretch of host operations the residual of the third update kernel is the zero array. -/
theorem after3_v46_apply (W : Valuation τ sig (Elt Ideal)) (r : Fin 366) (j : Fin 128) :
    (StableHlo.after (hostOps3 (F := Ideal)) W (Proc.devRef .tc main_v46) : S366x128.Idx → EReal) (ix2 r j) = (0 : EReal) := by
  have e : (StableHlo.after (hostOps3 (F := Ideal)) W (Proc.devRef .tc main_v46) : S366x128.Idx → EReal)
      = broadcastInDim S366x128 ![] bcast_S_S366x128 (constant (F := Ideal) S_ .f32 0x00000000#32) := by
    after_results <;> rfl
  rw [e]
  exact Ideal.ofBits_zero_f32

/-- The inner bias as a [1, 128] row is the bias vector. -/
theorem after0_v26_apply (W : Valuation τ sig (Elt Ideal)) (j : Fin 128) :
    (StableHlo.after (hostOps0 (F := Ideal)) W (Proc.devRef .tc main_v26) : S1x128.Idx → EReal) (ix2 0 j)
      = (W (Proc.devRef .tc main_arg9) : S128.Idx → EReal) (ix1 j) := by
  have e : (StableHlo.after (hostOps0 (F := Ideal)) W (Proc.devRef .tc main_v26) : S1x128.Idx → EReal)
      = shapeCast S1x128 (W (Proc.devRef .tc main_arg9) : S128.Idx → EReal) shapeCasts_S128_S1x128 := by
    after_results <;> rfl
  rw [e]
  exact shapeCast_a_1a_apply _ _ 0 j

/-- The outer bias as a [1, 128] row is the bias vector. -/
theorem after0_v27_apply (W : Valuation τ sig (Elt Ideal)) (j : Fin 128) :
    (StableHlo.after (hostOps0 (F := Ideal)) W (Proc.devRef .tc main_v27) : S1x128.Idx → EReal) (ix2 0 j)
      = (W (Proc.devRef .tc main_arg11) : S128.Idx → EReal) (ix1 j) := by
  have e : (StableHlo.after (hostOps0 (F := Ideal)) W (Proc.devRef .tc main_v27) : S1x128.Idx → EReal)
      = shapeCast S1x128 (W (Proc.devRef .tc main_arg11) : S128.Idx → EReal) shapeCasts_S128_S1x128 := by
    after_results <;> rfl
  rw [e]
  exact shapeCast_a_1a_apply _ _ 0 j

/-- The first update's bias as a [1, 128] row is the bias vector. -/
theorem after1_v41_apply (W : Valuation τ sig (Elt Ideal)) (j : Fin 128) :
    (StableHlo.after (hostOps1 (F := Ideal)) W (Proc.devRef .tc main_v41) : S1x128.Idx → EReal) (ix2 0 j)
      = (W (Proc.devRef .tc main_arg13) : S128.Idx → EReal) (ix1 j) := by
  have e : (StableHlo.after (hostOps1 (F := Ideal)) W (Proc.devRef .tc main_v41) : S1x128.Idx → EReal)
      = shapeCast S1x128 (W (Proc.devRef .tc main_arg13) : S128.Idx → EReal) shapeCasts_S128_S1x128 := by
    after_results <;> rfl
  rw [e]
  exact shapeCast_a_1a_apply _ _ 0 j

/-- The second update's bias as a [1, 128] row is the bias vector. -/
theorem after2_v44_apply (W : Valuation τ sig (Elt Ideal)) (j : Fin 128) :
    (StableHlo.after (hostOps2 (F := Ideal)) W (Proc.devRef .tc main_v44) : S1x128.Idx → EReal) (ix2 0 j)
      = (W (Proc.devRef .tc main_arg15) : S128.Idx → EReal) (ix1 j) := by
  have e : (StableHlo.after (hostOps2 (F := Ideal)) W (Proc.devRef .tc main_v44) : S1x128.Idx → EReal)
      = shapeCast S1x128 (W (Proc.devRef .tc main_arg15) : S128.Idx → EReal) shapeCasts_S128_S1x128 := by
    after_results <;> rfl
  rw [e]
  exact shapeCast_a_1a_apply _ _ 0 j

/-- The third update's bias as a [1, 128] row is the bias vector. -/
theorem after3_v47_apply (W : Valuation τ sig (Elt Ideal)) (j : Fin 128) :
    (StableHlo.after (hostOps3 (F := Ideal)) W (Proc.devRef .tc main_v47) : S1x128.Idx → EReal) (ix2 0 j)
      = (W (Proc.devRef .tc main_arg17) : S128.Idx → EReal) (ix1 j) := by
  have e : (StableHlo.after (hostOps3 (F := Ideal)) W (Proc.devRef .tc main_v47) : S1x128.Idx → EReal)
      = shapeCast S1x128 (W (Proc.devRef .tc main_arg17) : S128.Idx → EReal) shapeCasts_S128_S1x128 := by
    after_results <;> rfl
  rw [e]
  exact shapeCast_a_1a_apply _ _ 0 j

/-- A one-bit word read unsigned as an extended real is 1 when the bit is set and 0 otherwise. -/
theorem uitofp_bit (b : BitVec 1) : (((b.toNat : ℝ)) : EReal) = if b = 1#1 then (1 : EReal) else 0 := by
  rcases BitVec.eq_zero_or_eq_one b with h | h <;> subst h <;> simp

/-- The message kernel's mask after the first stretch of host operations, read at edge `e`: 1 where the edge's
    integer flag equals 0, and 0 elsewhere (the comparison's one-bit word is left as the condition). -/
theorem after0_v25_apply (W : Valuation τ sig (Elt Ideal)) (e : Fin 500000) :
    (StableHlo.after (hostOps0 (F := Ideal)) W (Proc.devRef .tc main_v25) : S500000x1.Idx → EReal) (ix2 e 0)
      = if IntOp.cmpi .eq ((W (Proc.devRef .tc main_arg4) : IVec S500000 32) (ix1 e)) 0#32 = 1#1 then (1 : EReal) else 0 := by
  have E : (StableHlo.after (hostOps0 (F := Ideal)) W (Proc.devRef .tc main_v25) : S500000x1.Idx → EReal)
      = broadcastInDim S500000x1 ![0] bcast_S500000_S500000x1_0
          (uitofp (F := Ideal) .f32 (cmpi .eq (W (Proc.devRef .tc main_arg4) : IVec S500000 32)
            (broadcastInDim S500000 ![] bcast_S_S500000 (constantI S_ 32 0#32)))) := by
    after_results <;> rfl
  rw [E]
  refine (broadcastInDim_apply _ bcast_S500000_S500000x1_0 _ (ix2 e 0) (ix1 e) (fun a => match a with
    | ⟨0, _⟩ => by show e.val = if (500000 : Nat) = 1 then 0 else e.val; rw [if_neg (by decide)])).trans ?_
  exact uitofp_bit _

/-- The message kernel's gathered input: for every edge, the three endpoint feature rows side by side — the row of
    `a6` at the edge's index `a2`, the row of `a5` at `a0`, the row of `a7` at `a3`, a negative index counted from
    the end of its table —, as the host operations before the first kernel spell it. -/
def gathered (a0 a2 a3 : IVec S500000 32) (a5 : FVec Ideal S50000x128 .f32) (a6 : FVec Ideal S500x128 .f32)
    (a7 : FVec Ideal S366x128 .f32) : FVec Ideal S500000x384 .f32 :=
  concatenate S500000x384 1
    [⟨S500000x128, Host.gather gather_S500x128_S500000x1_S500000x128_1_0_n_n_0_1_1128 a6 (broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 500#32))) a2))⟩,
     ⟨S500000x128, Host.gather gather_S50000x128_S500000x1_S500000x128_1_0_n_n_0_1_1128 a5 (broadcastInDim S500000x1 ![0] bcast_S500000_S500000x1_0 (select (cmpi .slt a0 (broadcastInDim S500000 ![] bcast_S_S500000 (constantI S_ 32 0#32))) (addi a0 (broadcastInDim S500000 ![] bcast_S_S500000 (constantI S_ 32 50000#32))) a0))⟩,
     ⟨S500000x128, Host.gather gather_S366x128_S500000x1_S500000x128_1_0_n_n_0_1_1128 a7 (broadcastInDim S500000x1 ![0] bcast_S500000_S500000x1_0 (select (cmpi .slt a3 (broadcastInDim S500000 ![] bcast_S_S500000 (constantI S_ 32 0#32))) (addi a3 (broadcastInDim S500000 ![] bcast_S_S500000 (constantI S_ 32 366#32))) a3))⟩]
    concatenates_S500000x128_S500000x128_S500000x128_S500000x384_d1

/-- The first 27 host operations leave, in `main_v6`, the rows of `main_arg6` at the indices `main_arg2`. -/
theorem pre_v6 (W : Valuation τ sig (Elt Ideal)) :
    StableHlo.after ((hostOps0 (F := Ideal)).take 27) W (Proc.devRef .tc main_v6)
      = Host.gather gather_S500x128_S500000x1_S500000x128_1_0_n_n_0_1_1128 (W (Proc.devRef .tc main_arg6))
          (broadcastInDim S500000x1 ![0] bcast_S500000_S500000x1_0 (select (cmpi .slt (W (Proc.devRef .tc main_arg2)) (broadcastInDim S500000 ![] bcast_S_S500000 (constantI S_ 32 0#32))) (addi (W (Proc.devRef .tc main_arg2)) (broadcastInDim S500000 ![] bcast_S_S500000 (constantI S_ 32 500#32))) (W (Proc.devRef .tc main_arg2)))) := by
  simp only [hostOps0, List.take_succ_cons, List.take_zero]
  after_results_simp <;> rfl

/-- The first 27 host operations leave, in `main_v20`, the rows of `main_arg5` at the indices `main_arg0`. -/
theorem pre_v20 (W : Valuation τ sig (Elt Ideal)) :
    StableHlo.after ((hostOps0 (F := Ideal)).take 27) W (Proc.devRef .tc main_v20)
      = Host.gather gather_S50000x128_S500000x1_S500000x128_1_0_n_n_0_1_1128 (W (Proc.devRef .tc main_arg5))
          (broadcastInDim S500000x1 ![0] bcast_S500000_S500000x1_0 (select (cmpi .slt (W (Proc.devRef .tc main_arg0)) (broadcastInDim S500000 ![] bcast_S_S500000 (constantI S_ 32 0#32))) (addi (W (Proc.devRef .tc main_arg0)) (broadcastInDim S500000 ![] bcast_S_S500000 (constantI S_ 32 50000#32))) (W (Proc.devRef .tc main_arg0)))) := by
  simp only [hostOps0, List.take_succ_cons, List.take_zero]
  after_results_simp <;> rfl

/-- The first 27 host operations leave, in `main_v13`, the rows of `main_arg7` at the indices `main_arg3`. -/
theorem pre_v13 (W : Valuation τ sig (Elt Ideal)) :
    StableHlo.after ((hostOps0 (F := Ideal)).take 27) W (Proc.devRef .tc main_v13)
      = Host.gather gather_S366x128_S500000x1_S500000x128_1_0_n_n_0_1_1128 (W (Proc.devRef .tc main_arg7))
          (broadcastInDim S500000x1 ![0] bcast_S500000_S500000x1_0 (select (cmpi .slt (W (Proc.devRef .tc main_arg3)) (broadcastInDim S500000 ![] bcast_S_S500000 (constantI S_ 32 0#32))) (addi (W (Proc.devRef .tc main_arg3)) (broadcastInDim S500000 ![] bcast_S_S500000 (constantI S_ 32 366#32))) (W (Proc.devRef .tc main_arg3)))) := by
  simp only [hostOps0, List.take_succ_cons, List.take_zero]
  after_results_simp <;> rfl

/-- Three arrays side by side, each replaced by an equal one. -/
theorem concat3_congr {x6 x20 x13 g6 g20 g13 : FVec Ideal S500000x128 .f32} (h6 : x6 = g6) (h20 : x20 = g20) (h13 : x13 = g13) :
    concatenate S500000x384 1 [⟨S500000x128, x6⟩, ⟨S500000x128, x20⟩, ⟨S500000x128, x13⟩]
        concatenates_S500000x128_S500000x128_S500000x128_S500000x384_d1
      = concatenate S500000x384 1 [⟨S500000x128, g6⟩, ⟨S500000x128, g20⟩, ⟨S500000x128, g13⟩]
        concatenates_S500000x128_S500000x128_S500000x128_S500000x384_d1 := by
  subst h6 h20 h13; rfl

/-- After the first stretch of host operations the first kernel's gathered input is `gathered` of the arguments. -/
theorem after0_v21 (W : Valuation τ sig (Elt Ideal)) :
    StableHlo.after (hostOps0 (F := Ideal)) W (Proc.devRef .tc main_v21)
      = gathered (W (Proc.devRef .tc main_arg0)) (W (Proc.devRef .tc main_arg2)) (W (Proc.devRef .tc main_arg3))
          (W (Proc.devRef .tc main_arg5)) (W (Proc.devRef .tc main_arg6)) (W (Proc.devRef .tc main_arg7)) := by
  after_results_simp
  exact concat3_congr (pre_v6 W) (pre_v20 W) (pre_v13 W)

/-- The mean of the incoming messages per node, as the host operations between the first and the second kernel spell
    it: the messages `msg` summed into their destination rows `a1`, divided by the number of messages each node
    receives, that number raised to at least 1. -/
def aggregated (a1 : IVec S500000 32) (msg : FVec Ideal S500000x128 .f32) : FVec Ideal S50000x128 .f32 :=
  Host.divf (F := Ideal)
    (Host.scatterAdd (F := Ideal) scatter_S50000x128_S500000x1_S500000x128_1_0_0_1
      (broadcastInDim S50000x128 ![] bcast_S_S50000x128 (constant (F := Ideal) S_ .f32 0x00000000#32))
      (broadcastInDim S500000x1 ![0] bcast_S500000_S500000x1_0 a1) msg)
    (broadcastInDim S50000x128 ![0, 1] bcast_S50000x1_S50000x128_0_1
      (broadcastInDim S50000x1 ![0] bcast_S50000_S50000x1_0
        (maximumf
          (Host.scatterAdd (F := Ideal) scatter_S50000_S500000x1_S500000_n_0_0_1
            (broadcastInDim S50000 ![] bcast_S_S50000 (constant (F := Ideal) S_ .f32 0x00000000#32))
            (broadcastInDim S500000x1 ![0] bcast_S500000_S500000x1_0 a1)
            (broadcastInDim S500000 ![] bcast_S_S500000 (constant (F := Ideal) S_ .f32 0x3F800000#32)))
          (broadcastInDim S50000 ![] bcast_S_S50000 (constant (F := Ideal) S_ .f32 0x3F800000#32)))))

/-- After the second stretch of host operations the first update kernel's residual is `aggregated` of the destination
    indices and of what the first kernel left in `main_v28`. -/
theorem after1_v40 (W : Valuation τ sig (Elt Ideal)) :
    StableHlo.after (hostOps1 (F := Ideal)) W (Proc.devRef .tc main_v40)
      = aggregated (W (Proc.devRef .tc main_arg1)) (W (Proc.devRef .tc main_v28)) := by
  after_results_simp <;> rfl

end Cert.KernelIdeal.Host

end
-- ==== Proof.RefValue.lean ====
import proofs.«131206_j386547057414_1_alg».proof.Proof.Gen.ReferenceIdeal.Run
import proofs.«131206_j386547057414_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

/-!
  The reference program's three results at the ideal instance, read index by index.

  A linear update `x · W + b` of a row-major matrix `x` is, at row `r` and column `j`,
  `(∑ k, x (r, k) * W (k, j)) + b j`: the host's `dot_general` contracts the one shared axis and the
  bias is broadcast down the rows.
-/

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The relation and time updates: `x · W + b` at an index -/

/-- Row `r`, contraction coordinate `k` of the left operand. -/
theorem lidx51_ix (r : Fin 500) (j k : Fin 128) : Read.lidx_main_v51 (ix2 r j) k = ix2 r k :=
  funext fun a => Fin.ext (by match a with | ⟨0, _⟩ => rfl | ⟨1, _⟩ => rfl)
/-- Contraction coordinate `k`, column `j` of the right operand. -/
theorem ridx51_ix (r : Fin 500) (j k : Fin 128) : Read.ridx_main_v51 (ix2 r j) k = ix2 k j :=
  funext fun a => Fin.ext (by match a with | ⟨0, _⟩ => rfl | ⟨1, _⟩ => rfl)
/-- The bias broadcast down the rows is read at the column. -/
theorem bidx53_ix (r : Fin 500) (j : Fin 128) : Read.idx_main_v52 (Read.idx_main_v53 (ix2 r j)) = ix1 j :=
  funext fun a => Fin.ext (by match a with | ⟨0, _⟩ => rfl)

/-- The relation update at `(r, j)`: `(∑ k, rel (r, k) * W (k, j)) + b j`. -/
theorem R54_apply (a6 : FVec Ideal S500x128 .f32) (a14 : FVec Ideal S128x128 .f32) (a15 : FVec Ideal S128 .f32)
    (r : Fin 500) (j : Fin 128) :
    (addf (Host.dotGeneral (F := Ideal) dot_S500x128_S128x128_S500x128_1_0_0_1_n_n none a6 a14)
      (broadcastInDim S500x128 ![0, 1] bcast_S1x128_S500x128_0_1 (broadcastInDim S1x128 ![1] bcast_S128_S1x128_1 a15))) (ix2 r j)
      = (∑ k : Fin 128, a6 (ix2 r k) * a14 (ix2 k j)) + a15 (ix1 j) := by
  refine (congrFun (Read.val_main_v54_eq (F := Ideal) a6 a14 a15) (ix2 r j)).trans ?_
  rw [Read.val_main_v54_apply, Read.val_main_v51_apply, Read.val_main_v53_apply, Read.val_main_v52_apply]
  simp only [lidx51_ix, ridx51_ix, bidx53_ix, Ideal.addf_def]

theorem lidx55_ix (r : Fin 366) (j k : Fin 128) : Read.lidx_main_v55 (ix2 r j) k = ix2 r k :=
  funext fun a => Fin.ext (by match a with | ⟨0, _⟩ => rfl | ⟨1, _⟩ => rfl)
theorem ridx55_ix (r : Fin 366) (j k : Fin 128) : Read.ridx_main_v55 (ix2 r j) k = ix2 k j :=
  funext fun a => Fin.ext (by match a with | ⟨0, _⟩ => rfl | ⟨1, _⟩ => rfl)
theorem bidx57_ix (r : Fin 366) (j : Fin 128) : Read.idx_main_v56 (Read.idx_main_v57 (ix2 r j)) = ix1 j :=
  funext fun a => Fin.ext (by match a with | ⟨0, _⟩ => rfl)

/-- The time update at `(r, j)`: `(∑ k, time (r, k) * W (k, j)) + b j`. -/
theorem R58_apply (a7 : FVec Ideal S366x128 .f32) (a16 : FVec Ideal S128x128 .f32) (a17 : FVec Ideal S128 .f32)
    (r : Fin 366) (j : Fin 128) :
    (addf (Host.dotGeneral (F := Ideal) dot_S366x128_S128x128_S366x128_1_0_0_1_n_n none a7 a16)
      (broadcastInDim S366x128 ![0, 1] bcast_S1x128_S366x128_0_1 (broadcastInDim S1x128 ![1] bcast_S128_S1x128_1 a17))) (ix2 r j)
      = (∑ k : Fin 128, a7 (ix2 r k) * a16 (ix2 k j)) + a17 (ix1 j) := by
  refine (congrFun (Read.val_main_v58_eq (F := Ideal) a7 a16 a17) (ix2 r j)).trans ?_
  rw [Read.val_main_v58_apply, Read.val_main_v55_apply, Read.val_main_v57_apply, Read.val_main_v56_apply]
  simp only [lidx55_ix, ridx55_ix, bidx57_ix, Ideal.addf_def]

/-! ## The message: a select between two linear maps of the composed row -/

/-- The host's `dot_general` of a 500000×384 matrix with a 384×128 one, at `(e, j)`: the sum over the one
    contracted axis. -/
theorem dot384_apply (X : FVec Ideal S500000x384 .f32) (W : FVec Ideal S384x128 .f32) (e : Fin 500000) (j : Fin 128) :
    Host.dotGeneral (F := Ideal) dot_S500000x384_S384x128_S500000x128_1_0_0_1_n_n none X W (ix2 e j)
      = ∑ k : Fin 384, X (ix2 e k) * W (ix2 k j) := by
  simp only [Host.dotGeneral]
  rw [Ideal.dotGeneral_apply, ← Equiv.sum_comp (contrEquiv1 dot_S500000x384_S384x128_S500000x128_1_0_0_1_n_n 384 rfl rfl).symm]
  refine Finset.sum_congr rfl fun k _ => ?_
  have hk := contrEquiv1_symm_val dot_S500000x384_S384x128_S500000x128_1_0_0_1_n_n 384 rfl rfl k
  have el : dot_S500000x384_S384x128_S500000x128_1_0_0_1_n_n.lhsIdx (ix2 e j)
      ((contrEquiv1 dot_S500000x384_S384x128_S500000x128_1_0_0_1_n_n 384 rfl rfl).symm k) = ix2 e k :=
    funext fun a => Fin.ext (by
      match a with
      | ⟨0, _⟩ => exact Read.lhs_main_v22_0 _ _
      | ⟨1, _⟩ => exact (Read.lhs_main_v22_1 _ _).trans hk)
  have er : dot_S500000x384_S384x128_S500000x128_1_0_0_1_n_n.rhsIdx (ix2 e j)
      ((contrEquiv1 dot_S500000x384_S384x128_S500000x128_1_0_0_1_n_n 384 rfl rfl).symm k) = ix2 k j :=
    funext fun a => Fin.ext (by
      match a with
      | ⟨0, _⟩ => exact (Read.rhs_main_v22_0 _ _).trans hk
      | ⟨1, _⟩ => exact Read.rhs_main_v22_1 _ _)
  rw [el, er]

/-- The message array as a function of the composed rows `X`: where the direction word is `0` the first linear map of
    the row, elsewhere the second. -/
def msgRef (X : FVec Ideal S500000x384 .f32) (a4 : IVec S500000 32) (a8 : FVec Ideal S384x128 .f32) (a9 : FVec Ideal S128 .f32)
    (a10 : FVec Ideal S384x128 .f32) (a11 : FVec Ideal S128 .f32) : FVec Ideal S500000x128 .f32 :=
  select (broadcastInDim S500000x128 ![0, 1] bcast_S500000x1_S500000x128_0_1 (broadcastInDim S500000x1 ![0] bcast_S500000_S500000x1_0 (cmpi .eq a4 (broadcastInDim S500000 ![] bcast_S_S500000 (constantI S_ 32 0#32)))))
    (addf (Host.dotGeneral (F := Ideal) dot_S500000x384_S384x128_S500000x128_1_0_0_1_n_n none X a8) (broadcastInDim S500000x128 ![0, 1] bcast_S1x128_S500000x128_0_1 (broadcastInDim S1x128 ![1] bcast_S128_S1x128_1 a9)))
    (addf (Host.dotGeneral (F := Ideal) dot_S500000x384_S384x128_S500000x128_1_0_0_1_n_n none X a10) (broadcastInDim S500000x128 ![0, 1] bcast_S1x128_S500000x128_0_1 (broadcastInDim S1x128 ![1] bcast_S128_S1x128_1 a11)))

/-- Its condition and its two biases are the reference's stages of those names. -/
theorem msgRef_eq (X : FVec Ideal S500000x384 .f32) (a4 : IVec S500000 32) (a8 : FVec Ideal S384x128 .f32) (a9 : FVec Ideal S128 .f32)
    (a10 : FVec Ideal S384x128 .f32) (a11 : FVec Ideal S128 .f32) :
    msgRef X a4 a8 a9 a10 a11
      = select (Read.val_main_call0_v0 (F := Ideal) a4)
          (addf (Host.dotGeneral (F := Ideal) dot_S500000x384_S384x128_S500000x128_1_0_0_1_n_n none X a8) (Read.val_main_v24 (F := Ideal) a9))
          (addf (Host.dotGeneral (F := Ideal) dot_S500000x384_S384x128_S500000x128_1_0_0_1_n_n none X a10) (Read.val_main_v28 (F := Ideal) a11)) := rfl

/-- The condition broadcast along the row is read at the edge. -/
theorem cidx_ix (e : Fin 500000) (j : Fin 128) : Read.idx_main_v32 (Read.idx_main_call0_v0 (ix2 e j)) = ix1 e :=
  funext fun a => Fin.ext (by match a with | ⟨0, _⟩ => rfl)
theorem bidx24_ix (e : Fin 500000) (j : Fin 128) : Read.idx_main_v23 (Read.idx_main_v24 (ix2 e j)) = ix1 j :=
  funext fun a => Fin.ext (by match a with | ⟨0, _⟩ => rfl)
theorem bidx28_ix (e : Fin 500000) (j : Fin 128) : Read.idx_main_v27 (Read.idx_main_v28 (ix2 e j)) = ix1 j :=
  funext fun a => Fin.ext (by match a with | ⟨0, _⟩ => rfl)

/-- The message at edge `e`, column `j`, the condition being the one-bit word of the comparison of the direction
    array with the broadcast `0`, read at the edge. -/
theorem msgRef_apply (X : FVec Ideal S500000x384 .f32) (a4 : IVec S500000 32) (a8 : FVec Ideal S384x128 .f32) (a9 : FVec Ideal S128 .f32)
    (a10 : FVec Ideal S384x128 .f32) (a11 : FVec Ideal S128 .f32) (e : Fin 500000) (j : Fin 128) :
    msgRef X a4 a8 a9 a10 a11 (ix2 e j)
      = if cmpi .eq a4 (broadcastInDim S500000 ![] bcast_S_S500000 (constantI S_ 32 0#32)) (ix1 e) = 1#1
        then (∑ k : Fin 384, X (ix2 e k) * a8 (ix2 k j)) + a9 (ix1 j)
        else (∑ k : Fin 384, X (ix2 e k) * a10 (ix2 k j)) + a11 (ix1 j) := by
  rw [msgRef_eq, select_apply, addf_apply, addf_apply, dot384_apply, dot384_apply,
    Read.val_main_call0_v0_apply, Read.val_main_v32_apply,
    Read.val_main_v24_apply, Read.val_main_v23_apply, Read.val_main_v28_apply, Read.val_main_v27_apply]
  simp only [cidx_ix, bidx24_ix, bidx28_ix]
  rfl

/-- That word is the comparison of the edge's direction word with `0`. -/
theorem cond_word (a4 : IVec S500000 32) (e : Fin 500000) :
    cmpi .eq a4 (broadcastInDim S500000 ![] bcast_S_S500000 (constantI S_ 32 0#32)) (ix1 e)
      = IntOp.cmpi .eq (a4 (ix1 e)) 0#32 := by
  show Read.val_main_v31 (F := Ideal) a4 (ix1 e) = _
  rw [Read.val_main_v31_apply, Read.val_main_v30_apply, Read.val_main_c_5_apply]

/-- The message at edge `e`, column `j`, the condition opened to the edge's direction word. -/
theorem msgRef_apply_word (X : FVec Ideal S500000x384 .f32) (a4 : IVec S500000 32) (a8 : FVec Ideal S384x128 .f32) (a9 : FVec Ideal S128 .f32)
    (a10 : FVec Ideal S384x128 .f32) (a11 : FVec Ideal S128 .f32) (e : Fin 500000) (j : Fin 128) :
    msgRef X a4 a8 a9 a10 a11 (ix2 e j)
      = if IntOp.cmpi .eq (a4 (ix1 e)) 0#32 = 1#1
        then (∑ k : Fin 384, X (ix2 e k) * a8 (ix2 k j)) + a9 (ix1 j)
        else (∑ k : Fin 384, X (ix2 e k) * a10 (ix2 k j)) + a11 (ix1 j) := by
  rw [msgRef_apply, cond_word]

/-- The direction word compares equal to `0` exactly when it is `0`. -/
theorem cmpi_eq_zero_iff (x : BitVec 32) : IntOp.cmpi .eq x 0#32 = 1#1 ↔ x = 0#32 := by
  show BitVec.ofBool (x == 0#32) = 1#1 ↔ x = 0#32
  by_cases h : x = 0#32
  · subst h; exact ⟨fun _ => rfl, fun _ => by decide⟩
  · have hb : (x == 0#32) = false := by simpa using h
    rw [hb]; exact ⟨fun h1 => absurd h1 (by decide), fun h2 => absurd h2 h⟩

/-! ## The entity update: the linear update plus the mean of the incoming messages -/

/-- The composed rows: for every edge its relation, source and time embeddings side by side (three gathers by the
    wrapped indices, joined along the columns). One opaque function of the arguments: it is never opened. -/
def comp (a0 a2 a3 : IVec S500000 32) (a5 : FVec Ideal S50000x128 .f32) (a6 : FVec Ideal S500x128 .f32)
    (a7 : FVec Ideal S366x128 .f32) : FVec Ideal S500000x384 .f32 :=
  concatenate S500000x384 1 [⟨S500000x128, (Host.gather gather_S500x128_S500000x1_S500000x128_1_0_n_n_0_1_1128 a6 (broadcastInDim S500000x1 ![0] bcast_S500000_S500000x1_0 (select (cmpi .slt a2 (broadcastInDim S500000 ![] bcast_S_S500000 (constantI S_ 32 0#32))) (addi a2 (broadcastInDim S500000 ![] bcast_S_S500000 (constantI S_ 32 500#32))) a2)))⟩, ⟨S500000x128, (Host.gather gather_S50000x128_S500000x1_S500000x128_1_0_n_n_0_1_1128 a5 (broadcastInDim S500000x1 ![0] bcast_S500000_S500000x1_0 (select (cmpi .slt a0 (broadcastInDim S500000 ![] bcast_S_S500000 (constantI S_ 32 0#32))) (addi a0 (broadcastInDim S500000 ![] bcast_S_S500000 (constantI S_ 32 50000#32))) a0)))⟩, ⟨S500000x128, (Host.gather gather_S366x128_S500000x1_S500000x128_1_0_n_n_0_1_1128 a7 (broadcastInDim S500000x1 ![0] bcast_S500000_S500000x1_0 (select (cmpi .slt a3 (broadcastInDim S500000 ![] bcast_S_S500000 (constantI S_ 32 0#32))) (addi a3 (broadcastInDim S500000 ![] bcast_S_S500000 (constantI S_ 32 366#32))) a3)))⟩] concatenates_S500000x128_S500000x128_S500000x128_S500000x384_d1

/-- The mean of the messages arriving at each entity: their scatter-added sum by destination over the scatter-added
    count of edges, the count raised to at least one. One opaque function of the destinations and the messages: it
    is never opened. -/
def hagg (a1 : IVec S500000 32) (msg : FVec Ideal S500000x128 .f32) : FVec Ideal S50000x128 .f32 :=
  Host.divf (F := Ideal) (Host.scatterAdd (F := Ideal) scatter_S50000x128_S500000x1_S500000x128_1_0_0_1 (broadcastInDim S50000x128 ![] bcast_S_S50000x128 (constant (F := Ideal) S_ .f32 0x00000000#32)) (broadcastInDim S500000x1 ![0] bcast_S500000_S500000x1_0 a1) msg) (broadcastInDim S50000x128 ![0, 1] bcast_S50000x1_S50000x128_0_1 (broadcastInDim S50000x1 ![0] bcast_S50000_S50000x1_0 (maximumf (F := Ideal) (Host.scatterAdd (F := Ideal) scatter_S50000_S500000x1_S500000_n_0_0_1 (broadcastInDim S50000 ![] bcast_S_S50000 (constant (F := Ideal) S_ .f32 0x00000000#32)) (broadcastInDim S500000x1 ![0] bcast_S500000_S500000x1_0 a1) (broadcastInDim S500000 ![] bcast_S_S500000 (constant (F := Ideal) S_ .f32 0x3F800000#32))) (broadcastInDim S50000 ![] bcast_S_S50000 (constant (F := Ideal) S_ .f32 0x3F800000#32)))))

/-- The composed rows are the reference's stage of that name. -/
theorem comp_eq (a0 a2 a3 : IVec S500000 32) (a5 : FVec Ideal S50000x128 .f32) (a6 : FVec Ideal S500x128 .f32)
    (a7 : FVec Ideal S366x128 .f32) : comp a0 a2 a3 a5 a6 a7 = Read.val_main_v21 (F := Ideal) a0 a2 a3 a5 a6 a7 := rfl

/-- The entity result as one function of the fourteen arguments it reads. -/
def R50 (a0 a1 a2 a3 a4 : IVec S500000 32) (a5 : FVec Ideal S50000x128 .f32) (a6 : FVec Ideal S500x128 .f32)
    (a7 : FVec Ideal S366x128 .f32) (a8 : FVec Ideal S384x128 .f32) (a9 : FVec Ideal S128 .f32)
    (a10 : FVec Ideal S384x128 .f32) (a11 : FVec Ideal S128 .f32) (a12 : FVec Ideal S128x128 .f32)
    (a13 : FVec Ideal S128 .f32) : FVec Ideal S50000x128 .f32 :=
  addf (addf (Host.dotGeneral (F := Ideal) dot_S50000x128_S128x128_S50000x128_1_0_0_1_n_n none a5 a12) (broadcastInDim S50000x128 ![0, 1] bcast_S1x128_S50000x128_0_1 (broadcastInDim S1x128 ![1] bcast_S128_S1x128_1 a13)))
    (hagg a1 (msgRef (comp a0 a2 a3 a5 a6 a7) a4 a8 a9 a10 a11))

/-- The reference's first result is that function of the arguments' launch contents. -/
theorem res50_eq (m : (ℓ : Loc nD τ sig) → Buf (Elt Ideal) ℓ) (c : Dev nD) :
    Cert.ReferenceIdeal.Value.res_out0 (F := Ideal) m c
      = R50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show Cert.ReferenceIdeal.Value.res_main_v50 (F := Ideal) m c = _
  unfold Cert.ReferenceIdeal.Value.res_main_v50; rfl

theorem lidx46_ix (r : Fin 50000) (j k : Fin 128) : Read.lidx_main_v46 (ix2 r j) k = ix2 r k :=
  funext fun a => Fin.ext (by match a with | ⟨0, _⟩ => rfl | ⟨1, _⟩ => rfl)
theorem ridx46_ix (r : Fin 50000) (j k : Fin 128) : Read.ridx_main_v46 (ix2 r j) k = ix2 k j :=
  funext fun a => Fin.ext (by match a with | ⟨0, _⟩ => rfl | ⟨1, _⟩ => rfl)
theorem bidx48_ix (r : Fin 50000) (j : Fin 128) : Read.idx_main_v47 (Read.idx_main_v48 (ix2 r j)) = ix1 j :=
  funext fun a => Fin.ext (by match a with | ⟨0, _⟩ => rfl)

/-- The entity result at `(r, j)`: `(∑ k, ent (r, k) * W (k, j)) + b j` plus the mean message there. -/
theorem R50_apply (a0 a1 a2 a3 a4 : IVec S500000 32) (a5 : FVec Ideal S50000x128 .f32) (a6 : FVec Ideal S500x128 .f32)
    (a7 : FVec Ideal S366x128 .f32) (a8 : FVec Ideal S384x128 .f32) (a9 : FVec Ideal S128 .f32)
    (a10 : FVec Ideal S384x128 .f32) (a11 : FVec Ideal S128 .f32) (a12 : FVec Ideal S128x128 .f32)
    (a13 : FVec Ideal S128 .f32) (r : Fin 50000) (j : Fin 128) :
    R50 a0 a1 a2 a3 a4 a5 a6 a7 a8 a9 a10 a11 a12 a13 (ix2 r j)
      = ((∑ k : Fin 128, a5 (ix2 r k) * a12 (ix2 k j)) + a13 (ix1 j))
        + hagg a1 (msgRef (comp a0 a2 a3 a5 a6 a7) a4 a8 a9 a10 a11) (ix2 r j) := by
  unfold R50
  generalize hagg a1 (msgRef (comp a0 a2 a3 a5 a6 a7) a4 a8 a9 a10 a11) = H
  rw [addf_apply]
  refine congrArg (· + H (ix2 r j)) ?_
  show Read.val_main_v49 (F := Ideal) a5 a12 a13 (ix2 r j) = _
  rw [Read.val_main_v49_apply, Read.val_main_v46_apply, Read.val_main_v48_apply, Read.val_main_v47_apply]
  simp only [lidx46_ix, ridx46_ix, bidx48_ix, Ideal.addf_def]

end Cert.ReferenceIdeal.RefValue

end
-- ==== Proof.Blend.lean ====
import Mathlib.Data.EReal.Operations

/-!
  A blend by a one-bit mask on the extended reals. With `mk` the mask's value, `1` where the bit is set and `0`
  elsewhere, `mk * A + (1 - mk) * B` is `A` where the bit is set and `B` elsewhere. This holds at infinite `A` and `B`
  too: `0 * x = 0` for every extended real `x`, `1 - 1 = 0` and `1 - 0 = 1`.
-/

namespace Cert.Blend

/-- On the extended reals `1 - 1 = 0` (both are finite). -/
theorem one_sub_one : (1 : EReal) - 1 = 0 := by
  rw [← EReal.coe_one, ← EReal.coe_sub, sub_self, EReal.coe_zero]

/-- The blend of `A` and `B` by the mask of a one-bit word is the choice between them. -/
theorem blend (word : BitVec 1) (A B mk : EReal) (hm : mk = if word = 1#1 then (1 : EReal) else 0) :
    mk * A + ((1 : EReal) - mk) * B = if word = 1#1 then A else B := by
  subst hm
  by_cases h : word = 1#1
  · simp only [if_pos h]
    rw [one_mul, one_sub_one, zero_mul, add_zero]
  · simp only [if_neg h]
    rw [zero_mul, sub_zero, one_mul, zero_add]

end Cert.Blend
-- ==== Proof.SameHost.lean ====
import proofs.«131206_j386547057414_1_alg».proof.Proof.RefValue
import proofs.«131206_j386547057414_1_alg».proof.Proof.KernelIdealHost

/-!
  The kernel program and the reference apply the same host operations around the message computation: the
  three gathers by the wrapped indices joined along the columns before it, and the scatter-added sum of the
  messages over the scatter-added edge count, raised to at least one, after it. Each program spells these chains
  over its own shapes and dimension records; the two spellings are one term, since the shapes are the same
  literals and the records have the same fields.
-/

noncomputable section

namespace Cert.SameHost

set_option maxHeartbeats 400000 in
/-- The composed rows are the same function of the arguments in both programs. -/
theorem gathered_eq_comp : Cert.KernelIdeal.Host.gathered = Cert.ReferenceIdeal.RefValue.comp := rfl

set_option maxHeartbeats 400000 in
/-- The mean of the incoming messages is the same function of the destinations and the messages in both programs. -/
theorem aggregated_eq_hagg : Cert.KernelIdeal.Host.aggregated = Cert.ReferenceIdeal.RefValue.hagg := rfl

end Cert.SameHost

end
-- ==== Proof.KernelIdealResults.lean ====
/-
  The idealized kernel's three results as the reference's terms of the argument arrays. The last boundary's contents at a
  result buffer are what its region's write-backs left (later stretches and regions do not write it); that array is the
  region's whole-array function of the contents it found; those contents are the arguments themselves (no stretch or region
  before writes an argument) or a host stretch's values of them. Index by index both programs then compute
    ent_new[r, j]  = (∑ₖ ent[r, k] · WS[k, j] + bS[j]) + h_agg[r, j],      rel_new / time_new[r, j] = ∑ₖ x[r, k] · W[k, j] + b[j],
  the kernel adding a zero array to the last two (x + 0 = x), with h_agg the SAME host chain of the per-edge messages, and the
  messages equal entry by entry: the kernel blends with mask ∈ {0, 1}, mask · A + (1 − mask) · B, the reference selects A or B on
  the same word (inv = 0).
-/
import proofs.«131206_j386547057414_1_alg».proof.Proof.KernelIdealRun
import proofs.«131206_j386547057414_1_alg».proof.Proof.KernelIdealVal0
import proofs.«131206_j386547057414_1_alg».proof.Proof.KernelIdealVal1
import proofs.«131206_j386547057414_1_alg».proof.Proof.KernelIdealVal2
import proofs.«131206_j386547057414_1_alg».proof.Proof.KernelIdealVal3
import proofs.«131206_j386547057414_1_alg».proof.Proof.KernelIdealHost
import proofs.«131206_j386547057414_1_alg».proof.Proof.RefValue
import proofs.«131206_j386547057414_1_alg».proof.Proof.Blend
import proofs.«131206_j386547057414_1_alg».proof.Proof.SameHost

set_option maxRecDepth 16384

noncomputable section

namespace Cert.KernelIdeal.Results

open Cert.KernelIdeal Cert.KernelIdeal.Gen Cert.KernelIdeal.GenP Cert.KernelIdeal.Run Cert.KernelIdeal.Host
open Cert.KernelIdeal.Body0 Cert.KernelIdeal.Body1 Cert.KernelIdeal.Body2 Cert.KernelIdeal.Body3
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## A buffer nothing has written yet holds its launch contents -/

theorem kept1 (c : Dev nD) (r : Ref sig .tc) (h0 : r ∉ hostOps0_W) : V1 m c r = m ((c.tc : Thread nD τ).loc r) :=
  V1_of m c r h0
theorem kept2 (c : Dev nD) (r : Ref sig .tc) (h0 : r ∉ hostOps0_W) (h1 : r ∉ ([main_v28] : List (Ref sig .tc))) :
    val2 m c r = m ((c.tc : Thread nD τ).loc r) :=
  (congrFun (V2_eq m c).symm _).trans ((V2_of m (leaves m) c r h1).trans (kept1 m c r h0))
theorem kept3 (c : Dev nD) (r : Ref sig .tc) (h0 : r ∉ hostOps0_W) (h1 : r ∉ ([main_v28] : List (Ref sig .tc))) (h2 : r ∉ hostOps1_W) :
    val3 m c r = m ((c.tc : Thread nD τ).loc r) :=
  (congrFun (V3_eq m c).symm _).trans ((V3_of m (leaves m) c r h2).trans ((congrFun (V2_eq m c) _).trans (kept2 m c r h0 h1)))
theorem kept4 (c : Dev nD) (r : Ref sig .tc) (h0 : r ∉ hostOps0_W) (h1 : r ∉ ([main_v28] : List (Ref sig .tc))) (h2 : r ∉ hostOps1_W)
    (h3 : r ∉ ([main_v42] : List (Ref sig .tc))) : val4 m c r = m ((c.tc : Thread nD τ).loc r) :=
  (congrFun (V4_eq m c).symm _).trans ((V4_of m (leaves m) c r h3).trans ((congrFun (V3_eq m c) _).trans (kept3 m c r h0 h1 h2)))
theorem kept5 (c : Dev nD) (r : Ref sig .tc) (h0 : r ∉ hostOps0_W) (h1 : r ∉ ([main_v28] : List (Ref sig .tc))) (h2 : r ∉ hostOps1_W)
    (h3 : r ∉ ([main_v42] : List (Ref sig .tc))) (h4 : r ∉ hostOps2_W) : val5 m c r = m ((c.tc : Thread nD τ).loc r) :=
  (congrFun (V5_eq m c).symm _).trans ((V5_of m (leaves m) c r h4).trans ((congrFun (V4_eq m c) _).trans (kept4 m c r h0 h1 h2 h3)))
theorem kept6 (c : Dev nD) (r : Ref sig .tc) (h0 : r ∉ hostOps0_W) (h1 : r ∉ ([main_v28] : List (Ref sig .tc))) (h2 : r ∉ hostOps1_W)
    (h3 : r ∉ ([main_v42] : List (Ref sig .tc))) (h4 : r ∉ hostOps2_W) (h5 : r ∉ ([main_v45] : List (Ref sig .tc))) :
    val6 m c r = m ((c.tc : Thread nD τ).loc r) :=
  (congrFun (V6_eq m c).symm _).trans ((V6_of m (leaves m) c r h5).trans ((congrFun (V5_eq m c) _).trans (kept5 m c r h0 h1 h2 h3 h4)))
theorem kept7 (c : Dev nD) (r : Ref sig .tc) (h0 : r ∉ hostOps0_W) (h1 : r ∉ ([main_v28] : List (Ref sig .tc))) (h2 : r ∉ hostOps1_W)
    (h3 : r ∉ ([main_v42] : List (Ref sig .tc))) (h4 : r ∉ hostOps2_W) (h5 : r ∉ ([main_v45] : List (Ref sig .tc))) (h6 : r ∉ hostOps3_W) :
    val7 m c r = m ((c.tc : Thread nD τ).loc r) :=
  (congrFun (V7_eq m c).symm _).trans ((V7_of m (leaves m) c r h6).trans ((congrFun (V6_eq m c) _).trans (kept6 m c r h0 h1 h2 h3 h4 h5)))

/-! ## A result buffer keeps what its region left -/

theorem result42 (c : Dev nD) : val8 m c main_v42 = left1 m c :=
  (congrFun (V8_eq m c).symm _).trans ((V8_of m (leaves m) c main_v42 (by decide)).trans ((V7_of m (leaves m) c main_v42 (by decide)).trans
    ((V6_of m (leaves m) c main_v42 (by decide)).trans ((V5_of m (leaves m) c main_v42 (by decide)).trans ((congrFun (V4_eq m c) _).trans (by
      unfold val4; exact Function.update_self (Proc.devRef .tc main_v42 : DevRef τ sig) (left1 m c) (val3 m c)))))))
theorem result45 (c : Dev nD) : val8 m c main_v45 = left2 m c :=
  (congrFun (V8_eq m c).symm _).trans ((V8_of m (leaves m) c main_v45 (by decide)).trans ((V7_of m (leaves m) c main_v45 (by decide)).trans
    ((congrFun (V6_eq m c) _).trans (by
      unfold val6; exact Function.update_self (Proc.devRef .tc main_v45 : DevRef τ sig) (left2 m c) (val5 m c)))))
theorem result48 (c : Dev nD) : val8 m c main_v48 = left3 m c := by
  unfold val8; exact Function.update_self (Proc.devRef .tc main_v48 : DevRef τ sig) (left3 m c) (val7 m c)
theorem message (c : Dev nD) : val2 m c main_v28 = left0 m c := by
  unfold val2; exact Function.update_self (Proc.devRef .tc main_v28 : DevRef τ sig) (left0 m c) (V1 m c)

/-! ## The three results as the reference's terms -/

open Cert.ReferenceIdeal.RefValue in
/-- The per-edge messages: the kernel's blend is the reference's selection, entry by entry. -/
theorem messages_eq (c : Dev nD) :
    Val0.msg (V1 m c main_v21) (V1 m c main_v25) (V1 m c main_arg8) (V1 m c main_arg10) (V1 m c main_v26) (V1 m c main_v27)
      = msgRef (comp (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11)) := by
  funext (i : S500000x128.Idx)
  obtain ⟨e, j, rfl⟩ : ∃ (e : Fin 500000) (j : Fin 128), i = ix2 e j := ⟨i 0, i 1, eq_ix2 i⟩
  rw [msgRef_apply_word]
  show Val0.msgAt (V1 m c main_v21) (V1 m c main_v25) (V1 m c main_arg8) (V1 m c main_arg10) (V1 m c main_v26) (V1 m c main_v27) e j = _
  unfold Val0.msgAt
  have hg : V1 m c main_v21 = comp (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    (after0_v21 (V0 m c)).trans (congrFun (congrFun (congrFun (congrFun (congrFun (congrFun Cert.SameHost.gathered_eq_comp _) _) _) _) _) _)
  have hk : (V1 m c main_v25 : S500000x1.Idx → EReal) (ix2 e 0)
      = if IntOp.cmpi .eq (((m ((c.tc : Thread nD τ).loc main_arg4)) : IVec S500000 32) (ix1 e)) 0#32 = 1#1 then (1 : EReal) else 0 := after0_v25_apply (V0 m c) e
  have hbi : (V1 m c main_v26 : S1x128.Idx → EReal) (ix2 0 j) = ((m ((c.tc : Thread nD τ).loc main_arg9)) : S128.Idx → EReal) (ix1 j) := after0_v26_apply (V0 m c) j
  have hbo : (V1 m c main_v27 : S1x128.Idx → EReal) (ix2 0 j) = ((m ((c.tc : Thread nD τ).loc main_arg11)) : S128.Idx → EReal) (ix1 j) := after0_v27_apply (V0 m c) j
  rw [hg, hbi, hbo, kept1 m c main_arg8 (by decide), kept1 m c main_arg10 (by decide)]
  exact Cert.Blend.blend _ _ _ _ hk

open Cert.ReferenceIdeal.RefValue in
/-- The entity update: x·WS + bS + h_agg, with h_agg the shared host chain of the messages. -/
theorem ent_new (c : Dev nD) : val8 m c main_v42 = R50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [result42]; unfold left1; rw [Val1.array_after (at3 m) c]
  funext (i : S50000x128.Idx)
  obtain ⟨r, j, rfl⟩ : ∃ (r : Fin 50000) (j : Fin 128), i = ix2 r j := ⟨i 0, i 1, eq_ix2 i⟩
  rw [R50_apply]
  show Val1.updAt (val3 m c main_arg5) (val3 m c main_arg12) (val3 m c main_v41) (val3 m c main_v40) r j = _
  unfold Val1.updAt
  have hb : (val3 m c main_v41 : S1x128.Idx → EReal) (ix2 0 j) = ((m ((c.tc : Thread nD τ).loc main_arg13)) : S128.Idx → EReal) (ix1 j) :=
    (after1_v41_apply (val2 m c) j).trans (congrFun (kept2 m c main_arg13 (by decide) (by decide)) _)
  have ha : val3 m c main_v40 = hagg (m ((c.tc : Thread nD τ).loc main_arg1)) (msgRef (comp (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))) (m ((c.tc : Thread nD τ).loc main_arg4)) (m ((c.tc : Thread nD τ).loc main_arg8)) (m ((c.tc : Thread nD τ).loc main_arg9)) (m ((c.tc : Thread nD τ).loc main_arg10)) (m ((c.tc : Thread nD τ).loc main_arg11))) := by
    refine (after1_v40 (val2 m c)).trans ?_
    rw [kept2 m c main_arg1 (by decide) (by decide), message m c, Cert.SameHost.aggregated_eq_hagg]
    refine congrArg (hagg (m ((c.tc : Thread nD τ).loc main_arg1))) ?_
    unfold left0; rw [Val0.array_after (at1 m) c]
    exact messages_eq m c
  rw [hb, ha, kept3 m c main_arg5 (by decide) (by decide) (by decide), kept3 m c main_arg12 (by decide) (by decide) (by decide)]

/-- The reference's linear update of the 500-row table, as its host operations spell it. -/
def rel_newRef (x : FVec Ideal Cert.ReferenceIdeal.S500x128 .f32) (w : FVec Ideal Cert.ReferenceIdeal.S128x128 .f32)
    (b : FVec Ideal Cert.ReferenceIdeal.S128 .f32) : FVec Ideal Cert.ReferenceIdeal.S500x128 .f32 :=
  addf (Host.dotGeneral (F := Ideal) Cert.ReferenceIdeal.dot_S500x128_S128x128_S500x128_1_0_0_1_n_n none x w)
    (broadcastInDim Cert.ReferenceIdeal.S500x128 ![0, 1] Cert.ReferenceIdeal.Gen.bcast_S1x128_S500x128_0_1
      (broadcastInDim Cert.ReferenceIdeal.S1x128 ![1] Cert.ReferenceIdeal.Gen.bcast_S128_S1x128_1 b))

open Cert.ReferenceIdeal.RefValue in
/-- The relation update: x·WR + bR (the kernel adds a zero array). -/
theorem rel_new (c : Dev nD) : val8 m c main_v45 = rel_newRef (m ((c.tc : Thread nD τ).loc main_arg6)) (m ((c.tc : Thread nD τ).loc main_arg14)) (m ((c.tc : Thread nD τ).loc main_arg15)) := by
  rw [result45]; unfold left2; rw [Val2.array_after (at5 m) c]
  funext (i : S500x128.Idx)
  obtain ⟨r, j, rfl⟩ : ∃ (r : Fin 500) (j : Fin 128), i = ix2 r j := ⟨i 0, i 1, eq_ix2 i⟩
  refine Eq.trans ?_ (R54_apply (m ((c.tc : Thread nD τ).loc main_arg6)) (m ((c.tc : Thread nD τ).loc main_arg14)) (m ((c.tc : Thread nD τ).loc main_arg15)) r j).symm
  show Val2.updAt (val5 m c main_arg6) (val5 m c main_arg14) (val5 m c main_v44) (val5 m c main_v43) r j = _
  unfold Val2.updAt
  have hz : (val5 m c main_v43 : S500x128.Idx → EReal) (ix2 r j) = (0 : EReal) := after2_v43_apply (val4 m c) r j
  have hb : (val5 m c main_v44 : S1x128.Idx → EReal) (ix2 0 j) = ((m ((c.tc : Thread nD τ).loc main_arg15)) : S128.Idx → EReal) (ix1 j) :=
    (after2_v44_apply (val4 m c) j).trans (congrFun (kept4 m c main_arg15 (by decide) (by decide) (by decide) (by decide)) _)
  rw [hz, hb, add_zero, kept5 m c main_arg6 (by decide) (by decide) (by decide) (by decide) (by decide), kept5 m c main_arg14 (by decide) (by decide) (by decide) (by decide) (by decide)]

/-- The reference's linear update of the 366-row table, as its host operations spell it. -/
def time_newRef (x : FVec Ideal Cert.ReferenceIdeal.S366x128 .f32) (w : FVec Ideal Cert.ReferenceIdeal.S128x128 .f32)
    (b : FVec Ideal Cert.ReferenceIdeal.S128 .f32) : FVec Ideal Cert.ReferenceIdeal.S366x128 .f32 :=
  addf (Host.dotGeneral (F := Ideal) Cert.ReferenceIdeal.dot_S366x128_S128x128_S366x128_1_0_0_1_n_n none x w)
    (broadcastInDim Cert.ReferenceIdeal.S366x128 ![0, 1] Cert.ReferenceIdeal.Gen.bcast_S1x128_S366x128_0_1
      (broadcastInDim Cert.ReferenceIdeal.S1x128 ![1] Cert.ReferenceIdeal.Gen.bcast_S128_S1x128_1 b))

open Cert.ReferenceIdeal.RefValue in
/-- The time update: x·WT + bT (the kernel adds a zero array). -/
theorem time_new (c : Dev nD) : val8 m c main_v48 = time_newRef (m ((c.tc : Thread nD τ).loc main_arg7)) (m ((c.tc : Thread nD τ).loc main_arg16)) (m ((c.tc : Thread nD τ).loc main_arg17)) := by
  rw [result48]; unfold left3; rw [Val3.array_after (at7 m) c]
  funext (i : S366x128.Idx)
  obtain ⟨r, j, rfl⟩ : ∃ (r : Fin 366) (j : Fin 128), i = ix2 r j := ⟨i 0, i 1, eq_ix2 i⟩
  refine Eq.trans ?_ (R58_apply (m ((c.tc : Thread nD τ).loc main_arg7)) (m ((c.tc : Thread nD τ).loc main_arg16)) (m ((c.tc : Thread nD τ).loc main_arg17)) r j).symm
  show Val3.updAt (val7 m c main_arg7) (val7 m c main_arg16) (val7 m c main_v47) (val7 m c main_v46) r j = _
  unfold Val3.updAt
  have hz : (val7 m c main_v46 : S366x128.Idx → EReal) (ix2 r j) = (0 : EReal) := after3_v46_apply (val6 m c) r j
  have hb : (val7 m c main_v47 : S1x128.Idx → EReal) (ix2 0 j) = ((m ((c.tc : Thread nD τ).loc main_arg17)) : S128.Idx → EReal) (ix1 j) :=
    (after3_v47_apply (val6 m c) j).trans (congrFun (kept6 m c main_arg17 (by decide) (by decide) (by decide) (by decide) (by decide) (by decide)) _)
  rw [hz, hb, add_zero, kept7 m c main_arg7 (by decide) (by decide) (by decide) (by decide) (by decide) (by decide) (by decide), kept7 m c main_arg16 (by decide) (by decide) (by decide) (by decide) (by decide) (by decide) (by decide)]

/-! ## The run with the results named -/

/-- Every weakly fair execution of the idealized kernel terminates with the three result buffers at the last boundary's
    contents and the arguments as launched. -/
theorem run_results (ρ : Dev nD → PrngReg) : θ_run defs (onTc (τ := τ) (main (F := Ideal))) ⟨m, fun _ => 0, ρ⟩ (fun r => ∀ c : Dev nD,
      r.2.mem ((c.tc : Thread nD τ).loc main_v42) = val8 m c main_v42
      ∧ r.2.mem ((c.tc : Thread nD τ).loc main_v45) = val8 m c main_v45
      ∧ r.2.mem ((c.tc : Thread nD τ).loc main_v48) = val8 m c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨h c _ (mem_uc main_v42 (by decide)), h c _ (mem_uc main_v45 (by decide)), h c _ (mem_uc main_v48 (by decide)),
    (h c _ (mem_uc main_arg0 (by decide))).trans ((congrFun (V8_eq m c).symm _).trans (V8_main_arg0 m (leaves m) c)),
    (h c _ (mem_uc main_arg1 (by decide))).trans ((congrFun (V8_eq m c).symm _).trans (V8_main_arg1 m (leaves m) c)),
    (h c _ (mem_uc main_arg2 (by decide))).trans ((congrFun (V8_eq m c).symm _).trans (V8_main_arg2 m (leaves m) c)),
    (h c _ (mem_uc main_arg3 (by decide))).trans ((congrFun (V8_eq m c).symm _).trans (V8_main_arg3 m (leaves m) c)),
    (h c _ (mem_uc main_arg4 (by decide))).trans ((congrFun (V8_eq m c).symm _).trans (V8_main_arg4 m (leaves m) c)),
    (h c _ (mem_uc main_arg5 (by decide))).trans ((congrFun (V8_eq m c).symm _).trans (V8_main_arg5 m (leaves m) c)),
    (h c _ (mem_uc main_arg6 (by decide))).trans ((congrFun (V8_eq m c).symm _).trans (V8_main_arg6 m (leaves m) c)),
    (h c _ (mem_uc main_arg7 (by decide))).trans ((congrFun (V8_eq m c).symm _).trans (V8_main_arg7 m (leaves m) c)),
    (h c _ (mem_uc main_arg8 (by decide))).trans ((congrFun (V8_eq m c).symm _).trans (V8_main_arg8 m (leaves m) c)),
    (h c _ (mem_uc main_arg9 (by decide))).trans ((congrFun (V8_eq m c).symm _).trans (V8_main_arg9 m (leaves m) c)),
    (h c _ (mem_uc main_arg10 (by decide))).trans ((congrFun (V8_eq m c).symm _).trans (V8_main_arg10 m (leaves m) c)),
    (h c _ (mem_uc main_arg11 (by decide))).trans ((congrFun (V8_eq m c).symm _).trans (V8_main_arg11 m (leaves m) c)),
    (h c _ (mem_uc main_arg12 (by decide))).trans ((congrFun (V8_eq m c).symm _).trans (V8_main_arg12 m (leaves m) c)),
    (h c _ (mem_uc main_arg13 (by decide))).trans ((congrFun (V8_eq m c).symm _).trans (V8_main_arg13 m (leaves m) c)),
    (h c _ (mem_uc main_arg14 (by decide))).trans ((congrFun (V8_eq m c).symm _).trans (V8_main_arg14 m (leaves m) c)),
    (h c _ (mem_uc main_arg15 (by decide))).trans ((congrFun (V8_eq m c).symm _).trans (V8_main_arg15 m (leaves m) c)),
    (h c _ (mem_uc main_arg16 (by decide))).trans ((congrFun (V8_eq m c).symm _).trans (V8_main_arg16 m (leaves m) c)),
    (h c _ (mem_uc main_arg17 (by decide))).trans ((congrFun (V8_eq m c).symm _).trans (V8_main_arg17 m (leaves m) c))⟩) (run_all m ρ)

end Cert.KernelIdeal.Results

end
-- ==== Proof.lean ====
/-
  The certificate's five claims. A GNN layer: per edge, comp = [rel_emb[rel] ‖ ent_emb[src] ‖ time_emb[time]] and the message is
  comp·WI + bI where the edge's flag inv is 0 and comp·WO + bO otherwise; h_agg is the mean of the messages over each destination
  node; ent_new = ent_emb·WS + bS + h_agg, rel_new = rel_emb·WR + bR, time_new = time_emb·WT + bT.
  The kernel program computes the messages and the three updates in four tiled kernel regions (rows in blocks, the weights whole);
  the gathers, the concatenation, the scatter-adds and the division are the same host operations in both programs.
  * The two kernel programs' frames: @main is four host stretches and four regions run in turn; each region's body loads its
    blocks, stores one payload, and its pipeline writes the output block back; no stretch and no region writes an argument.
  * The reference's frame is its run with the results dropped.
  * The idealization rewrote nothing, so there is nothing to preserve.
  * Equal results on the extended reals: a block matmul of bf16-rounded operands is, at the ideal reading, the plain sum of products
    of the rows the block holds, so each region's output array is one whole-array function of what it reads; the kernel's blend
    mask·A + (1 − mask)·B with mask ∈ {0, 1} is the reference's selection (0·x = 0 and x + 0 = x hold for every extended real, so no
    finiteness is used), and the zero arrays the kernel adds to rel_new and time_new change nothing.
-/
import proofs.«131206_j386547057414_1_alg».proof.Defs
import proofs.«131206_j386547057414_1_alg».proof.Proof.Gen.Kernel
import proofs.«131206_j386547057414_1_alg».proof.Proof.Gen.KernelIdeal
import proofs.«131206_j386547057414_1_alg».proof.Proof.Gen.ReferenceIdeal
import proofs.«131206_j386547057414_1_alg».proof.Proof.Gen.ReferenceIdeal.Run
import proofs.«131206_j386547057414_1_alg».proof.Proof.Gen.Pre_finite_inputs
import proofs.«131206_j386547057414_1_alg».proof.Proof.KernelRun
import proofs.«131206_j386547057414_1_alg».proof.Proof.KernelIdealRun
import proofs.«131206_j386547057414_1_alg».proof.Proof.KernelIdealResults
import proofs.«131206_j386547057414_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Run.frame m ρ

theorem frame_kernel_ideal : Cert.frame_KernelIdeal := fun m ρ _ => Cert.KernelIdeal.Run.frame m ρ

theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both idealized programs, run from memories that agree on the arguments, end with the same three result arrays. -/
theorem algebraic : Cert.algebraic_KernelIdeal_ReferenceIdeal := by
  intro m ρ m' ρ' _ hagree
  refine ⟨fun c => Cert.KernelIdeal.Run.val8 m c (Proc.devRef .tc Cert.KernelIdeal.main_v42), fun c => Cert.KernelIdeal.Run.val8 m c (Proc.devRef .tc Cert.KernelIdeal.main_v45),
    fun c => Cert.KernelIdeal.Run.val8 m c (Proc.devRef .tc Cert.KernelIdeal.main_v48), Cert.KernelIdeal.Results.run_results m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17⟩ := hagree c
  refine ⟨(h c).1.trans ?_, (h c).2.1.trans ?_, (h c).2.2.1.trans ?_, (h c).2.2.2⟩
  · refine (Cert.ReferenceIdeal.RefValue.res50_eq m' c).trans ?_
    rw [h0, h1, h2, h3, h4, h5, h6, h7, h8, h9, h10, h11, h12, h13]
    exact (Cert.KernelIdeal.Results.ent_new m c).symm
  · rw [h6, h14, h15]
    exact (Cert.KernelIdeal.Results.rel_new m c).symm
  · rw [h7, h16, h17]
    exact (Cert.KernelIdeal.Results.time_new m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
